-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S9x32 : Shape := ⟨2, ![9, 32]⟩
abbrev S1x32 : Shape := ⟨2, ![1, 32]⟩
abbrev S288x64 : Shape := ⟨2, ![288, 64]⟩
abbrev S1x64 : Shape := ⟨2, ![1, 64]⟩
abbrev S9216x128 : Shape := ⟨2, ![9216, 128]⟩
abbrev S1x128 : Shape := ⟨2, ![1, 128]⟩
abbrev S128x10 : Shape := ⟨2, ![128, 10]⟩
abbrev S1x10 : Shape := ⟨2, ![1, 10]⟩
abbrev S8192x1x28x28 : Shape := ⟨4, ![8192, 1, 28, 28]⟩
abbrev S_ : Shape := ⟨0, ![]⟩

class Facts : Prop where
  bcast_S_S9x32 : S_.BroadcastsInDim S9x32 (![] : Fin 0 → Fin S9x32.rank)
  reducesTo_S9x32_S_d0_1 : S9x32.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_
  bcast_S_S288x64 : S_.BroadcastsInDim S288x64 (![] : Fin 0 → Fin S288x64.rank)
  reducesTo_S288x64_S_d0_1 : S288x64.ReducesTo [0, 1] S_
  bcast_S_S1x64 : S_.BroadcastsInDim S1x64 (![] : Fin 0 → Fin S1x64.rank)
  reducesTo_S1x64_S_d0_1 : S1x64.ReducesTo [0, 1] S_
  bcast_S_S9216x128 : S_.BroadcastsInDim S9216x128 (![] : Fin 0 → Fin S9216x128.rank)
  reducesTo_S9216x128_S_d0_1 : S9216x128.ReducesTo [0, 1] S_
  bcast_S_S1x128 : S_.BroadcastsInDim S1x128 (![] : Fin 0 → Fin S1x128.rank)
  reducesTo_S1x128_S_d0_1 : S1x128.ReducesTo [0, 1] S_
  bcast_S_S128x10 : S_.BroadcastsInDim S128x10 (![] : Fin 0 → Fin S128x10.rank)
  reducesTo_S128x10_S_d0_1 : S128x10.ReducesTo [0, 1] S_
  bcast_S_S1x10 : S_.BroadcastsInDim S1x10 (![] : Fin 0 → Fin S1x10.rank)
  reducesTo_S1x10_S_d0_1 : S1x10.ReducesTo [0, 1] S_
  bcast_S_S8192x1x28x28 : S_.BroadcastsInDim S8192x1x28x28 (![] : Fin 0 → Fin S8192x1x28x28.rank)
  reducesTo_S8192x1x28x28_S_d0_1_2_3 : S8192x1x28x28.ReducesTo [0, 1, 2, 3] S_

variable [Facts]

def fn_part2 {F : FTy → Type} [FloatOps F] (main_arg7 : FVec F S1x10 .f32) (main_arg8 : FVec F S8192x1x28x28 .f32) (main_v33 : IVec S_ 1) : IVec S_ 1 :=
  let main_v34 : FVec F S1x10 .f32 := Host.absf main_arg7
  let main_cst_12 : FVec F S_ .f32 := constant S_ .f32 0x7F800000#32
  let main_v35 : FVec F S1x10 .f32 := broadcastInDim S1x10 ![] bcast_S_S1x10 main_cst_12
  let main_v36 : IVec S1x10 1 := cmpf .olt main_v34 main_v35
  let main_c_13 : IVec S_ 1 := constantI S_ 1 1#1
  let main_v37 : IVec S_ 1 := (fun x v => Host.reduce IntOp.andi x v reducesTo_S1x10_S_d0_1 h_S_) main_v36 main_c_13
  let main_v38 : IVec S_ 1 := andi main_v33 main_v37
  let main_v39 : FVec F S8192x1x28x28 .f32 := Host.absf main_arg8
  let main_cst_14 : FVec F S_ .f32 := constant S_ .f32 0x7F800000#32
  let main_v40 : FVec F S8192x1x28x28 .f32 := broadcastInDim S8192x1x28x28 ![] bcast_S_S8192x1x28x28 main_cst_14
  let main_v41 : IVec S8192x1x28x28 1 := cmpf .olt main_v39 main_v40
  let main_c_15 : IVec S_ 1 := constantI S_ 1 1#1
  let main_v42 : IVec S_ 1 := (fun x v => Host.reduce IntOp.andi x v reducesTo_S8192x1x28x28_S_d0_1_2_3 h_S_) main_v41 main_c_15
  let main_v43 : IVec S_ 1 := andi main_v38 main_v42
  main_v43

def fn_part1 {F : FTy → Type} [FloatOps F] (main_arg4 : FVec F S9216x128 .f32) (main_arg5 : FVec F S1x128 .f32) (main_arg6 : FVec F S128x10 .f32) (main_arg7 : FVec F S1x10 .f32) (main_arg8 : FVec F S8192x1x28x28 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S9216x128 .f32 := Host.absf main_arg4
  let main_cst_6 : FVec F S_ .f32 := constant S_ .f32 0x7F800000#32
  let main_v20 : FVec F S9216x128 .f32 := broadcastInDim S9216x128 ![] bcast_S_S9216x128 main_cst_6
  let main_v21 : IVec S9216x128 1 := cmpf .olt main_v19 main_v20
  let main_c_7 : IVec S_ 1 := constantI S_ 1 1#1
  let main_v22 : IVec S_ 1 := (fun x v => Host.reduce IntOp.andi x v reducesTo_S9216x128_S_d0_1 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S128x10 .f32 := Host.absf main_arg6
  let main_cst_10 : FVec F S_ .f32 := constant S_ .f32 0x7F800000#32
  let main_v30 : FVec F S128x10 .f32 := broadcastInDim S128x10 ![] bcast_S_S128x10 main_cst_10
  let main_v31 : IVec S128x10 1 := cmpf .olt main_v29 main_v30
  let main_c_11 : IVec S_ 1 := constantI S_ 1 1#1
  let main_v32 : IVec S_ 1 := (fun x v => Host.reduce IntOp.andi x v reducesTo_S128x10_S_d0_1 h_S_) main_v31 main_c_11
  let main_v33 : IVec S_ 1 := andi main_v28 main_v32
  fn_part2 (F := F) main_arg7 main_arg8 main_v33

def fn {F : FTy → Type} [FloatOps F] (main_arg0 : FVec F S9x32 .f32) (main_arg1 : FVec F S1x32 .f32) (main_arg2 : FVec F S288x64 .f32) (main_arg3 : FVec F S1x64 .f32) (main_arg4 : FVec F S9216x128 .f32) (main_arg5 : FVec F S1x128 .f32) (main_arg6 : FVec F S128x10 .f32) (main_arg7 : FVec F S1x10 .f32) (main_arg8 : FVec F S8192x1x28x28 .f32) : IVec S_ 1 :=
  let main_v0 : FVec F S9x32 .f32 := Host.absf main_arg0
  let main_cst : FVec F S_ .f32 := constant S_ .f32 0x7F800000#32
  let main_v1 : FVec F S9x32 .f32 := broadcastInDim S9x32 ![] bcast_S_S9x32 main_cst
  let main_v2 : IVec S9x32 1 := cmpf .olt main_v0 main_v1
  let main_c : IVec S_ 1 := constantI S_ 1 1#1
  let main_v3 : IVec S_ 1 := (fun x v => Host.reduce IntOp.andi x v reducesTo_S9x32_S_d0_1 h_S_) main_v2 main_c
  let main_v4 : FVec F S1x32 .f32 := Host.absf main_arg1
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  let main_v9 : FVec F S288x64 .f32 := Host.absf main_arg2
  let main_cst_2 : FVec F S_ .f32 := constant S_ .f32 0x7F800000#32
  let main_v10 : FVec F S288x64 .f32 := broadcastInDim S288x64 ![] bcast_S_S288x64 main_cst_2
  let main_v11 : IVec S288x64 1 := cmpf .olt main_v9 main_v10
  let main_c_3 : IVec S_ 1 := constantI S_ 1 1#1
  let main_v12 : IVec S_ 1 := (fun x v => Host.reduce IntOp.andi x v reducesTo_S288x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_arg7 main_arg8 main_v13 main_v16
-- ==== Kernel.lean ====
abbrev S9x32 : Shape := ⟨2, ![9, 32]⟩
abbrev S1x32 : Shape := ⟨2, ![1, 32]⟩
abbrev S288x64 : Shape := ⟨2, ![288, 64]⟩
abbrev S1x64 : Shape := ⟨2, ![1, 64]⟩
abbrev S9216x128 : Shape := ⟨2, ![9216, 128]⟩
abbrev S1x128 : Shape := ⟨2, ![1, 128]⟩
abbrev S128x10 : Shape := ⟨2, ![128, 10]⟩
abbrev S1x10 : Shape := ⟨2, ![1, 10]⟩
abbrev S8192x1x28x28 : Shape := ⟨4, ![8192, 1, 28, 28]⟩
abbrev S8192x28x28x1 : Shape := ⟨4, ![8192, 28, 28, 1]⟩
abbrev S8192x10 : Shape := ⟨2, ![8192, 10]⟩
abbrev S8x28x28x1 : Shape := ⟨4, ![8, 28, 28, 1]⟩
abbrev S8x10 : Shape := ⟨2, ![8, 10]⟩
abbrev S8x26x26x1 : Shape := ⟨4, ![8, 26, 26, 1]⟩
abbrev S1x1x1x32 : Shape := ⟨4, ![1, 1, 1, 32]⟩
abbrev S8x26x26x32 : Shape := ⟨4, ![8, 26, 26, 32]⟩
abbrev S8x24x24x32 : Shape := ⟨4, ![8, 24, 24, 32]⟩
abbrev S8x24x24x288 : Shape := ⟨4, ![8, 24, 24, 288]⟩
abbrev S4608x288 : Shape := ⟨2, ![4608, 288]⟩
abbrev S4608x64 : Shape := ⟨2, ![4608, 64]⟩
abbrev S8x24x12x2x64 : Shape := ⟨5, ![8, 24, 12, 2, 64]⟩
abbrev S8x24x12x64 : Shape := ⟨4, ![8, 24, 12, 64]⟩
abbrev S8x12x2x12x64 : Shape := ⟨5, ![8, 12, 2, 12, 64]⟩
abbrev S8x12x12x64 : Shape := ⟨4, ![8, 12, 12, 64]⟩
abbrev S1x1x1x64 : Shape := ⟨4, ![1, 1, 1, 64]⟩
abbrev S8x9216 : Shape := ⟨2, ![8, 9216]⟩
abbrev S8x128 : Shape := ⟨2, ![8, 128]⟩
abbrev S8 : Shape := ⟨1, ![8]⟩
abbrev S8x1 : Shape := ⟨2, ![8, 1]⟩

abbrev nBuf : Space → Nat
  | .hbm => 14
  | .vmem => 12
  | .smem => 0
  | _ => 0

abbrev bufTy : (tb : Table) → Fin (tcTables nBuf tb) → BufTy
  | .hbm, ⟨0, _⟩ => ⟨S9x32, .f32⟩
  | .hbm, ⟨1, _⟩ => ⟨S1x32, .f32⟩
  | .hbm, ⟨2, _⟩ => ⟨S288x64, .f32⟩
  | .hbm, ⟨3, _⟩ => ⟨S1x64, .f32⟩
  | .hbm, ⟨4, _⟩ => ⟨S9216x128, .f32⟩
  | .hbm, ⟨5, _⟩ => ⟨S1x128, .f32⟩
  | .hbm, ⟨6, _⟩ => ⟨S128x10, .f32⟩
  | .hbm, ⟨7, _⟩ => ⟨S1x10, .f32⟩
  | .hbm, ⟨8, _⟩ => ⟨S8192x1x28x28, .f32⟩
  | .hbm, ⟨9, _⟩ => ⟨S8192x28x28x1, .f32⟩
  | .hbm, ⟨10, _⟩ => ⟨S288x64, .bf16⟩
  | .hbm, ⟨11, _⟩ => ⟨S9216x128, .bf16⟩
  | .hbm, ⟨12, _⟩ => ⟨S128x10, .bf16⟩
  | .hbm, ⟨13, _⟩ => ⟨S8192x10, .f32⟩
  | .local _ .vmem, ⟨0, _⟩ => ⟨S8x28x28x1, .f32⟩
  | .local _ .vmem, ⟨1, _⟩ => ⟨S8x28x28x1, .f32⟩
  | .local _ .vmem, ⟨2, _⟩ => ⟨S9x32, .f32⟩
  | .local _ .vmem, ⟨3, _⟩ => ⟨S1x32, .f32⟩
  | .local _ .vmem, ⟨4, _⟩ => ⟨S288x64, .bf16⟩
  | .local _ .vmem, ⟨5, _⟩ => ⟨S1x64, .f32⟩
  | .local _ .vmem, ⟨6, _⟩ => ⟨S9216x128, .bf16⟩
  | .local _ .vmem, ⟨7, _⟩ => ⟨S1x128, .f32⟩
  | .local _ .vmem, ⟨8, _⟩ => ⟨S128x10, .bf16⟩
  | .local _ .vmem, ⟨9, _⟩ => ⟨S1x10, .f32⟩
  | .local _ .vmem, ⟨10, _⟩ => ⟨S8x10, .f32⟩
  | .local _ .vmem, ⟨11, _⟩ => ⟨S8x10, .f32⟩
  | _, _ => ⟨S9x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![1024], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x28x28x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S288x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9216x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x10 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x10 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S8192x1x28x28_S8192x28x28x1 : S8192x1x28x28.ShapeCasts S8192x28x28x1
  bitsLt_bf16_f32 : FTy.bits .bf16 < FTy.bits .f32
  inb_S8x28x28x1_S8x26x26x1_0_0_0_0 : ∀ a, (![0, 0, 0, 0] : Fin 4 → Nat) a + S8x26x26x1.size a ≤ S8x28x28x1.size a
  h_S8x26x26x1 : 0 < S8x26x26x1.numel
  shapeCasts_S8x26x26x1_S8x26x26x1 : S8x26x26x1.ShapeCasts S8x26x26x1
  inb_S9x32_S1x32_0_0 : ∀ a, (![0, 0] : Fin 2 → Nat) a + S1x32.size a ≤ S9x32.size a
  h_S1x32 : 0 < S1x32.numel
  shapeCasts_S1x32_S1x1x1x32 : S1x32.ShapeCasts S1x1x1x32
  broadcasts_S8x26x26x1_S8x26x26x32 : S8x26x26x1.Broadcasts S8x26x26x32
  broadcasts_S1x1x1x32_S8x26x26x32 : S1x1x1x32.Broadcasts S8x26x26x32
  inb_S8x28x28x1_S8x26x26x1_0_0_1_0 : ∀ a, (![0, 0, 1, 0] : Fin 4 → Nat) a + S8x26x26x1.size a ≤ S8x28x28x1.size a
  inb_S9x32_S1x32_1_0 : ∀ a, (![1, 0] : Fin 2 → Nat) a + S1x32.size a ≤ S9x32.size a
  inb_S8x28x28x1_S8x26x26x1_0_0_2_0 : ∀ a, (![0, 0, 2, 0] : Fin 4 → Nat) a + S8x26x26x1.size a ≤ S8x28x28x1.size a
  inb_S9x32_S1x32_2_0 : ∀ a, (![2, 0] : Fin 2 → Nat) a + S1x32.size a ≤ S9x32.size a
  inb_S8x28x28x1_S8x26x26x1_0_1_0_0 : ∀ a, (![0, 1, 0, 0] : Fin 4 → Nat) a + S8x26x26x1.size a ≤ S8x28x28x1.size a
  inb_S9x32_S1x32_3_0 : ∀ a, (![3, 0] : Fin 2 → Nat) a + S1x32.size a ≤ S9x32.size a
  inb_S8x28x28x1_S8x26x26x1_0_1_1_0 : ∀ a, (![0, 1, 1, 0] : Fin 4 → Nat) a + S8x26x26x1.size a ≤ S8x28x28x1.size a
  inb_S9x32_S1x32_4_0 : ∀ a, (![4, 0] : Fin 2 → Nat) a + S1x32.size a ≤ S9x32.size a
  inb_S8x28x28x1_S8x26x26x1_0_1_2_0 : ∀ a, (![0, 1, 2, 0] : Fin 4 → Nat) a + S8x26x26x1.size a ≤ S8x28x28x1.size a
  inb_S9x32_S1x32_5_0 : ∀ a, (![5, 0] : Fin 2 → Nat) a + S1x32.size a ≤ S9x32.size a
  inb_S8x28x28x1_S8x26x26x1_0_2_0_0 : ∀ a, (![0, 2, 0, 0] : Fin 4 → Nat) a + S8x26x26x1.size a ≤ S8x28x28x1.size a
  inb_S9x32_S1x32_6_0 : ∀ a, (![6, 0] : Fin 2 → Nat) a + S1x32.size a ≤ S9x32.size a
  inb_S8x28x28x1_S8x26x26x1_0_2_1_0 : ∀ a, (![0, 2, 1, 0] : Fin 4 → Nat) a + S8x26x26x1.size a ≤ S8x28x28x1.size a
  inb_S9x32_S1x32_7_0 : ∀ a, (![7, 0] : Fin 2 → Nat) a + S1x32.size a ≤ S9x32.size a
  inb_S8x28x28x1_S8x26x26x1_0_2_2_0 : ∀ a, (![0, 2, 2, 0] : Fin 4 → Nat) a + S8x26x26x1.size a ≤ S8x28x28x1.size a
  inb_S9x32_S1x32_8_0 : ∀ a, (![8, 0] : Fin 2 → Nat) a + S1x32.size a ≤ S9x32.size a
  inb_S1x32_S1x32_0_0 : ∀ a, (![0, 0] : Fin 2 → Nat) a + S1x32.size a ≤ S1x32.size a
  slices_S8x26x26x32_o0_0_0_0_S8x24x24x32 : S8x26x26x32.Slices ![0, 0, 0, 0] S8x24x24x32
  slices_S8x26x26x32_o0_0_1_0_S8x24x24x32 : S8x26x26x32.Slices ![0, 0, 1, 0] S8x24x24x32
  slices_S8x26x26x32_o0_0_2_0_S8x24x24x32 : S8x26x26x32.Slices ![0, 0, 2, 0] S8x24x24x32
  slices_S8x26x26x32_o0_1_0_0_S8x24x24x32 : S8x26x26x32.Slices ![0, 1, 0, 0] S8x24x24x32
  slices_S8x26x26x32_o0_1_1_0_S8x24x24x32 : S8x26x26x32.Slices ![0, 1, 1, 0] S8x24x24x32
  slices_S8x26x26x32_o0_1_2_0_S8x24x24x32 : S8x26x26x32.Slices ![0, 1, 2, 0] S8x24x24x32
  slices_S8x26x26x32_o0_2_0_0_S8x24x24x32 : S8x26x26x32.Slices ![0, 2, 0, 0] S8x24x24x32
  slices_S8x26x26x32_o0_2_1_0_S8x24x24x32 : S8x26x26x32.Slices ![0, 2, 1, 0] S8x24x24x32
  slices_S8x26x26x32_o0_2_2_0_S8x24x24x32 : S8x26x26x32.Slices ![0, 2, 2, 0] S8x24x24x32
  concatenates_S8x24x24x32_S8x24x24x32_S8x24x24x32_S8x24x24x32_S8x24x24x32_S8x24x24x32_S8x24x24x32_S8x24x24x32_S8x24x24x32_S8x24x24x288_d3 : Shape.Concatenates [S8x24x24x32, S8x24x24x32, S8x24x24x32, S8x24x24x32, S8x24x24x32, S8x24x24x32, S8x24x24x32, S8x24x24x32, S8x24x24x32] S8x24x24x288 3
  shapeCasts_S8x24x24x288_S4608x288 : S8x24x24x288.ShapeCasts S4608x288
  inb_S288x64_S288x64_0_0 : ∀ a, (![0, 0] : Fin 2 → Nat) a + S288x64.size a ≤ S288x64.size a
  h_S288x64 : 0 < S288x64.numel
  shapeCasts_S288x64_S288x64 : S288x64.ShapeCasts S288x64
  shapeCasts_S4608x64_S8x24x12x2x64 : S4608x64.ShapeCasts S8x24x12x2x64
  reduces_S8x24x12x2x64_S8x24x12x64 : S8x24x12x2x64.Reduces [3] S8x24x12x64
  shapeCasts_S8x24x12x64_S8x12x2x12x64 : S8x24x12x64.ShapeCasts S8x12x2x12x64
  reduces_S8x12x2x12x64_S8x12x12x64 : S8x12x2x12x64.Reduces [2] S8x12x12x64
  inb_S1x64_S1x64_0_0 : ∀ a, (![0, 0] : Fin 2 → Nat) a + S1x64.size a ≤ S1x64.size a
  h_S1x64 : 0 < S1x64.numel
  shapeCasts_S1x64_S1x1x1x64 : S1x64.ShapeCasts S1x1x1x64
  broadcasts_S1x1x1x64_S8x12x12x64 : S1x1x1x64.Broadcasts S8x12x12x64
  shapeCasts_S8x12x12x64_S8x9216 : S8x12x12x64.ShapeCasts S8x9216
  inb_S9216x128_S9216x128_0_0 : ∀ a, (![0, 0] : Fin 2 → Nat) a + S9216x128.size a ≤ S9216x128.size a
  h_S9216x128 : 0 < S9216x128.numel
  shapeCasts_S9216x128_S9216x128 : S9216x128.ShapeCasts S9216x128
  inb_S1x128_S1x128_0_0 : ∀ a, (![0, 0] : Fin 2 → Nat) a + S1x128.size a ≤ S1x128.size a
  h_S1x128 : 0 < S1x128.numel
  broadcasts_S1x128_S8x128 : S1x128.Broadcasts S8x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  broadcasts_S1x10_S8x10 : S1x10.Broadcasts S8x10
  reduces_S8x10_S8 : S8x10.Reduces [1] S8
  shapeCasts_S8_S8x1 : S8.ShapeCasts S8x1
  broadcasts_S8x1_S8x10 : S8x1.Broadcasts S8x10
  inb_S8x10_S8x10_0_0 : ∀ a, (![0, 0] : Fin 2 → Nat) a + S8x10.size a ≤ S8x10.size a
  h_S8x10 : 0 < S8x10.numel
  dot_S4608x288_S288x64_S4608x64_1_0_0_1_n_n_wf : DotDims.WF S4608x288 S288x64 S4608x64 [1] [0] [0] [1] [] []
  dot_S8x9216_S9216x128_S8x128_1_0_0_1_n_n_wf : DotDims.WF S8x9216 S9216x128 S8x128 [1] [0] [0] [1] [] []
  dot_S8x128_S128x10_S8x10_1_0_0_1_n_n_wf : DotDims.WF S8x128 S128x10 S8x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x28x28x1.size a ≤ S8192x28x28x1.size a
  hwx0_0 : ∀ i : grid0.Coords, EltTy.bits .f32 = 32 ∨ (Rect.block (s := S8192x28x28x1) S8x28x28x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x32.size a ≤ S9x32.size a
  hwx0_1 : ∀ i : grid0.Coords, EltTy.bits .f32 = 32 ∨ (Rect.block (s := S9x32) S9x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S288x64.size a ≤ S288x64.size a
  hwx0_3 : ∀ i : grid0.Coords, EltTy.bits .bf16 = 32 ∨ (Rect.block (s := S288x64) S288x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S9216x128.size a ≤ S9216x128.size a
  hwx0_5 : ∀ i : grid0.Coords, EltTy.bits .bf16 = 32 ∨ (Rect.block (s := S9216x128) S9216x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x10.size a ≤ S128x10.size a
  hwx0_7 : ∀ i : grid0.Coords, EltTy.bits .bf16 = 32 ∨ (Rect.block (s := S128x10) S128x10.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10.size a ≤ S1x10.size a
  hwx0_8 : ∀ i : grid0.Coords, EltTy.bits .f32 = 32 ∨ (Rect.block (s := S1x10) S1x10.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x10.size a ≤ S8192x10.size a
  hwx0_9 : ∀ i : grid0.Coords, EltTy.bits .f32 = 32 ∨ (Rect.block (s := S8192x10) S8x10.size (cc0_transform_9 i) (hinb0_9 i)).WholeWords (EltTy.packing .f32)

variable [Facts₀]

def dot_S4608x288_S288x64_S4608x64_1_0_0_1_n_n : DotDims S4608x288 S288x64 S4608x64 where
  lhsContracting := [1]
  rhsContracting := [0]
  lhsNonContracting := [0]
  rhsNonContracting := [1]
  lhsBatch := []
  rhsBatch := []
  wf := dot_S4608x288_S288x64_S4608x64_1_0_0_1_n_n_wf
def dot_S8x9216_S9216x128_S8x128_1_0_0_1_n_n : DotDims S8x9216 S9216x128 S8x128 where
  lhsContracting := [1]
  rhsContracting := [0]
  lhsNonContracting := [0]
  rhsNonContracting := [1]
  lhsBatch := []
  rhsBatch := []
  wf := dot_S8x9216_S9216x128_S8x128_1_0_0_1_n_n_wf
def dot_S8x128_S128x10_S8x10_1_0_0_1_n_n : DotDims S8x128 S128x10 S8x10 where
  lhsContracting := [1]
  rhsContracting := [0]
  lhsNonContracting := [0]
  rhsNonContracting := [1]
  lhsBatch := []
  rhsBatch := []
  wf := dot_S8x128_S128x10_S8x10_1_0_0_1_n_n_wf

abbrev win0_0 : Pipeline.Window sig grid0 :=
  Pipeline.Window.ofSpec (Memref.whole main_v0) S8x28x28x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S9x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S288x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S9216x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S8x10.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S9x32 : Shape := ⟨2, ![9, 32]⟩
abbrev S1x32 : Shape := ⟨2, ![1, 32]⟩
abbrev S288x64 : Shape := ⟨2, ![288, 64]⟩
abbrev S1x64 : Shape := ⟨2, ![1, 64]⟩
abbrev S9216x128 : Shape := ⟨2, ![9216, 128]⟩
abbrev S1x128 : Shape := ⟨2, ![1, 128]⟩
abbrev S128x10 : Shape := ⟨2, ![128, 10]⟩
abbrev S1x10 : Shape := ⟨2, ![1, 10]⟩
abbrev S8192x1x28x28 : Shape := ⟨4, ![8192, 1, 28, 28]⟩
abbrev S8192x28x28x1 : Shape := ⟨4, ![8192, 28, 28, 1]⟩
abbrev S8192x12x12x64 : Shape := ⟨4, ![8192, 12, 12, 64]⟩
abbrev S4x28x28x1 : Shape := ⟨4, ![4, 28, 28, 1]⟩
abbrev S4x12x12x64 : Shape := ⟨4, ![4, 12, 12, 64]⟩
abbrev S4x26x26x1 : Shape := ⟨4, ![4, 26, 26, 1]⟩
abbrev S1x1x1x32 : Shape := ⟨4, ![1, 1, 1, 32]⟩
abbrev S4x26x26x32 : Shape := ⟨4, ![4, 26, 26, 32]⟩
abbrev S4x24x24x32 : Shape := ⟨4, ![4, 24, 24, 32]⟩
abbrev S4x24x24x288 : Shape := ⟨4, ![4, 24, 24, 288]⟩
abbrev S2304x288 : Shape := ⟨2, ![2304, 288]⟩
abbrev S2304x64 : Shape := ⟨2, ![2304, 64]⟩
abbrev S1152x2x64 : Shape := ⟨3, ![1152, 2, 64]⟩
abbrev S1152x64 : Shape := ⟨2, ![1152, 64]⟩
abbrev S4x12x2x12x64 : Shape := ⟨5, ![4, 12, 2, 12, 64]⟩
abbrev S8192x9216 : Shape := ⟨2, ![8192, 9216]⟩
abbrev S8192x10 : Shape := ⟨2, ![8192, 10]⟩
abbrev S256x2304 : Shape := ⟨2, ![256, 2304]⟩
abbrev S256x10 : Shape := ⟨2, ![256, 10]⟩
abbrev S256x128 : Shape := ⟨2, ![256, 128]⟩
abbrev S2304x128 : Shape := ⟨2, ![2304, 128]⟩
abbrev S256 : Shape := ⟨1, ![256]⟩
abbrev S256x1 : Shape := ⟨2, ![256, 1]⟩

abbrev nBuf : Space → Nat
  | .hbm => 13
  | .vmem => 17
  | .smem => 0
  | _ => 0

abbrev bufTy : (tb : Table) → Fin (tcTables nBuf tb) → BufTy
  | .hbm, ⟨0, _⟩ => ⟨S9x32, .f32⟩
  | .hbm, ⟨1, _⟩ => ⟨S1x32, .f32⟩
  | .hbm, ⟨2, _⟩ => ⟨S288x64, .f32⟩
  | .hbm, ⟨3, _⟩ => ⟨S1x64, .f32⟩
  | .hbm, ⟨4, _⟩ => ⟨S9216x128, .f32⟩
  | .hbm, ⟨5, _⟩ => ⟨S1x128, .f32⟩
  | .hbm, ⟨6, _⟩ => ⟨S128x10, .f32⟩
  | .hbm, ⟨7, _⟩ => ⟨S1x10, .f32⟩
  | .hbm, ⟨8, _⟩ => ⟨S8192x1x28x28, .f32⟩
  | .hbm, ⟨9, _⟩ => ⟨S8192x28x28x1, .f32⟩
  | .hbm, ⟨10, _⟩ => ⟨S8192x12x12x64, .f32⟩
  | .hbm, ⟨11, _⟩ => ⟨S8192x9216, .f32⟩
  | .hbm, ⟨12, _⟩ => ⟨S8192x10, .f32⟩
  | .local _ .vmem, ⟨0, _⟩ => ⟨S4x28x28x1, .f32⟩
  | .local _ .vmem, ⟨1, _⟩ => ⟨S4x28x28x1, .f32⟩
  | .local _ .vmem, ⟨2, _⟩ => ⟨S9x32, .f32⟩
  | .local _ .vmem, ⟨3, _⟩ => ⟨S1x32, .f32⟩
  | .local _ .vmem, ⟨4, _⟩ => ⟨S288x64, .f32⟩
  | .local _ .vmem, ⟨5, _⟩ => ⟨S1x64, .f32⟩
  | .local _ .vmem, ⟨6, _⟩ => ⟨S4x12x12x64, .f32⟩
  | .local _ .vmem, ⟨7, _⟩ => ⟨S4x12x12x64, .f32⟩
  | .local _ .vmem, ⟨8, _⟩ => ⟨S256x2304, .f32⟩
  | .local _ .vmem, ⟨9, _⟩ => ⟨S256x2304, .f32⟩
  | .local _ .vmem, ⟨10, _⟩ => ⟨S9216x128, .f32⟩
  | .local _ .vmem, ⟨11, _⟩ => ⟨S1x128, .f32⟩
  | .local _ .vmem, ⟨12, _⟩ => ⟨S128x10, .f32⟩
  | .local _ .vmem, ⟨13, _⟩ => ⟨S1x10, .f32⟩
  | .local _ .vmem, ⟨14, _⟩ => ⟨S256x10, .f32⟩
  | .local _ .vmem, ⟨15, _⟩ => ⟨S256x10, .f32⟩
  | .local _ .vmem, ⟨16, _⟩ => ⟨S256x128, .f32⟩
  | _, _ => ⟨S9x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![2048], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x28x28x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S288x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x12x12x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![32, 4], ![false, false]⟩

def k1_mult1 (i : grid1.Coords) : BitVec 32 :=
  let arg1 : BitVec 32 := BitVec.ofNat 32 (i 1).val
  let c2304_i32 : BitVec 32 := 2304#32
  let v3 : BitVec 32 := Scalar.muli arg1 c2304_i32
  v3
def k1_off1 (i : grid1.Coords) : Fin 2 → Nat :=
  let arg1 : BitVec 32 := BitVec.ofNat 32 (i 1).val
  let c2304_i32 : BitVec 32 := 2304#32
  let v3 : BitVec 32 := Scalar.muli arg1 c2304_i32
  let v4 : BitVec 32 := v3
  let v8 : Index := Scalar.indexCast v4
  let c0_4 : Index := 0#32
  ![v8.toNat, 0]
def k1_cond2 (i : grid1.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_7 : BitVec 32 := 0#32
  let v17 : BitVec 1 := Scalar.cmpi .ne v16 c0_i32_7
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x2304 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S9216x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S256x10 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S8192x1x28x28_S8192x28x28x1 : S8192x1x28x28.ShapeCasts S8192x28x28x1
  inb_S4x28x28x1_S4x26x26x1_0_0_0_0 : ∀ a, (![0, 0, 0, 0] : Fin 4 → Nat) a + S4x26x26x1.size a ≤ S4x28x28x1.size a
  h_S4x26x26x1 : 0 < S4x26x26x1.numel
  shapeCasts_S4x26x26x1_S4x26x26x1 : S4x26x26x1.ShapeCasts S4x26x26x1
  inb_S9x32_S1x32_0_0 : ∀ a, (![0, 0] : Fin 2 → Nat) a + S1x32.size a ≤ S9x32.size a
  h_S1x32 : 0 < S1x32.numel
  shapeCasts_S1x32_S1x1x1x32 : S1x32.ShapeCasts S1x1x1x32
  broadcasts_S4x26x26x1_S4x26x26x32 : S4x26x26x1.Broadcasts S4x26x26x32
  broadcasts_S1x1x1x32_S4x26x26x32 : S1x1x1x32.Broadcasts S4x26x26x32
  inb_S4x28x28x1_S4x26x26x1_0_0_1_0 : ∀ a, (![0, 0, 1, 0] : Fin 4 → Nat) a + S4x26x26x1.size a ≤ S4x28x28x1.size a
  inb_S9x32_S1x32_1_0 : ∀ a, (![1, 0] : Fin 2 → Nat) a + S1x32.size a ≤ S9x32.size a
  inb_S4x28x28x1_S4x26x26x1_0_0_2_0 : ∀ a, (![0, 0, 2, 0] : Fin 4 → Nat) a + S4x26x26x1.size a ≤ S4x28x28x1.size a
  inb_S9x32_S1x32_2_0 : ∀ a, (![2, 0] : Fin 2 → Nat) a + S1x32.size a ≤ S9x32.size a
  inb_S4x28x28x1_S4x26x26x1_0_1_0_0 : ∀ a, (![0, 1, 0, 0] : Fin 4 → Nat) a + S4x26x26x1.size a ≤ S4x28x28x1.size a
  inb_S9x32_S1x32_3_0 : ∀ a, (![3, 0] : Fin 2 → Nat) a + S1x32.size a ≤ S9x32.size a
  inb_S4x28x28x1_S4x26x26x1_0_1_1_0 : ∀ a, (![0, 1, 1, 0] : Fin 4 → Nat) a + S4x26x26x1.size a ≤ S4x28x28x1.size a
  inb_S9x32_S1x32_4_0 : ∀ a, (![4, 0] : Fin 2 → Nat) a + S1x32.size a ≤ S9x32.size a
  inb_S4x28x28x1_S4x26x26x1_0_1_2_0 : ∀ a, (![0, 1, 2, 0] : Fin 4 → Nat) a + S4x26x26x1.size a ≤ S4x28x28x1.size a
  inb_S9x32_S1x32_5_0 : ∀ a, (![5, 0] : Fin 2 → Nat) a + S1x32.size a ≤ S9x32.size a
  inb_S4x28x28x1_S4x26x26x1_0_2_0_0 : ∀ a, (![0, 2, 0, 0] : Fin 4 → Nat) a + S4x26x26x1.size a ≤ S4x28x28x1.size a
  inb_S9x32_S1x32_6_0 : ∀ a, (![6, 0] : Fin 2 → Nat) a + S1x32.size a ≤ S9x32.size a
  inb_S4x28x28x1_S4x26x26x1_0_2_1_0 : ∀ a, (![0, 2, 1, 0] : Fin 4 → Nat) a + S4x26x26x1.size a ≤ S4x28x28x1.size a
  inb_S9x32_S1x32_7_0 : ∀ a, (![7, 0] : Fin 2 → Nat) a + S1x32.size a ≤ S9x32.size a
  inb_S4x28x28x1_S4x26x26x1_0_2_2_0 : ∀ a, (![0, 2, 2, 0] : Fin 4 → Nat) a + S4x26x26x1.size a ≤ S4x28x28x1.size a
  inb_S9x32_S1x32_8_0 : ∀ a, (![8, 0] : Fin 2 → Nat) a + S1x32.size a ≤ S9x32.size a
  inb_S1x32_S1x32_0_0 : ∀ a, (![0, 0] : Fin 2 → Nat) a + S1x32.size a ≤ S1x32.size a
  slices_S4x26x26x32_o0_0_0_0_S4x24x24x32 : S4x26x26x32.Slices ![0, 0, 0, 0] S4x24x24x32
  slices_S4x26x26x32_o0_0_1_0_S4x24x24x32 : S4x26x26x32.Slices ![0, 0, 1, 0] S4x24x24x32
  slices_S4x26x26x32_o0_0_2_0_S4x24x24x32 : S4x26x26x32.Slices ![0, 0, 2, 0] S4x24x24x32
  slices_S4x26x26x32_o0_1_0_0_S4x24x24x32 : S4x26x26x32.Slices ![0, 1, 0, 0] S4x24x24x32
  slices_S4x26x26x32_o0_1_1_0_S4x24x24x32 : S4x26x26x32.Slices ![0, 1, 1, 0] S4x24x24x32
  slices_S4x26x26x32_o0_1_2_0_S4x24x24x32 : S4x26x26x32.Slices ![0, 1, 2, 0] S4x24x24x32
  slices_S4x26x26x32_o0_2_0_0_S4x24x24x32 : S4x26x26x32.Slices ![0, 2, 0, 0] S4x24x24x32
  slices_S4x26x26x32_o0_2_1_0_S4x24x24x32 : S4x26x26x32.Slices ![0, 2, 1, 0] S4x24x24x32
  slices_S4x26x26x32_o0_2_2_0_S4x24x24x32 : S4x26x26x32.Slices ![0, 2, 2, 0] S4x24x24x32
  concatenates_S4x24x24x32_S4x24x24x32_S4x24x24x32_S4x24x24x32_S4x24x24x32_S4x24x24x32_S4x24x24x32_S4x24x24x32_S4x24x24x32_S4x24x24x288_d3 : Shape.Concatenates [S4x24x24x32, S4x24x24x32, S4x24x24x32, S4x24x24x32, S4x24x24x32, S4x24x24x32, S4x24x24x32, S4x24x24x32, S4x24x24x32] S4x24x24x288 3
  shapeCasts_S4x24x24x288_S2304x288 : S4x24x24x288.ShapeCasts S2304x288
  inb_S288x64_S288x64_0_0 : ∀ a, (![0, 0] : Fin 2 → Nat) a + S288x64.size a ≤ S288x64.size a
  h_S288x64 : 0 < S288x64.numel
  inb_S1x64_S1x64_0_0 : ∀ a, (![0, 0] : Fin 2 → Nat) a + S1x64.size a ≤ S1x64.size a
  h_S1x64 : 0 < S1x64.numel
  broadcasts_S1x64_S2304x64 : S1x64.Broadcasts S2304x64
  shapeCasts_S2304x64_S1152x2x64 : S2304x64.ShapeCasts S1152x2x64
  reduces_S1152x2x64_S1152x64 : S1152x2x64.Reduces [1] S1152x64
  shapeCasts_S1152x64_S4x12x2x12x64 : S1152x64.ShapeCasts S4x12x2x12x64
  reduces_S4x12x2x12x64_S4x12x12x64 : S4x12x2x12x64.Reduces [2] S4x12x12x64
  inb_S4x12x12x64_S4x12x12x64_0_0_0_0 : ∀ a, (![0, 0, 0, 0] : Fin 4 → Nat) a + S4x12x12x64.size a ≤ S4x12x12x64.size a
  h_S4x12x12x64 : 0 < S4x12x12x64.numel
  shapeCasts_S8192x12x12x64_S8192x9216 : S8192x12x12x64.ShapeCasts S8192x9216
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x2304_S256x2304_0_0 : ∀ a, (![0, 0] : Fin 2 → Nat) a + S256x2304.size a ≤ S256x2304.size a
  h_S256x2304 : 0 < S256x2304.numel
  shapeCasts_S256x2304_S256x2304 : S256x2304.ShapeCasts S256x2304
  h_S2304x128 : 0 < S2304x128.numel
  inb_S1x128_S1x128_0_0 : ∀ a, (![0, 0] : Fin 2 → Nat) a + S1x128.size a ≤ S1x128.size a
  h_S1x128 : 0 < S1x128.numel
  broadcasts_S1x128_S256x128 : S1x128.Broadcasts S256x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  broadcasts_S1x10_S256x10 : S1x10.Broadcasts S256x10
  reduces_S256x10_S256 : S256x10.Reduces [1] S256
  shapeCasts_S256_S256x1 : S256.ShapeCasts S256x1
  broadcasts_S256x1_S256x10 : S256x1.Broadcasts S256x10
  inb_S256x10_S256x10_0_0 : ∀ a, (![0, 0] : Fin 2 → Nat) a + S256x10.size a ≤ S256x10.size a
  h_S256x10 : 0 < S256x10.numel
  dot_S2304x288_S288x64_S2304x64_1_0_0_1_n_n_wf : DotDims.WF S2304x288 S288x64 S2304x64 [1] [0] [0] [1] [] []
  dot_S256x2304_S2304x128_S256x128_1_0_0_1_n_n_wf : DotDims.WF S256x2304 S2304x128 S256x128 [1] [0] [0] [1] [] []
  dot_S256x128_S128x10_S256x10_1_0_0_1_n_n_wf : DotDims.WF S256x128 S128x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x28x28x1.size a ≤ S8192x28x28x1.size a
  hwx0_0 : ∀ i : grid0.Coords, EltTy.bits .f32 = 32 ∨ (Rect.block (s := S8192x28x28x1) S4x28x28x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x32.size a ≤ S9x32.size a
  hwx0_1 : ∀ i : grid0.Coords, EltTy.bits .f32 = 32 ∨ (Rect.block (s := S9x32) S9x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S288x64.size a ≤ S288x64.size a
  hwx0_3 : ∀ i : grid0.Coords, EltTy.bits .f32 = 32 ∨ (Rect.block (s := S288x64) S288x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x12x12x64.size a ≤ S8192x12x12x64.size a
  hwx0_5 : ∀ i : grid0.Coords, EltTy.bits .f32 = 32 ∨ (Rect.block (s := S8192x12x12x64) S4x12x12x64.size (cc0_transform_5 i) (hinb0_5 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S2304x128.size a ≤ S9216x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2304.size a ≤ S8192x9216.size a
  hwx1_0 : ∀ i : grid1.Coords, EltTy.bits .f32 = 32 ∨ (Rect.block (s := S8192x9216) S256x2304.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S9216x128.size a ≤ S9216x128.size a
  hwx1_1 : ∀ i : grid1.Coords, EltTy.bits .f32 = 32 ∨ (Rect.block (s := S9216x128) S9216x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x10.size a ≤ S128x10.size a
  hwx1_3 : ∀ i : grid1.Coords, EltTy.bits .f32 = 32 ∨ (Rect.block (s := S128x10) S128x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x10.size a ≤ S1x10.size a
  hwx1_4 : ∀ i : grid1.Coords, EltTy.bits .f32 = 32 ∨ (Rect.block (s := S1x10) S1x10.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x10.size a ≤ S8192x10.size a
  hwx1_5 : ∀ i : grid1.Coords, EltTy.bits .f32 = 32 ∨ (Rect.block (s := S8192x10) S256x10.size (cc1_transform_5 i) (hinb1_5 i)).WholeWords (EltTy.packing .f32)

variable [Facts₀]

def dot_S2304x288_S288x64_S2304x64_1_0_0_1_n_n : DotDims S2304x288 S288x64 S2304x64 where
  lhsContracting := [1]
  rhsContracting := [0]
  lhsNonContracting := [0]
  rhsNonContracting := [1]
  lhsBatch := []
  rhsBatch := []
  wf := dot_S2304x288_S288x64_S2304x64_1_0_0_1_n_n_wf
def dot_S256x2304_S2304x128_S256x128_1_0_0_1_n_n : DotDims S256x2304 S2304x128 S256x128 where
  lhsContracting := [1]
  rhsContracting := [0]
  lhsNonContracting := [0]
  rhsNonContracting := [1]
  lhsBatch := []
  rhsBatch := []
  wf := dot_S256x2304_S2304x128_S256x128_1_0_0_1_n_n_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

abbrev win0_0 : Pipeline.Window sig grid0 :=
  Pipeline.Window.ofSpec (Memref.whole main_v0) S4x28x28x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S9x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S288x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S4x12x12x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2) S256x2304.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S9216x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S1x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S256x10.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== Proof.Net.lean ====
import Idealize.ShloMosaic.PureOps.Ideal
import Idealize.ShloMosaic.Lib.ValueIdx

/-!
# The network both programs compute, as functions on the extended reals

A 28×28 one-channel image goes through a 3×3 convolution into 32 channels with bias and ReLU (26×26), a 3×3
convolution into 64 channels written as ONE sum over the 288 entries of a patch (24×24), a 2×2 maximum pool with the
second bias and ReLU (12×12×64 = 9216 features), a dense layer into 128 units with bias and ReLU, a dense layer
into 10 logits with bias, and a log-softmax.  Two arrangements of the same arithmetic are stated side by side:

* the pool taken on the raw sums, bias and ReLU after it (`featK`), against bias and ReLU first, pool after (`featR`);
* the first dense layer's sum over all 9216 features at once (`hidK`), against four partial sums of 2304 features
  added one after the other to zero (`hidR`).

Everything after the first dense layer's sum is ONE function (`head`) of that sum in both arrangements.
Arrays are functions on the index sets of literal shapes; `ix2`, `ix4` build an index from its coordinates.
-/

noncomputable section

open scoped BigOperators

namespace Cert.Net

open Idealize.ShloMosaic Idealize.ShloMosaic.ValueIdx

/-- A rank-2 array of extended reals. -/
abbrev A2 (a b : Nat) : Type := (⟨2, ![a, b]⟩ : Shape).Idx → EReal
/-- A rank-4 array of extended reals. -/
abbrev A4 (a b c d : Nat) : Type := (⟨4, ![a, b, c, d]⟩ : Shape).Idx → EReal

/-- The value a maximum over a window starts from: the pattern of minus infinity. -/
abbrev NEG : EReal := Ideal.ofBits .f32 0xFF800000#32

/-- The images re-laid from `[n, 1, i, j]` to `[n, i, j, 1]`: the same numbers (one channel), entry `(n, i, j, 0)` is entry
    `(n, 0, i, j)`. -/
def nhwc (x : A4 8192 1 28 28) : A4 8192 28 28 1 := fun y => x (ix4 (y 0) (0 : Fin 1) (y 1) (y 2))

variable (xs : A4 8192 28 28 1) (w1 : A2 9 32) (b1 : A2 1 32) (w2 : A2 288 64) (b2 : A2 1 64)
  (f1 : A2 9216 128) (f1b : A2 1 128) (f2 : A2 128 10) (f2b : A2 1 10)

/-- Tap `k` of the 3×3 window at `(i, j)` of image `n`: row offset `k / 3`, column offset `k % 3`. -/
def px (n : Fin 8192) (i j : Fin 26) (k : Fin 9) : EReal :=
  xs (ix4 n (⟨i.val + k.val / 3, by omega⟩ : Fin 28) (⟨j.val + k.val % 3, by omega⟩ : Fin 28) (0 : Fin 1))

/-- One term of the first convolution: the tap times its weight for channel `c`. -/
def t1 (n : Fin 8192) (i j : Fin 26) (c : Fin 32) (k : Fin 9) : EReal := px xs n i j k * w1 (ix2 k c)

/-- The first convolution with bias and ReLU: the nine terms added from the left, then the bias, then `max · 0`. -/
def conv1 (n : Fin 8192) (i j : Fin 26) (c : Fin 32) : EReal :=
  max (t1 xs w1 n i j c 0 + t1 xs w1 n i j c 1 + t1 xs w1 n i j c 2 + t1 xs w1 n i j c 3 + t1 xs w1 n i j c 4
        + t1 xs w1 n i j c 5 + t1 xs w1 n i j c 6 + t1 xs w1 n i j c 7 + t1 xs w1 n i j c 8 + b1 (ix2 (0 : Fin 1) c)) 0

/-- Entry `k` of the 288-long patch at `(h, w)`: tap `k / 32` (row offset `k / 32 / 3`, column offset `k / 32 % 3`) of
    channel `k % 32` of the first convolution. -/
def patch (n : Fin 8192) (h w : Fin 24) (k : Fin 288) : EReal :=
  conv1 xs w1 b1 n (⟨h.val + k.val / 32 / 3, by omega⟩ : Fin 26) (⟨w.val + k.val / 32 % 3, by omega⟩ : Fin 26)
    (⟨k.val % 32, by omega⟩ : Fin 32)

/-- The second convolution's raw sum for channel `d`: the patch against column `d` of the weights. -/
def conv2 (n : Fin 8192) (h w : Fin 24) (d : Fin 64) : EReal :=
  ∑ k : Fin 288, patch xs w1 b1 n h w k * w2 (ix2 k d)

/-- The raw sum at position `(a, b)` of the 2×2 window `(p, q)`. -/
def win (n : Fin 8192) (p q : Fin 12) (d : Fin 64) (a b : Fin 2) : EReal :=
  conv2 xs w1 b1 w2 n (⟨2 * p.val + a.val, by omega⟩ : Fin 24) (⟨2 * q.val + b.val, by omega⟩ : Fin 24) d

/-- Pool first (over the columns of the window, then over its rows), then bias and ReLU. -/
def featK (n : Fin 8192) (p q : Fin 12) (d : Fin 64) : EReal :=
  max ((Finset.univ : Finset (Fin 2)).fold max NEG (fun a =>
        (Finset.univ : Finset (Fin 2)).fold max NEG (fun b => win xs w1 b1 w2 n p q d a b)) + b2 (ix2 (0 : Fin 1) d)) 0

/-- Bias and ReLU first, then the pool (over the columns of the window, then over its rows). -/
def featR (n : Fin 8192) (p q : Fin 12) (d : Fin 64) : EReal :=
  (Finset.univ : Finset (Fin 2)).fold max NEG (fun a =>
    (Finset.univ : Finset (Fin 2)).fold max NEG (fun b => max (win xs w1 b1 w2 n p q d a b + b2 (ix2 (0 : Fin 1) d)) 0))

/-- A feature map flattened row-major over `(p, q, d)`: feature `r` is at `p = r / 768`, `q = r / 64 % 12`, `d = r % 64`. -/
def flat (ft : Fin 8192 → Fin 12 → Fin 12 → Fin 64 → EReal) (n : Fin 8192) (r : Fin 9216) : EReal :=
  ft n (⟨r.val / 768, by omega⟩ : Fin 12) (⟨r.val / 64 % 12, by omega⟩ : Fin 12) (⟨r.val % 64, by omega⟩ : Fin 64)

/-- The first dense layer's sum over all 9216 features at once. -/
def hidK (n : Fin 8192) (u : Fin 128) : EReal :=
  ∑ r : Fin 9216, flat (featK xs w1 b1 w2 b2) n r * f1 (ix2 r u)

/-- Partial sum `blk` of the first dense layer: features `2304 · blk` to `2304 · blk + 2303`. -/
def part (ft : Fin 8192 → Fin 12 → Fin 12 → Fin 64 → EReal) (n : Fin 8192) (u : Fin 128) (blk : Fin 4) : EReal :=
  ∑ k : Fin 2304, flat ft n (⟨2304 * blk.val + k.val, by omega⟩ : Fin 9216)
    * f1 (ix2 (⟨2304 * blk.val + k.val, by omega⟩ : Fin 9216) u)

/-- The first dense layer's sum as four partial sums added one after the other to zero. -/
def hidR (n : Fin 8192) (u : Fin 128) : EReal :=
  0 + part f1 (featR xs w1 b1 w2 b2) n u 0 + part f1 (featR xs w1 b1 w2 b2) n u 1
    + part f1 (featR xs w1 b1 w2 b2) n u 2 + part f1 (featR xs w1 b1 w2 b2) n u 3

/-- The first dense layer's output from its sum: bias, ReLU. -/
def hid (s : Fin 128 → EReal) (u : Fin 128) : EReal := max (s u + f1b (ix2 (0 : Fin 1) u)) 0

/-- The logits from the first dense layer's sum. -/
def logit (s : Fin 128 → EReal) (o : Fin 10) : EReal :=
  (∑ u : Fin 128, hid f1b s u * f2 (ix2 u o)) + f2b (ix2 (0 : Fin 1) o)

/-- The logits less their maximum. -/
def shifted (s : Fin 128 → EReal) (o : Fin 10) : EReal :=
  logit f1b f2 f2b s o - (Finset.univ : Finset (Fin 10)).fold max NEG (fun o' => logit f1b f2 f2b s o')

/-- Everything after the first dense layer's sum: bias, ReLU, the second dense layer, log-softmax. -/
def head (s : Fin 128 → EReal) (o : Fin 10) : EReal :=
  shifted f1b f2 f2b s o - Ideal.log (∑ o' : Fin 10, Ideal.exp (shifted f1b f2 f2b s o'))

/-- The result with the pool before bias and ReLU and one sum over the features. -/
def outK (j : (⟨2, ![8192, 10]⟩ : Shape).Idx) : EReal :=
  head f1b f2 f2b (hidK xs w1 b1 w2 b2 f1 (j 0)) (j 1)

/-- The result with bias and ReLU before the pool and four partial sums over the features. -/
def outR (j : (⟨2, ![8192, 10]⟩ : Shape).Idx) : EReal :=
  head f1b f2 f2b (hidR xs w1 b1 w2 b2 f1 (j 0)) (j 1)

end Cert.Net

end
-- ==== Proof.KernelLoads.lean ====
import Idealize.ShloMosaic.Lib.ValueLayout

/-!
# The body's loads read at an index

A load through a unit-stride rectangle reads the buffer at the rectangle's offsets plus the index.  Two shapes of rectangle
occur: a window of a one-channel image block, offset in its two spatial axes, and one row of a matrix.
-/

namespace Cert.KernelIdeal.NetValue

open Idealize.ShloMosaic Idealize.ShloMosaic.ValueIdx

variable {Val : EltTy → Type} {e : EltTy}

/-- A window of an `[n0, n1, n2, 1]` block from offsets `(0, o₁, o₂, 0)` reads, at `(p, i, j, u)`, the block at
    `(p, o₁ + i, o₂ + j, u)`. -/
theorem ld_window_apply {n0 n1 n2 m1 m2 : ℕ} (o1 o2 : ℕ) (X : (⟨4, ![n0, n1, n2, 1]⟩ : Shape).Idx → Val e)
    (inb : ∀ a, (![0, o1, o2, 0] : Fin 4 → ℕ) a + (⟨4, ![n0, m1, m2, 1]⟩ : Shape).size a
      ≤ (⟨4, ![n0, n1, n2, 1]⟩ : Shape).size a)
    (p : Fin n0) (i : Fin m1) (j : Fin m2) (u : Fin 1) (k1 : Fin n1) (k2 : Fin n2)
    (hk1 : k1.val = o1 + i.val) (hk2 : k2.val = o2 + j.val) :
    View.ld X (Rect.unit (s := ⟨4, ![n0, n1, n2, 1]⟩) ![0, o1, o2, 0] (⟨4, ![n0, m1, m2, 1]⟩ : Shape).size inb) (ix4 p i j u)
      = X (ix4 p k1 k2 u) := by
  refine congrArg X (funext fun a => Fin.ext ?_)
  match a with
  | ⟨0, _⟩ => show 0 + 1 * p.val = p.val; omega
  | ⟨1, _⟩ => show o1 + 1 * i.val = k1.val; omega
  | ⟨2, _⟩ => show o2 + 1 * j.val = k2.val; omega
  | ⟨3, _⟩ => show 0 + 1 * u.val = u.val; omega

/-- Row `o` of an `[n0, n1]` matrix, loaded as a `[1, n1]` vector, reads at `(u, c)` the matrix at `(o, c)`. -/
theorem ld_row_apply {n0 n1 : ℕ} (o : ℕ) (X : (⟨2, ![n0, n1]⟩ : Shape).Idx → Val e)
    (inb : ∀ a, (![o, 0] : Fin 2 → ℕ) a + (⟨2, ![1, n1]⟩ : Shape).size a ≤ (⟨2, ![n0, n1]⟩ : Shape).size a)
    (u : Fin 1) (c : Fin n1) (k : Fin n0) (hk : k.val = o) :
    View.ld X (Rect.unit (s := ⟨2, ![n0, n1]⟩) ![o, 0] (⟨2, ![1, n1]⟩ : Shape).size inb) (ix2 u c) = X (ix2 k c) := by
  refine congrArg X (funext fun a => Fin.ext ?_)
  match a with
  | ⟨0, _⟩ => show o + 1 * u.val = k.val; omega
  | ⟨1, _⟩ => show 0 + 1 * c.val = c.val; omega

end Cert.KernelIdeal.NetValue
-- ==== Proof.KernelOps.lean ====
import Idealize.ShloMosaic.Lib.ValueLayout
import Idealize.ShloMosaic.PureOps.Ideal

/-!
# Layout operations of the network's blocks, read at an index given by coordinates

Each lemma reads one re-laying operation (a shape cast between two row-major layouts of the same numbers, a broadcast
along new or unit axes, a window cut out of a feature map) at an index written by its coordinates, as the operand at the
index with the coordinates the arithmetic names.  All extents are variables: the batch extent in particular is free.
-/

namespace Cert.KernelIdeal.NetValue

open Idealize.ShloMosaic Idealize.ShloMosaic.ValueIdx

variable {α : Type}

/-! ## Shape casts -/

/-- A `[1, d]` row cast to `[1, 1, 1, d]` reads, at `(u, v, w, c)`, the row at `c`. -/
theorem shapeCast_1d_111d_apply {d : ℕ} (x : (⟨2, ![1, d]⟩ : Shape).Idx → α)
    (h : (⟨2, ![1, d]⟩ : Shape).ShapeCasts ⟨4, ![1, 1, 1, d]⟩) (u v w : Fin 1) (c : Fin d) :
    shapeCast ⟨4, ![1, 1, 1, d]⟩ x h (ix4 u v w c) = x (ix2 (0 : Fin 1) c) :=
  shapeCast_apply x h _ _ (by
    have hu : u.val = 0 := by omega
    have hv : v.val = 0 := by omega
    have hw : w.val = 0 := by omega
    rw [Shape.rowMajor_val_four, Shape.rowMajor_val_two]
    show 0 * d + c.val = ((u.val * 1 + v.val) * 1 + w.val) * d + c.val
    rw [hu, hv, hw])

/-- An `[a, b, c, d]` array cast to `[a·b·c, d]` reads, at `(r, k)`, the operand at `(p, q, s, k)` when
    `r = (p·b + q)·c + s`: the three leading axes are merged row-major. -/
theorem shapeCast_abcd_nd_apply {a b c d n : ℕ} (x : (⟨4, ![a, b, c, d]⟩ : Shape).Idx → α)
    (h : (⟨4, ![a, b, c, d]⟩ : Shape).ShapeCasts ⟨2, ![n, d]⟩) (r : Fin n) (k : Fin d)
    (p : Fin a) (q : Fin b) (s : Fin c) (hr : r.val = (p.val * b + q.val) * c + s.val) :
    shapeCast ⟨2, ![n, d]⟩ x h (ix2 r k) = x (ix4 p q s k) :=
  shapeCast_apply x h _ _ (by
    rw [Shape.rowMajor_val_four, Shape.rowMajor_val_two]
    show ((p.val * b + q.val) * c + s.val) * d + k.val = r.val * d + k.val
    rw [hr])

/-- An `[n, e]` array cast to `[a, b, c, d, e]` reads, at `(p, q, s, t, k)`, the operand at `(r, k)` when
    `r = ((p·b + q)·c + s)·d + t`: the leading axis is split row-major into four. -/
theorem shapeCast_ne_abcde_apply {a b c d e n : ℕ} (x : (⟨2, ![n, e]⟩ : Shape).Idx → α)
    (h : (⟨2, ![n, e]⟩ : Shape).ShapeCasts ⟨5, ![a, b, c, d, e]⟩) (p : Fin a) (q : Fin b) (s : Fin c) (t : Fin d)
    (k : Fin e) (r : Fin n) (hr : r.val = ((p.val * b + q.val) * c + s.val) * d + t.val) :
    shapeCast ⟨5, ![a, b, c, d, e]⟩ x h (ix5 p q s t k) = x (ix2 r k) :=
  shapeCast_apply x h _ _ (by
    rw [Shape.rowMajor_val_five, Shape.rowMajor_val_two]
    show r.val * e + k.val = (((p.val * b + q.val) * c + s.val) * d + t.val) * e + k.val
    rw [hr])

/-- An `[a, b, c, d]` array cast to `[a, e, f, c, d]` (axis 1 split in two, `b = e·f`) reads, at
    `(p, q, s, t, k)`, the operand at `(p, r, t, k)` when `r = q·f + s`. -/
theorem shapeCast_abcd_aefcd_apply {a b c d e f : ℕ} (x : (⟨4, ![a, b, c, d]⟩ : Shape).Idx → α)
    (h : (⟨4, ![a, b, c, d]⟩ : Shape).ShapeCasts ⟨5, ![a, e, f, c, d]⟩) (hb : b = e * f) (p : Fin a) (q : Fin e) (s : Fin f)
    (t : Fin c) (k : Fin d) (r : Fin b) (hr : r.val = q.val * f + s.val) :
    shapeCast ⟨5, ![a, e, f, c, d]⟩ x h (ix5 p q s t k) = x (ix4 p r t k) :=
  shapeCast_apply x h _ _ (by
    rw [Shape.rowMajor_val_five, Shape.rowMajor_val_four]
    show ((p.val * b + r.val) * c + t.val) * d + k.val = (((p.val * e + q.val) * f + s.val) * c + t.val) * d + k.val
    rw [hr, hb]; ring)

/-- An `[a, b, c, d]` array cast to `[a, n]` (the three trailing axes merged row-major) reads, at `(p, r)`, the operand at
    `(p, q, s, t)` when `r = (q·c + s)·d + t`. -/
theorem shapeCast_abcd_an_apply {a b c d n : ℕ} (x : (⟨4, ![a, b, c, d]⟩ : Shape).Idx → α)
    (h : (⟨4, ![a, b, c, d]⟩ : Shape).ShapeCasts ⟨2, ![a, n]⟩) (hn : n = b * c * d) (p : Fin a) (r : Fin n)
    (q : Fin b) (s : Fin c) (t : Fin d) (hr : r.val = (q.val * c + s.val) * d + t.val) :
    shapeCast ⟨2, ![a, n]⟩ x h (ix2 p r) = x (ix4 p q s t) :=
  shapeCast_apply x h _ _ (by
    rw [Shape.rowMajor_val_four, Shape.rowMajor_val_two]
    show ((p.val * b + q.val) * c + s.val) * d + t.val = p.val * n + r.val
    rw [hr, hn]; ring)

/-- A length-`a` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Broadcasts -/

/-- An `[a, b, c, 1]` array broadcast to `[a, b, c, d]` reads, at `(p, q, r, s)`, the operand at `(p, q, r, 0)`. -/
theorem broadcastTo_abc1_abcd_apply {a b c d : ℕ} (x : (⟨4, ![a, b, c, 1]⟩ : Shape).Idx → α)
    (h : (⟨4, ![a, b, c, 1]⟩ : Shape).Broadcasts ⟨4, ![a, b, c, d]⟩) (p : Fin a) (q : Fin b) (r : Fin c) (s : Fin d) :
    broadcastTo ⟨4, ![a, b, c, d]⟩ x h (ix4 p q r s) = x (ix4 p q r (0 : Fin 1)) := by
  refine broadcastTo_apply x h (ix4 p q r s) (ix4 p q r (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show r.val = if c = 1 then 0 else r.val
    split
    · have := r.isLt; omega
    · rfl
  | ⟨3, _⟩ => rfl

/-- A `[1, 1, 1, d]` array broadcast to `[a, b, c, d]` reads, at `(p, q, r, s)`, the operand at `(0, 0, 0, s)`. -/
theorem broadcastTo_111d_abcd_apply {a b c d : ℕ} (x : (⟨4, ![1, 1, 1, d]⟩ : Shape).Idx → α)
    (h : (⟨4, ![1, 1, 1, d]⟩ : Shape).Broadcasts ⟨4, ![a, b, c, d]⟩) (p : Fin a) (q : Fin b) (r : Fin c) (s : Fin d) :
    broadcastTo ⟨4, ![a, b, c, d]⟩ x h (ix4 p q r s) = x (ix4 (0 : Fin 1) (0 : Fin 1) (0 : Fin 1) s) := by
  refine broadcastTo_apply x h (ix4 p q r s) (ix4 (0 : Fin 1) (0 : Fin 1) (0 : Fin 1) s) fun ax => ?_
  match ax with
  | ⟨0, _⟩ => rfl
  | ⟨1, _⟩ => rfl
  | ⟨2, _⟩ => rfl
  | ⟨3, _⟩ =>
    show s.val = if d = 1 then 0 else s.val
    split
    · have := s.isLt; omega
    · rfl

/-- A column `[a, 1]` broadcast to `[a, b]` reads, at `(i, j)`, the column at `i`. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

/-! ## A window cut out of a feature map -/

/-- A rank-4 array cut from offsets `(0, o₁, o₂, 0)` reads, at `(p, i, j, e)`, the source at `(p, o₁ + i, o₂ + j, e)`. -/
theorem slice4_mid_apply {n0 n1 n2 n3 m1 m2 : ℕ} (o1 o2 : ℕ) (X : (⟨4, ![n0, n1, n2, n3]⟩ : Shape).Idx → α)
    (h : (⟨4, ![n0, n1, n2, n3]⟩ : Shape).Slices ![0, o1, o2, 0] ⟨4, ![n0, m1, m2, n3]⟩)
    (p : Fin n0) (i : Fin m1) (j : Fin m2) (e : Fin n3) (k1 : Fin n1) (k2 : Fin n2)
    (hk1 : k1.val = o1 + i.val) (hk2 : k2.val = o2 + j.val) :
    extractStridedSlice ⟨4, ![n0, m1, m2, n3]⟩ ![0, o1, o2, 0] X h (ix4 p i j e) = X (ix4 p k1 k2 e) :=
  extractStridedSlice_apply _ _ _ _ _ (fun ax => by
    match ax with
    | ⟨0, _⟩ => exact (Nat.zero_add _).symm
    | ⟨1, _⟩ => exact hk1
    | ⟨2, _⟩ => exact hk2
    | ⟨3, _⟩ => exact (Nat.zero_add _).symm)

end Cert.KernelIdeal.NetValue
-- ==== Proof.KernelStages.lean ====
import proofs.«158827_g2000604799650332_pallasbulk_197_4_alg».proof.Proof.Gen.KernelIdeal.Skeleton
import Idealize.ShloMosaic.PureOps.Ideal

/-!
# The fused body's arithmetic cut into the network's stages

The body computes, from the first convolution's partial sums, one value per output entry through nine stages: the end of
the first convolution, the patch matrix, the second convolution's sums, the pool, the features, the first dense layer's
sums, its output, the logits and the log-softmax.  Each stage is stated here as a function of the vectors it reads, at the
extended reals, and the body's two values that hold them (the first dense layer's sums, and what it stores) are shown to be
their composition: both sides unfold to the same term.
-/

noncomputable section

namespace Cert.KernelIdeal.NetValue

open Cert.KernelIdeal Cert.KernelIdeal.Gen Idealize.ShloMosaic

/-- The ninth tap of the first convolution added to the eight before it, then the bias row, then `max · 0`, then the
    change of float format (the identity on the extended reals). -/
def reluOne (v62 : FVec Ideal S8x26x26x32 .f32) (v64 : FVec Ideal S8x26x26x1 .f32) (v65 : Vec Ideal S1x32 .f32) (v71 : Vec Ideal S1x32 .f32) : FVec Ideal S8x26x26x32 .bf16 :=
  have v66 : FVec Ideal S1x1x1x32 .f32 := shapeCast S1x1x1x32 v65 shapeCasts_S1x32_S1x1x1x32
  have v67 : FVec Ideal S8x26x26x32 .f32 := broadcastTo S8x26x26x32 v64 broadcasts_S8x26x26x1_S8x26x26x32
  have v68 : FVec Ideal S8x26x26x32 .f32 := broadcastTo S8x26x26x32 v66 broadcasts_S1x1x1x32_S8x26x26x32
  have v69 : FVec Ideal S8x26x26x32 .f32 := mulf v67 v68
  have v70 : FVec Ideal S8x26x26x32 .f32 := addf v62 v69
  have v72 : FVec Ideal S1x1x1x32 .f32 := shapeCast S1x1x1x32 v71 shapeCasts_S1x32_S1x1x1x32
  have v73 : FVec Ideal S8x26x26x32 .f32 := broadcastTo S8x26x26x32 v72 broadcasts_S1x1x1x32_S8x26x26x32
  have v74 : FVec Ideal S8x26x26x32 .f32 := addf v70 v73
  have cst : Ideal .f32 := Scalar.ofBits .f32 0x00000000#32
  have v75 : FVec Ideal S8x26x26x32 .f32 := broadcast S8x26x26x32 cst
  have v76 : FVec Ideal S8x26x26x32 .f32 := maximumf v74 v75
  have v77 : FVec Ideal S8x26x26x32 .bf16 := truncf .bf16 v76 bitsLt_bf16_f32
  v77

/-- The nine 24×24 windows of the first convolution's output laid side by side along the channel axis (288 entries per
    position), and the three leading axes merged: one row per (image, row, column). -/
def patches (v77 : FVec Ideal S8x26x26x32 .bf16) : FVec Ideal S4608x288 .bf16 :=
  have v78 : FVec Ideal S8x24x24x32 .bf16 := extractStridedSlice S8x24x24x32 ![0, 0, 0, 0] v77 slices_S8x26x26x32_o0_0_0_0_S8x24x24x32
  have v79 : FVec Ideal S8x24x24x32 .bf16 := extractStridedSlice S8x24x24x32 ![0, 0, 1, 0] v77 slices_S8x26x26x32_o0_0_1_0_S8x24x24x32
  have v80 : FVec Ideal S8x24x24x32 .bf16 := extractStridedSlice S8x24x24x32 ![0, 0, 2, 0] v77 slices_S8x26x26x32_o0_0_2_0_S8x24x24x32
  have v81 : FVec Ideal S8x24x24x32 .bf16 := extractStridedSlice S8x24x24x32 ![0, 1, 0, 0] v77 slices_S8x26x26x32_o0_1_0_0_S8x24x24x32
  have v82 : FVec Ideal S8x24x24x32 .bf16 := extractStridedSlice S8x24x24x32 ![0, 1, 1, 0] v77 slices_S8x26x26x32_o0_1_1_0_S8x24x24x32
  have v83 : FVec Ideal S8x24x24x32 .bf16 := extractStridedSlice S8x24x24x32 ![0, 1, 2, 0] v77 slices_S8x26x26x32_o0_1_2_0_S8x24x24x32
  have v84 : FVec Ideal S8x24x24x32 .bf16 := extractStridedSlice S8x24x24x32 ![0, 2, 0, 0] v77 slices_S8x26x26x32_o0_2_0_0_S8x24x24x32
  have v85 : FVec Ideal S8x24x24x32 .bf16 := extractStridedSlice S8x24x24x32 ![0, 2, 1, 0] v77 slices_S8x26x26x32_o0_2_1_0_S8x24x24x32
  have v86 : FVec Ideal S8x24x24x32 .bf16 := extractStridedSlice S8x24x24x32 ![0, 2, 2, 0] v77 slices_S8x26x26x32_o0_2_2_0_S8x24x24x32
  have v87 : FVec Ideal S8x24x24x288 .bf16 := concatenate S8x24x24x288 3 [⟨S8x24x24x32, v78⟩, ⟨S8x24x24x32, v79⟩, ⟨S8x24x24x32, v80⟩, ⟨S8x24x24x32, v81⟩, ⟨S8x24x24x32, v82⟩, ⟨S8x24x24x32, v83⟩, ⟨S8x24x24x32, v84⟩, ⟨S8x24x24x32, v85⟩, ⟨S8x24x24x32, v86⟩] concatenates_S8x24x24x32_S8x24x24x32_S8x24x24x32_S8x24x24x32_S8x24x24x32_S8x24x24x32_S8x24x24x32_S8x24x24x32_S8x24x24x32_S8x24x24x288_d3
  have v88 : FVec Ideal S4608x288 .bf16 := shapeCast S4608x288 v87 shapeCasts_S8x24x24x288_S4608x288
  v88

/-- The second convolution's raw sums: the patch rows against the weight matrix, into zero. -/
def convTwo (v88 : FVec Ideal S4608x288 .bf16) (v89 : Vec Ideal S288x64 .bf16) : FVec Ideal S4608x64 .f32 :=
  have v90 : FVec Ideal S288x64 .bf16 := shapeCast S288x64 v89 shapeCasts_S288x64_S288x64
  have cst_49 : FVec Ideal S4608x64 .f32 := constant S4608x64 .f32 0x00000000#32
  have v91 : FVec Ideal S4608x64 .f32 := matmul dot_S4608x288_S288x64_S4608x64_1_0_0_1_n_n none v88 v90 cst_49
  v91

/-- The 2×2 maximum pool of the raw sums: the row axis split as (row, column pair, parity) and the maximum taken over
    the parity, then the rows split as (row pair, parity) and the maximum taken over that parity. -/
def pooled (v91 : FVec Ideal S4608x64 .f32) : FVec Ideal S8x12x12x64 .f32 :=
  have v92 : FVec Ideal S8x24x12x2x64 .f32 := shapeCast S8x24x12x2x64 v91 shapeCasts_S4608x64_S8x24x12x2x64
  have v93 : FVec Ideal S8x24x12x64 .f32 := multiReduction .maximumf [3] S8x24x12x64 v92 0xFF800000#32 reduces_S8x24x12x2x64_S8x24x12x64 (.inl rfl) rfl
  have v94 : FVec Ideal S8x12x2x12x64 .f32 := shapeCast S8x12x2x12x64 v93 shapeCasts_S8x24x12x64_S8x12x2x12x64
  have v95 : FVec Ideal S8x12x12x64 .f32 := multiReduction .maximumf [2] S8x12x12x64 v94 0xFF800000#32 reduces_S8x12x2x12x64_S8x12x12x64 (.inl rfl) rfl
  v95

/-- The pooled sums with the second bias row and `max · 0`, flattened row-major to 9216 features per image. -/
def features (v95 : FVec Ideal S8x12x12x64 .f32) (v96 : Vec Ideal S1x64 .f32) : FVec Ideal S8x9216 .bf16 :=
  have v97 : FVec Ideal S1x1x1x64 .f32 := shapeCast S1x1x1x64 v96 shapeCasts_S1x64_S1x1x1x64
  have v98 : FVec Ideal S8x12x12x64 .f32 := broadcastTo S8x12x12x64 v97 broadcasts_S1x1x1x64_S8x12x12x64
  have v99 : FVec Ideal S8x12x12x64 .f32 := addf v95 v98
  have cst_54 : Ideal .f32 := Scalar.ofBits .f32 0x00000000#32
  have v100 : FVec Ideal S8x12x12x64 .f32 := broadcast S8x12x12x64 cst_54
  have v101 : FVec Ideal S8x12x12x64 .f32 := maximumf v99 v100
  have v102 : FVec Ideal S8x12x12x64 .bf16 := truncf .bf16 v101 bitsLt_bf16_f32
  have v103 : FVec Ideal S8x9216 .bf16 := shapeCast S8x9216 v102 shapeCasts_S8x12x12x64_S8x9216
  v103

/-- The first dense layer's sums: the feature rows against the weight matrix, into zero. -/
def denseOne (v103 : FVec Ideal S8x9216 .bf16) (v104 : Vec Ideal S9216x128 .bf16) : FVec Ideal S8x128 .f32 :=
  have v105 : FVec Ideal S9216x128 .bf16 := shapeCast S9216x128 v104 shapeCasts_S9216x128_S9216x128
  have cst_57 : FVec Ideal S8x128 .f32 := constant S8x128 .f32 0x00000000#32
  have v106 : FVec Ideal S8x128 .f32 := matmul dot_S8x9216_S9216x128_S8x128_1_0_0_1_n_n none v103 v105 cst_57
  v106

/-- The first dense layer's output: its sums plus the bias rows, then `max · 0`. -/
def hidden (v106 : FVec Ideal S8x128 .f32) (v108 : FVec Ideal S8x128 .f32) : FVec Ideal S8x128 .bf16 :=
  have v109 : FVec Ideal S8x128 .f32 := addf v106 v108
  have cst_60 : Ideal .f32 := Scalar.ofBits .f32 0x00000000#32
  have v110 : FVec Ideal S8x128 .f32 := broadcast S8x128 cst_60
  have v111 : FVec Ideal S8x128 .f32 := maximumf v109 v110
  have v112 : FVec Ideal S8x128 .bf16 := truncf .bf16 v111 bitsLt_bf16_f32
  v112

/-- The logits: the hidden rows against the last weight matrix, into zero, plus the last bias row. -/
def logits (v112 : FVec Ideal S8x128 .bf16) (v113 : Vec Ideal S128x10 .bf16) (v116 : Vec Ideal S1x10 .f32) : FVec Ideal S8x10 .f32 :=
  have v114 : FVec Ideal S128x10 .bf16 := shapeCast S128x10 v113 shapeCasts_S128x10_S128x10
  have cst_63 : FVec Ideal S8x10 .f32 := constant S8x10 .f32 0x00000000#32
  have v115 : FVec Ideal S8x10 .f32 := matmul dot_S8x128_S128x10_S8x10_1_0_0_1_n_n none v112 v114 cst_63
  have v117 : FVec Ideal S8x10 .f32 := broadcastTo S8x10 v116 broadcasts_S1x10_S8x10
  have v118 : FVec Ideal S8x10 .f32 := addf v115 v117
  v118

/-- The log-softmax of each row of logits: the row less its maximum, less the logarithm of the sum of the exponentials
    of that difference. -/
def logSoftmax (v118 : FVec Ideal S8x10 .f32) : FVec Ideal S8x10 .f32 :=
  have v119 : FVec Ideal S8 .f32 := multiReduction .maximumf [1] S8 v118 0xFF800000#32 reduces_S8x10_S8 (.inl rfl) rfl
  have v120 : FVec Ideal S8x1 .f32 := shapeCast S8x1 v119 shapeCasts_S8_S8x1
  have v121 : FVec Ideal S8x10 .f32 := broadcastTo S8x10 v120 broadcasts_S8x1_S8x10
  have v122 : FVec Ideal S8x10 .f32 := subf v118 v121
  have v123 : FVec Ideal S8x10 .f32 := exp v122
  have v124 : FVec Ideal S8 .f32 := multiReduction .add [1] S8 v123 0x00000000#32 reduces_S8x10_S8 (.inl rfl) rfl
  have v125 : FVec Ideal S8x1 .f32 := shapeCast S8x1 v124 shapeCasts_S8_S8x1
  have v126 : FVec Ideal S8x1 .f32 := log v125
  have v127 : FVec Ideal S8x10 .f32 := broadcastTo S8x10 v126 broadcasts_S8x1_S8x10
  have v128 : FVec Ideal S8x10 .f32 := subf v122 v127
  v128

/-- The body's value for the first dense layer's sums is the composition of the first six stages. -/
theorem pay5_eq_stages (v62 : FVec Ideal S8x26x26x32 .f32) (v64 : FVec Ideal S8x26x26x1 .f32) (v65 v71 : Vec Ideal S1x32 .f32)
    (v89 : Vec Ideal S288x64 .bf16) (v96 : Vec Ideal S1x64 .f32) (v104 : Vec Ideal S9216x128 .bf16) :
    k0_pay5 v62 v64 v65 v71 v89 v96 v104
      = denseOne (features (pooled (convTwo (patches (reluOne v62 v64 v65 v71)) v89)) v96) v104 := rfl

/-- The value the body stores is the composition of the last three stages. -/
theorem pay1_eq_stages (v106 v108 : FVec Ideal S8x128 .f32) (v113 : Vec Ideal S128x10 .bf16) (v116 : Vec Ideal S1x10 .f32) :
    k0_pay1 v106 v108 v113 v116 = logSoftmax (logits (hidden v106 v108) v113 v116) := rfl

end Cert.KernelIdeal.NetValue

end
-- ==== Proof.KernelConvOne.lean ====
import proofs.«158827_g2000604799650332_pallasbulk_197_4_alg».proof.Proof.KernelOps
import proofs.«158827_g2000604799650332_pallasbulk_197_4_alg».proof.Proof.KernelStages
import Idealize.ShloMosaic.PureOps.Ideal.Laws

/-!
# The first convolution's block, entry by entry

The body adds nine products, one per tap of the 3×3 window: a window of the image block (one channel) repeated along the
32 output channels, times one row of the weights repeated over the positions.  The first four are added in one partial
sum, the next four are added to it, and the last is added with the bias before `max · 0`.
-/

noncomputable section

namespace Cert.KernelIdeal.NetValue

open Cert.KernelIdeal Cert.KernelIdeal.Gen Idealize.ShloMosaic Idealize.ShloMosaic.ValueIdx

/-- One tap's product at an entry: the window's value at the position times the weight row's value at the channel. -/
theorem tap_apply (v : FVec Ideal S8x26x26x1 .f32) (w : Vec Ideal S1x32 .f32) (b : Fin 8) (i j : Fin 26) (c : Fin 32) :
    mulf (broadcastTo S8x26x26x32 v broadcasts_S8x26x26x1_S8x26x26x32)
        (broadcastTo S8x26x26x32 (shapeCast S1x1x1x32 w shapeCasts_S1x32_S1x1x1x32) broadcasts_S1x1x1x32_S8x26x26x32)
        (ix4 b i j c)
      = v (ix4 b i j (0 : Fin 1)) * w (ix2 (0 : Fin 1) c) := by
  rw [mulf_apply, broadcastTo_abc1_abcd_apply, broadcastTo_111d_abcd_apply, shapeCast_1d_111d_apply]

/-- The first partial sum at an entry: taps 0 to 3 added from the left. -/
theorem pay2_apply (v0 v7 v15 v23 : Vec Ideal S8x26x26x1 .f32) (v2 v9 v17 v25 : Vec Ideal S1x32 .f32)
    (b : Fin 8) (i j : Fin 26) (c : Fin 32) :
    k0_pay2 v0 v2 v7 v9 v15 v17 v23 v25 (ix4 b i j c)
      = v0 (ix4 b i j (0 : Fin 1)) * v2 (ix2 (0 : Fin 1) c) + v7 (ix4 b i j (0 : Fin 1)) * v9 (ix2 (0 : Fin 1) c)
        + v15 (ix4 b i j (0 : Fin 1)) * v17 (ix2 (0 : Fin 1) c) + v23 (ix4 b i j (0 : Fin 1)) * v25 (ix2 (0 : Fin 1) c) := by
  unfold k0_pay2
  simp only [shapeCast_self, addf_apply, tap_apply]

/-- The second partial sum at an entry: taps 4 to 7 added, from the left, to the first. -/
theorem pay3_apply (v30 : FVec Ideal S8x26x26x32 .f32) (v31 v39 v47 v55 : Vec Ideal S8x26x26x1 .f32)
    (v33 v41 v49 v57 : Vec Ideal S1x32 .f32) (b : Fin 8) (i j : Fin 26) (c : Fin 32) :
    k0_pay3 v30 v31 v33 v39 v41 v47 v49 v55 v57 (ix4 b i j c)
      = v30 (ix4 b i j c) + v31 (ix4 b i j (0 : Fin 1)) * v33 (ix2 (0 : Fin 1) c)
        + v39 (ix4 b i j (0 : Fin 1)) * v41 (ix2 (0 : Fin 1) c) + v47 (ix4 b i j (0 : Fin 1)) * v49 (ix2 (0 : Fin 1) c)
        + v55 (ix4 b i j (0 : Fin 1)) * v57 (ix2 (0 : Fin 1) c) := by
  unfold k0_pay3
  simp only [shapeCast_self, addf_apply, tap_apply]

/-- The ninth window passes through a cast to its own shape. -/
theorem pay4_eq (v63 : Vec Ideal S8x26x26x1 .f32) : k0_pay4 v63 = v63 := by
  unfold k0_pay4
  exact shapeCast_self _ _

/-- The end of the first convolution at an entry: the ninth tap added, the bias, `max · 0`. -/
theorem reluOne_apply (v62 : FVec Ideal S8x26x26x32 .f32) (v64 : FVec Ideal S8x26x26x1 .f32) (v65 v71 : Vec Ideal S1x32 .f32)
    (b : Fin 8) (i j : Fin 26) (c : Fin 32) :
    reluOne v62 v64 v65 v71 (ix4 b i j c)
      = max (v62 (ix4 b i j c) + v64 (ix4 b i j (0 : Fin 1)) * v65 (ix2 (0 : Fin 1) c) + v71 (ix2 (0 : Fin 1) c)) 0 := by
  unfold reluOne
  simp only [truncf_apply, maximumf_apply, addf_apply, tap_apply, broadcast_apply, broadcastTo_111d_abcd_apply,
    shapeCast_1d_111d_apply]
  exact congrArg (max _) Ideal.ofBits_zero_f32

end Cert.KernelIdeal.NetValue

end
-- ==== Proof.LibConvOps.lean ====
import proofs.«158827_g2000604799650332_pallasbulk_197_4_alg».proof.Proof.KernelOps
import Idealize.ShloMosaic.Lib.Pipeline.Value
import Idealize.ShloMosaic.PureOps.Ideal
import Idealize.ShloMosaic.PureOps.Ideal.Laws

/-!
# A 3×3 convolution read entry by entry, at any batch extent

Two facts about the way a 3×3 convolution is laid out as array operations, with the number `B` of images free.

* `tap_apply`: one tap of a convolution over a one-channel image — the image window `[B, h, w, 1]` repeated along `d`
  channels, times the filter row `[1, d]` re-laid as `[1, 1, 1, d]` and repeated over images and positions — is, at
  `(n, i, j, c)`, the pixel `(n, i, j, 0)` times the weight `(0, c)`.
* `im2col_apply`: the nine 24×24 windows of a `[B, 26, 26, 32]` map (window `m` shifted down by `m / 3` and right by
  `m % 3`) laid side by side along the channel axis and the three leading axes merged row-major into one — the patch
  matrix `[B·576, 288]` — has at row `(n·24 + y)·24 + x` and column `k` the map's entry
  `(n, y + k / 32 / 3, x + k / 32 % 3, k % 32)`.
* `shapeCast_nd_rkd_apply`, `max_mid3_apply`, `max_mid5_apply`: a leading axis split in two, and a maximum taken over the
  middle axis of a rank-3 and of a rank-5 array, as a fold of `max` over that axis's coordinate — how a 2×2 pool is taken.
-/

noncomputable section

namespace Cert.ConvOps

open Idealize.ShloMosaic Idealize.ShloMosaic.ValueIdx Cert.KernelIdeal.NetValue

/-! ## One tap -/

/-- A tap's product at an entry: pixel times weight. The image window passes through a cast to its own shape first. -/
theorem tap_apply {a b c d : ℕ} (x : (⟨4, ![a, b, c, 1]⟩ : Shape).Idx → EReal) (w : (⟨2, ![1, d]⟩ : Shape).Idx → EReal)
    (hx : (⟨4, ![a, b, c, 1]⟩ : Shape).ShapeCasts ⟨4, ![a, b, c, 1]⟩)
    (hxb : (⟨4, ![a, b, c, 1]⟩ : Shape).Broadcasts ⟨4, ![a, b, c, d]⟩)
    (hw : (⟨2, ![1, d]⟩ : Shape).ShapeCasts ⟨4, ![1, 1, 1, d]⟩)
    (hwb : (⟨4, ![1, 1, 1, d]⟩ : Shape).Broadcasts ⟨4, ![a, b, c, d]⟩)
    (p : Fin a) (q : Fin b) (r : Fin c) (s : Fin d) :
    mulf (F := Ideal) (φ := .f32) (broadcastTo ⟨4, ![a, b, c, d]⟩ (shapeCast ⟨4, ![a, b, c, 1]⟩ x hx) hxb)
        (broadcastTo ⟨4, ![a, b, c, d]⟩ (shapeCast ⟨4, ![1, 1, 1, d]⟩ w hw) hwb) (ix4 p q r s)
      = x (ix4 p q r (0 : Fin 1)) * w (ix2 (0 : Fin 1) s) := by
  show broadcastTo ⟨4, ![a, b, c, d]⟩ (shapeCast ⟨4, ![a, b, c, 1]⟩ x hx) hxb (ix4 p q r s)
      * broadcastTo ⟨4, ![a, b, c, d]⟩ (shapeCast ⟨4, ![1, 1, 1, d]⟩ w hw) hwb (ix4 p q r s) = _
  rw [broadcastTo_abc1_abcd_apply, broadcastTo_111d_abcd_apply, shapeCast_1d_111d_apply, shapeCast_self]

/-- The same when the window is used as it is (no cast to its own shape in between). -/
theorem tap_apply' {a b c d : ℕ} (x : (⟨4, ![a, b, c, 1]⟩ : Shape).Idx → EReal) (w : (⟨2, ![1, d]⟩ : Shape).Idx → EReal)
    (hxb : (⟨4, ![a, b, c, 1]⟩ : Shape).Broadcasts ⟨4, ![a, b, c, d]⟩)
    (hw : (⟨2, ![1, d]⟩ : Shape).ShapeCasts ⟨4, ![1, 1, 1, d]⟩)
    (hwb : (⟨4, ![1, 1, 1, d]⟩ : Shape).Broadcasts ⟨4, ![a, b, c, d]⟩)
    (p : Fin a) (q : Fin b) (r : Fin c) (s : Fin d) :
    mulf (F := Ideal) (φ := .f32) (broadcastTo ⟨4, ![a, b, c, d]⟩ x hxb)
        (broadcastTo ⟨4, ![a, b, c, d]⟩ (shapeCast ⟨4, ![1, 1, 1, d]⟩ w hw) hwb) (ix4 p q r s)
      = x (ix4 p q r (0 : Fin 1)) * w (ix2 (0 : Fin 1) s) := by
  show broadcastTo ⟨4, ![a, b, c, d]⟩ x hxb (ix4 p q r s)
      * broadcastTo ⟨4, ![a, b, c, d]⟩ (shapeCast ⟨4, ![1, 1, 1, d]⟩ w hw) hwb (ix4 p q r s) = _
  rw [broadcastTo_abc1_abcd_apply, broadcastTo_111d_abcd_apply, shapeCast_1d_111d_apply]

/-! ## The patch matrix -/

variable {α : Type}

/-- Several `[B, 24, 24, 32]` arrays laid side by side along the last axis, read at `(n, y, x, k)` with `k = 32·m + c`:
    array number `m` at `(n, y, x, c)`. -/
theorem side_by_side_apply {B : ℕ} (xs : List ((s : Shape) × (s.Idx → α)))
    (hc : Shape.Concatenates (xs.map (·.1)) ⟨4, ![B, 24, 24, 288]⟩ 3) (m : ℕ) (hm : m < xs.length)
    (x₁ : (⟨4, ![B, 24, 24, 32]⟩ : Shape).Idx → α) (hx : xs[m] = ⟨⟨4, ![B, 24, 24, 32]⟩, x₁⟩)
    (hpre : (((xs.take m).map (·.1)).map fun s : Shape =>
      if h : s.rank = (⟨4, ![B, 24, 24, 288]⟩ : Shape).rank then s.size ((3 : Fin (⟨4, ![B, 24, 24, 288]⟩ : Shape).rank).cast h.symm) else 0).sum = 32 * m)
    (n : Fin B) (y x : Fin 24) (k : Fin 288) (c : Fin 32) (hk : k.val = 32 * m + c.val) :
    concatenate ⟨4, ![B, 24, 24, 288]⟩ 3 xs hc (ix4 n y x k) = x₁ (ix4 n y x c) := by
  refine concatenate_apply_piece 3 xs hc (ix4 n y x k) m hm _ x₁ hx rfl (32 * m) hpre (ix4 n y x c) (fun b hb => ?_) ?_
  · match b with
    | ⟨0, _⟩ => rfl
    | ⟨1, _⟩ => rfl
    | ⟨2, _⟩ => rfl
    | ⟨3, _⟩ => exact absurd rfl hb
  · exact hk.symm

/-- The nine 24×24 windows of a `[B, 26, 26, 32]` map, window `3·dy + dx` shifted down by `dy` and right by `dx`, in order. -/
abbrev windows {B : ℕ} (M : (⟨4, ![B, 26, 26, 32]⟩ : Shape).Idx → α)
    (h00 : (⟨4, ![B, 26, 26, 32]⟩ : Shape).Slices ![0, 0, 0, 0] ⟨4, ![B, 24, 24, 32]⟩)
    (h01 : (⟨4, ![B, 26, 26, 32]⟩ : Shape).Slices ![0, 0, 1, 0] ⟨4, ![B, 24, 24, 32]⟩)
    (h02 : (⟨4, ![B, 26, 26, 32]⟩ : Shape).Slices ![0, 0, 2, 0] ⟨4, ![B, 24, 24, 32]⟩)
    (h10 : (⟨4, ![B, 26, 26, 32]⟩ : Shape).Slices ![0, 1, 0, 0] ⟨4, ![B, 24, 24, 32]⟩)
    (h11 : (⟨4, ![B, 26, 26, 32]⟩ : Shape).Slices ![0, 1, 1, 0] ⟨4, ![B, 24, 24, 32]⟩)
    (h12 : (⟨4, ![B, 26, 26, 32]⟩ : Shape).Slices ![0, 1, 2, 0] ⟨4, ![B, 24, 24, 32]⟩)
    (h20 : (⟨4, ![B, 26, 26, 32]⟩ : Shape).Slices ![0, 2, 0, 0] ⟨4, ![B, 24, 24, 32]⟩)
    (h21 : (⟨4, ![B, 26, 26, 32]⟩ : Shape).Slices ![0, 2, 1, 0] ⟨4, ![B, 24, 24, 32]⟩)
    (h22 : (⟨4, ![B, 26, 26, 32]⟩ : Shape).Slices ![0, 2, 2, 0] ⟨4, ![B, 24, 24, 32]⟩) :
    List ((s : Shape) × (s.Idx → α)) :=
  [⟨⟨4, ![B, 24, 24, 32]⟩, extractStridedSlice ⟨4, ![B, 24, 24, 32]⟩ ![0, 0, 0, 0] M h00⟩,
   ⟨⟨4, ![B, 24, 24, 32]⟩, extractStridedSlice ⟨4, ![B, 24, 24, 32]⟩ ![0, 0, 1, 0] M h01⟩,
   ⟨⟨4, ![B, 24, 24, 32]⟩, extractStridedSlice ⟨4, ![B, 24, 24, 32]⟩ ![0, 0, 2, 0] M h02⟩,
   ⟨⟨4, ![B, 24, 24, 32]⟩, extractStridedSlice ⟨4, ![B, 24, 24, 32]⟩ ![0, 1, 0, 0] M h10⟩,
   ⟨⟨4, ![B, 24, 24, 32]⟩, extractStridedSlice ⟨4, ![B, 24, 24, 32]⟩ ![0, 1, 1, 0] M h11⟩,
   ⟨⟨4, ![B, 24, 24, 32]⟩, extractStridedSlice ⟨4, ![B, 24, 24, 32]⟩ ![0, 1, 2, 0] M h12⟩,
   ⟨⟨4, ![B, 24, 24, 32]⟩, extractStridedSlice ⟨4, ![B, 24, 24, 32]⟩ ![0, 2, 0, 0] M h20⟩,
   ⟨⟨4, ![B, 24, 24, 32]⟩, extractStridedSlice ⟨4, ![B, 24, 24, 32]⟩ ![0, 2, 1, 0] M h21⟩,
   ⟨⟨4, ![B, 24, 24, 32]⟩, extractStridedSlice ⟨4, ![B, 24, 24, 32]⟩ ![0, 2, 2, 0] M h22⟩]

/-- The patch matrix of a `[B, 26, 26, 32]` map at row `(n·24 + y)·24 + x`, column `k`. -/
theorem im2col_apply {B R : ℕ} (M : (⟨4, ![B, 26, 26, 32]⟩ : Shape).Idx → α)
    (h00 : (⟨4, ![B, 26, 26, 32]⟩ : Shape).Slices ![0, 0, 0, 0] ⟨4, ![B, 24, 24, 32]⟩)
    (h01 : (⟨4, ![B, 26, 26, 32]⟩ : Shape).Slices ![0, 0, 1, 0] ⟨4, ![B, 24, 24, 32]⟩)
    (h02 : (⟨4, ![B, 26, 26, 32]⟩ : Shape).Slices ![0, 0, 2, 0] ⟨4, ![B, 24, 24, 32]⟩)
    (h10 : (⟨4, ![B, 26, 26, 32]⟩ : Shape).Slices ![0, 1, 0, 0] ⟨4, ![B, 24, 24, 32]⟩)
    (h11 : (⟨4, ![B, 26, 26, 32]⟩ : Shape).Slices ![0, 1, 1, 0] ⟨4, ![B, 24, 24, 32]⟩)
    (h12 : (⟨4, ![B, 26, 26, 32]⟩ : Shape).Slices ![0, 1, 2, 0] ⟨4, ![B, 24, 24, 32]⟩)
    (h20 : (⟨4, ![B, 26, 26, 32]⟩ : Shape).Slices ![0, 2, 0, 0] ⟨4, ![B, 24, 24, 32]⟩)
    (h21 : (⟨4, ![B, 26, 26, 32]⟩ : Shape).Slices ![0, 2, 1, 0] ⟨4, ![B, 24, 24, 32]⟩)
    (h22 : (⟨4, ![B, 26, 26, 32]⟩ : Shape).Slices ![0, 2, 2, 0] ⟨4, ![B, 24, 24, 32]⟩)
    (hc : Shape.Concatenates [(⟨4, ![B, 24, 24, 32]⟩ : Shape), ⟨4, ![B, 24, 24, 32]⟩, ⟨4, ![B, 24, 24, 32]⟩, ⟨4, ![B, 24, 24, 32]⟩,
      ⟨4, ![B, 24, 24, 32]⟩, ⟨4, ![B, 24, 24, 32]⟩, ⟨4, ![B, 24, 24, 32]⟩, ⟨4, ![B, 24, 24, 32]⟩, ⟨4, ![B, 24, 24, 32]⟩]
      ⟨4, ![B, 24, 24, 288]⟩ 3)
    (hs : (⟨4, ![B, 24, 24, 288]⟩ : Shape).ShapeCasts ⟨2, ![R, 288]⟩)
    (r : Fin R) (k : Fin 288) (n : Fin B) (y x : Fin 24) (hr : r.val = (n.val * 24 + y.val) * 24 + x.val)
    (i j : Fin 26) (c : Fin 32) (hi : i.val = y.val + k.val / 32 / 3) (hj : j.val = x.val + k.val / 32 % 3)
    (hcc : c.val = k.val % 32) :
    shapeCast ⟨2, ![R, 288]⟩
      (concatenate ⟨4, ![B, 24, 24, 288]⟩ 3
        [⟨⟨4, ![B, 24, 24, 32]⟩, extractStridedSlice ⟨4, ![B, 24, 24, 32]⟩ ![0, 0, 0, 0] M h00⟩,
         ⟨⟨4, ![B, 24, 24, 32]⟩, extractStridedSlice ⟨4, ![B, 24, 24, 32]⟩ ![0, 0, 1, 0] M h01⟩,
         ⟨⟨4, ![B, 24, 24, 32]⟩, extractStridedSlice ⟨4, ![B, 24, 24, 32]⟩ ![0, 0, 2, 0] M h02⟩,
         ⟨⟨4, ![B, 24, 24, 32]⟩, extractStridedSlice ⟨4, ![B, 24, 24, 32]⟩ ![0, 1, 0, 0] M h10⟩,
         ⟨⟨4, ![B, 24, 24, 32]⟩, extractStridedSlice ⟨4, ![B, 24, 24, 32]⟩ ![0, 1, 1, 0] M h11⟩,
         ⟨⟨4, ![B, 24, 24, 32]⟩, extractStridedSlice ⟨4, ![B, 24, 24, 32]⟩ ![0, 1, 2, 0] M h12⟩,
         ⟨⟨4, ![B, 24, 24, 32]⟩, extractStridedSlice ⟨4, ![B, 24, 24, 32]⟩ ![0, 2, 0, 0] M h20⟩,
         ⟨⟨4, ![B, 24, 24, 32]⟩, extractStridedSlice ⟨4, ![B, 24, 24, 32]⟩ ![0, 2, 1, 0] M h21⟩,
         ⟨⟨4, ![B, 24, 24, 32]⟩, extractStridedSlice ⟨4, ![B, 24, 24, 32]⟩ ![0, 2, 2, 0] M h22⟩] hc) hs (ix2 r k)
      = M (ix4 n i j c) := by
  refine (shapeCast_abcd_nd_apply _ hs r k n y x hr).trans ?_
  have hq : k.val / 32 < 9 := by have := k.isLt; omega
  have hkc : k.val = 32 * (k.val / 32) + c.val := by rw [hcc]; omega
  generalize hm : k.val / 32 = m at hq hkc hi hj
  interval_cases m
  · exact (side_by_side_apply (windows M h00 h01 h02 h10 h11 h12 h20 h21 h22) hc 0 (by show 0 < 9; omega) _ rfl rfl n y x k c hkc).trans (slice4_mid_apply 0 0 M h00 n y x c i j (by omega) (by omega))
  · exact (side_by_side_apply (windows M h00 h01 h02 h10 h11 h12 h20 h21 h22) hc 1 (by show 1 < 9; omega) _ rfl rfl n y x k c hkc).trans (slice4_mid_apply 0 1 M h01 n y x c i j (by omega) (by omega))
  · exact (side_by_side_apply (windows M h00 h01 h02 h10 h11 h12 h20 h21 h22) hc 2 (by show 2 < 9; omega) _ rfl rfl n y x k c hkc).trans (slice4_mid_apply 0 2 M h02 n y x c i j (by omega) (by omega))
  · exact (side_by_side_apply (windows M h00 h01 h02 h10 h11 h12 h20 h21 h22) hc 3 (by show 3 < 9; omega) _ rfl rfl n y x k c hkc).trans (slice4_mid_apply 1 0 M h10 n y x c i j (by omega) (by omega))
  · exact (side_by_side_apply (windows M h00 h01 h02 h10 h11 h12 h20 h21 h22) hc 4 (by show 4 < 9; omega) _ rfl rfl n y x k c hkc).trans (slice4_mid_apply 1 1 M h11 n y x c i j (by omega) (by omega))
  · exact (side_by_side_apply (windows M h00 h01 h02 h10 h11 h12 h20 h21 h22) hc 5 (by show 5 < 9; omega) _ rfl rfl n y x k c hkc).trans (slice4_mid_apply 1 2 M h12 n y x c i j (by omega) (by omega))
  · exact (side_by_side_apply (windows M h00 h01 h02 h10 h11 h12 h20 h21 h22) hc 6 (by show 6 < 9; omega) _ rfl rfl n y x k c hkc).trans (slice4_mid_apply 2 0 M h20 n y x c i j (by omega) (by omega))
  · exact (side_by_side_apply (windows M h00 h01 h02 h10 h11 h12 h20 h21 h22) hc 7 (by show 7 < 9; omega) _ rfl rfl n y x k c hkc).trans (slice4_mid_apply 2 1 M h21 n y x c i j (by omega) (by omega))
  · exact (side_by_side_apply (windows M h00 h01 h02 h10 h11 h12 h20 h21 h22) hc 8 (by show 8 < 9; omega) _ rfl rfl n y x k c hkc).trans (slice4_mid_apply 2 2 M h22 n y x c i j (by omega) (by omega))

/-! ## Maxima over one axis, and the casts that expose it -/

/-- An `[N, D]` array whose leading axis is split row-major as `[R, K]`: entry `(r, b, d)` of the cast is entry
    `(r·K + b, d)` of the array. -/
theorem shapeCast_nd_rkd_apply {N R K D : ℕ} (x : (⟨2, ![N, D]⟩ : Shape).Idx → α)
    (h : (⟨2, ![N, D]⟩ : Shape).ShapeCasts ⟨3, ![R, K, D]⟩) (r : Fin R) (b : Fin K) (d : Fin D) (m : Fin N)
    (hm : m.val = r.val * K + b.val) :
    shapeCast ⟨3, ![R, K, D]⟩ x h (ix3 r b d) = x (ix2 m d) :=
  shapeCast_apply x h _ _ (by
    rw [Shape.rowMajor_val_three, Shape.rowMajor_val_two]
    show m.val * D + d.val = (r.val * K + b.val) * D + d.val
    rw [hm])

/-- The maximum over the middle axis of an `[R, K, D]` array at `(r, d)`: the fold of `max` from the starting value
    over the middle coordinate. -/
theorem max_mid3_apply {R K D : ℕ} {φ : FTy} (src : FVec Ideal ⟨3, ![R, K, D]⟩ φ) (acc : BitVec φ.bits)
    (h : (⟨3, ![R, K, D]⟩ : Shape).Reduces [1] ⟨2, ![R, D]⟩) (hφ : FKind.Formats φ) (hacc : acc = FKind.maximumf.neutral φ hφ)
    (r : Fin R) (d : Fin D) :
    multiReduction .maximumf [1] ⟨2, ![R, D]⟩ src acc h hφ hacc (ix2 r d)
      = (Finset.univ : Finset (Fin K)).fold max (FloatOps.ofBits φ acc) (fun b => src (ix3 r b d)) := by
  refine (Ideal.multiReduction_maximumf_single src acc h hφ hacc (ix2 r d)).trans ?_
  refine congrArg (fun g => (Finset.univ : Finset (Fin K)).fold max (FloatOps.ofBits φ acc) g) (funext fun b => ?_)
  refine congrArg src (funext fun ax => ?_)
  match ax with
  | ⟨0, _⟩ => rfl
  | ⟨1, _⟩ => rfl
  | ⟨2, _⟩ => rfl

/-- The maximum over the middle axis of an `[A, P, K, Q, D]` array at `(n, p, q, d)`: the fold of `max` from the starting
    value over the middle coordinate. -/
theorem max_mid5_apply {A P K Q D : ℕ} {φ : FTy} (src : FVec Ideal ⟨5, ![A, P, K, Q, D]⟩ φ) (acc : BitVec φ.bits)
    (h : (⟨5, ![A, P, K, Q, D]⟩ : Shape).Reduces [2] ⟨4, ![A, P, Q, D]⟩) (hφ : FKind.Formats φ)
    (hacc : acc = FKind.maximumf.neutral φ hφ) (n : Fin A) (p : Fin P) (q : Fin Q) (d : Fin D) :
    multiReduction .maximumf [2] ⟨4, ![A, P, Q, D]⟩ src acc h hφ hacc (ix4 n p q d)
      = (Finset.univ : Finset (Fin K)).fold max (FloatOps.ofBits φ acc) (fun a => src (ix5 n p a q d)) := by
  refine (Ideal.multiReduction_maximumf_single src acc h hφ hacc (ix4 n p q d)).trans ?_
  refine congrArg (fun g => (Finset.univ : Finset (Fin K)).fold max (FloatOps.ofBits φ acc) g) (funext fun a => ?_)
  refine congrArg src (funext fun ax => ?_)
  match ax with
  | ⟨0, _⟩ => rfl
  | ⟨1, _⟩ => rfl
  | ⟨2, _⟩ => rfl
  | ⟨3, _⟩ => rfl
  | ⟨4, _⟩ => rfl

end Cert.ConvOps

end
-- ==== Proof.KernelPatches.lean ====
import proofs.«158827_g2000604799650332_pallasbulk_197_4_alg».proof.Proof.KernelOps
import proofs.«158827_g2000604799650332_pallasbulk_197_4_alg».proof.Proof.KernelStages
import proofs.«158827_g2000604799650332_pallasbulk_197_4_alg».proof.Proof.LibConvOps

/-!
# The patch matrix, entry by entry

Row `(b·24 + h)·24 + w` of the patch matrix holds, at position `k`, channel `k % 32` of tap `k / 32` of the 3×3 window at
`(h, w)` of image `b`: the first convolution's output at `(b, h + k / 32 / 3, w + k / 32 % 3, k % 32)`.
-/

noncomputable section

namespace Cert.KernelIdeal.NetValue

open Cert.KernelIdeal Cert.KernelIdeal.Gen Idealize.ShloMosaic Idealize.ShloMosaic.ValueIdx

/-- The patch matrix at `(r, k)`, `r = (b·24 + h)·24 + w`. -/
theorem patches_apply (v77 : FVec Ideal S8x26x26x32 .bf16) (b : Fin 8) (h w : Fin 24) (k : Fin 288) (r : Fin 4608)
    (hr : r.val = (b.val * 24 + h.val) * 24 + w.val) :
    patches v77 (ix2 r k)
      = v77 (ix4 b (⟨h.val + k.val / 32 / 3, by omega⟩ : Fin 26) (⟨w.val + k.val / 32 % 3, by omega⟩ : Fin 26)
          (⟨k.val % 32, by omega⟩ : Fin 32)) := by
  unfold patches
  exact Cert.ConvOps.im2col_apply v77 _ _ _ _ _ _ _ _ _ _ _ r k b h w hr _ _ _ rfl rfl rfl

end Cert.KernelIdeal.NetValue

end
-- ==== Proof.KernelPool.lean ====
import proofs.«158827_g2000604799650332_pallasbulk_197_4_alg».proof.Proof.KernelOps
import proofs.«158827_g2000604799650332_pallasbulk_197_4_alg».proof.Proof.KernelStages
import proofs.«158827_g2000604799650332_pallasbulk_197_4_alg».proof.Proof.Net
import Idealize.ShloMosaic.PureOps.Ideal.Laws

/-!
# The pool and the features, entry by entry

The raw sums of the second convolution lie one row per (image, row, column).  The pool reads that row axis as
(image, row, column pair, parity) and takes the maximum over the parity of the column, then reads the rows as
(row pair, parity) and takes the maximum over the parity of the row: at `(b, p, q, d)` the maximum over the 2×2 window
of rows `2p, 2p+1` and columns `2q, 2q+1`, each maximum a fold from the pattern of minus infinity.  The features add the
bias row, take `max · 0` and flatten `(p, q, d)` row-major.
-/

noncomputable section

namespace Cert.KernelIdeal.NetValue

open Cert.KernelIdeal Cert.KernelIdeal.Gen Idealize.ShloMosaic Idealize.ShloMosaic.ValueIdx

/-- The maximum over the column parity (axis 3 of the five) at `(b, h, q, d)`. -/
theorem max_colParity_apply (v : FVec Ideal S8x24x12x2x64 .f32) (hφ : FKind.Formats .f32)
    (hacc : (0xFF800000#32 : BitVec 32) = FKind.maximumf.neutral .f32 hφ) (b : Fin 8) (h : Fin 24) (q : Fin 12) (d : Fin 64) :
    multiReduction .maximumf [3] S8x24x12x64 v 0xFF800000#32 reduces_S8x24x12x2x64_S8x24x12x64 hφ hacc (ix4 b h q d)
      = (Finset.univ : Finset (Fin 2)).fold max Net.NEG (fun e => v (ix5 b h q e d)) := by
  refine (Ideal.multiReduction_maximumf_single v _ reduces_S8x24x12x2x64_S8x24x12x64 hφ hacc _).trans ?_
  refine congrArg (fun f => (Finset.univ : Finset (Fin 2)).fold max Net.NEG f)
    (funext fun e => congrArg v (funext fun ax => Fin.ext ?_))
  match ax with
  | ⟨0, _⟩ => rfl
  | ⟨1, _⟩ => rfl
  | ⟨2, _⟩ => rfl
  | ⟨3, _⟩ => rfl
  | ⟨4, _⟩ => rfl

/-- The maximum over the row parity (axis 2 of the five) at `(b, p, q, d)`. -/
theorem max_rowParity_apply (v : FVec Ideal S8x12x2x12x64 .f32) (hφ : FKind.Formats .f32)
    (hacc : (0xFF800000#32 : BitVec 32) = FKind.maximumf.neutral .f32 hφ) (b : Fin 8) (p q : Fin 12) (d : Fin 64) :
    multiReduction .maximumf [2] S8x12x12x64 v 0xFF800000#32 reduces_S8x12x2x12x64_S8x12x12x64 hφ hacc (ix4 b p q d)
      = (Finset.univ : Finset (Fin 2)).fold max Net.NEG (fun a => v (ix5 b p a q d)) := by
  refine (Ideal.multiReduction_maximumf_single v _ reduces_S8x12x2x12x64_S8x12x12x64 hφ hacc _).trans ?_
  refine congrArg (fun f => (Finset.univ : Finset (Fin 2)).fold max Net.NEG f)
    (funext fun a => congrArg v (funext fun ax => Fin.ext ?_))
  match ax with
  | ⟨0, _⟩ => rfl
  | ⟨1, _⟩ => rfl
  | ⟨2, _⟩ => rfl
  | ⟨3, _⟩ => rfl
  | ⟨4, _⟩ => rfl

/-- The pool at `(b, p, q, d)`: the maximum over the rows `2p + a` of the maximum over the columns `2q + e` of the raw sum
    in row `(b·24 + (2p + a))·24 + (2q + e)` of the matrix of sums. -/
theorem pooled_apply (v91 : FVec Ideal S4608x64 .f32) (b : Fin 8) (p q : Fin 12) (d : Fin 64) :
    pooled v91 (ix4 b p q d)
      = (Finset.univ : Finset (Fin 2)).fold max Net.NEG (fun a =>
          (Finset.univ : Finset (Fin 2)).fold max Net.NEG (fun e =>
            v91 (ix2 (⟨(b.val * 24 + (2 * p.val + a.val)) * 24 + (2 * q.val + e.val), by omega⟩ : Fin 4608) d))) := by
  unfold pooled
  refine (max_rowParity_apply _ _ _ b p q d).trans ?_
  refine congrArg (fun f => (Finset.univ : Finset (Fin 2)).fold max Net.NEG f) (funext fun a => ?_)
  refine (shapeCast_abcd_aefcd_apply _ _ rfl b p a q d (⟨2 * p.val + a.val, by omega⟩ : Fin 24) (by show 2 * p.val + a.val = p.val * 2 + a.val; omega)).trans ?_
  refine (max_colParity_apply _ _ _ b _ q d).trans ?_
  refine congrArg (fun f => (Finset.univ : Finset (Fin 2)).fold max Net.NEG f) (funext fun e => ?_)
  exact shapeCast_ne_abcde_apply _ _ b _ q e d _ (by
    show (b.val * 24 + (2 * p.val + a.val)) * 24 + (2 * q.val + e.val) = ((b.val * 24 + (2 * p.val + a.val)) * 12 + q.val) * 2 + e.val
    omega)

/-- The features at `(b, r)`: the pooled sum at `(b, r / 768, r / 64 % 12, r % 64)` plus the bias of channel `r % 64`,
    then `max · 0`. -/
theorem features_apply (v95 : FVec Ideal S8x12x12x64 .f32) (v96 : Vec Ideal S1x64 .f32) (b : Fin 8) (r : Fin 9216) :
    features v95 v96 (ix2 b r)
      = max (v95 (ix4 b (⟨r.val / 768, by omega⟩ : Fin 12) (⟨r.val / 64 % 12, by omega⟩ : Fin 12) (⟨r.val % 64, by omega⟩ : Fin 64))
          + v96 (ix2 (0 : Fin 1) (⟨r.val % 64, by omega⟩ : Fin 64))) 0 := by
  unfold features
  refine (shapeCast_abcd_an_apply _ _ rfl b r (⟨r.val / 768, by omega⟩ : Fin 12) (⟨r.val / 64 % 12, by omega⟩ : Fin 12)
    (⟨r.val % 64, by omega⟩ : Fin 64) (by show r.val = (r.val / 768 * 12 + r.val / 64 % 12) * 64 + r.val % 64; omega)).trans ?_
  simp only [truncf_apply, maximumf_apply, addf_apply, broadcast_apply, broadcastTo_111d_abcd_apply, shapeCast_1d_111d_apply]
  exact congrArg (max _) Ideal.ofBits_zero_f32

end Cert.KernelIdeal.NetValue

end
-- ==== Proof.KernelDot.lean ====
import Idealize.ShloMosaic.Lib.ValueLayout
import Idealize.ShloMosaic.PureOps.Ideal
import Idealize.ShloMosaic.PureOps.Ideal.Laws

/-!
# A rows-by-columns product read at an entry

A matrix product that contracts the left operand's columns against the right operand's rows, accumulated into zero, is at
entry `(i, j)` the sum over the contraction position `q` of the left operand at `(i, q)` times the right operand at
`(q, j)`.  The product's dimension numbers give the two operand indices by their coordinates (four facts: which axis of
each operand is contracted and which is kept), and the sum over the one-axis contraction index is re-indexed to a sum over
the positions themselves.
-/

namespace Cert.KernelIdeal.NetValue

open Idealize.ShloMosaic Idealize.ShloMosaic.ValueIdx

open scoped BigOperators

/-- The product into zero at entry `(i, j)`: `∑ q, lhs (i, q) * rhs (q, j)`. -/
theorem matmul_zero_ix2 {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (prec : Option ContractPrecision) (lhs : FVec Ideal ⟨2, ![m, k]⟩ φ₁) (rhs : FVec Ideal ⟨2, ![k, n]⟩ φ₂)
    (i : Fin m) (j : Fin n) :
    FloatOps.matmul D prec lhs rhs (constant ⟨2, ![m, n]⟩ .f32 0x00000000#32) (ix2 i j)
      = ∑ q : Fin k, lhs (ix2 i q) * rhs (ix2 q j) := by
  refine (Ideal.matmul_constant_zero_apply D prec lhs rhs (ix2 i j)).trans ?_
  refine Fintype.sum_equiv (contrEquiv1 D k hr hs) _ _ fun q => ?_
  have e1 : D.lhsIdx (ix2 i j) q = ix2 i (contrEquiv1 D k hr hs q) := funext fun a => Fin.ext (by
    match a with
    | ⟨0, _⟩ => exact hl0 (ix2 i j) q
    | ⟨1, _⟩ => exact hl1 (ix2 i j) q)
  have e2 : D.rhsIdx (ix2 i j) q = ix2 (contrEquiv1 D k hr hs q) j := funext fun a => Fin.ext (by
    match a with
    | ⟨0, _⟩ => exact hr0 (ix2 i j) q
    | ⟨1, _⟩ => exact hr1 (ix2 i j) q)
  rw [e1, e2]

end Cert.KernelIdeal.NetValue
-- ==== Proof.KernelDense.lean ====
import proofs.«158827_g2000604799650332_pallasbulk_197_4_alg».proof.Proof.KernelOps
import proofs.«158827_g2000604799650332_pallasbulk_197_4_alg».proof.Proof.KernelDot
import proofs.«158827_g2000604799650332_pallasbulk_197_4_alg».proof.Proof.KernelStages
import proofs.«158827_g2000604799650332_pallasbulk_197_4_alg».proof.Proof.Net
import Idealize.ShloMosaic.PureOps.Ideal.Laws

/-!
# The three matrix products and the head, entry by entry

The second convolution and the two dense layers are rows-by-columns products into zero; the hidden layer adds its bias rows
and takes `max · 0`; the logits add the last bias row; the log-softmax subtracts from each logit its row's maximum (a fold
from the pattern of minus infinity) and then the logarithm of the row's sum of exponentials of those differences.
-/

noncomputable section

namespace Cert.KernelIdeal.NetValue

open Cert.KernelIdeal Cert.KernelIdeal.Gen Idealize.ShloMosaic Idealize.ShloMosaic.ValueIdx

open scoped BigOperators

/-- The second convolution's raw sum at `(r, d)`: row `r` of the patch matrix against column `d` of the weights. -/
theorem convTwo_apply (v88 : FVec Ideal S4608x288 .bf16) (v89 : Vec Ideal S288x64 .bf16) (r : Fin 4608) (d : Fin 64) :
    convTwo v88 v89 (ix2 r d) = ∑ k : Fin 288, v88 (ix2 r k) * v89 (ix2 k d) := by
  unfold convTwo
  simp only [shapeCast_self]
  exact matmul_zero_ix2 dot_S4608x288_S288x64_S4608x64_1_0_0_1_n_n rfl rfl (fun _ _ => rfl)
    (fun j q => dot_S4608x288_S288x64_S4608x64_1_0_0_1_n_n.lhsIdx_val_of_single rfl j q)
    (fun j q => dot_S4608x288_S288x64_S4608x64_1_0_0_1_n_n.rhsIdx_val_of_single rfl j q) (fun _ _ => rfl) none v88 v89 r d

/-- The first dense layer's sum at `(b, u)`: row `b` of the features against column `u` of the weights. -/
theorem denseOne_apply (v103 : FVec Ideal S8x9216 .bf16) (v104 : Vec Ideal S9216x128 .bf16) (b : Fin 8) (u : Fin 128) :
    denseOne v103 v104 (ix2 b u) = ∑ r : Fin 9216, v103 (ix2 b r) * v104 (ix2 r u) := by
  unfold denseOne
  simp only [shapeCast_self]
  exact matmul_zero_ix2 dot_S8x9216_S9216x128_S8x128_1_0_0_1_n_n rfl rfl (fun _ _ => rfl)
    (fun j q => dot_S8x9216_S9216x128_S8x128_1_0_0_1_n_n.lhsIdx_val_of_single rfl j q)
    (fun j q => dot_S8x9216_S9216x128_S8x128_1_0_0_1_n_n.rhsIdx_val_of_single rfl j q) (fun _ _ => rfl) none v103 v104 b u

/-- The hidden layer at `(b, u)`: the sum plus the bias, then `max · 0`. -/
theorem hidden_apply (v106 v108 : FVec Ideal S8x128 .f32) (b : Fin 8) (u : Fin 128) :
    hidden v106 v108 (ix2 b u) = max (v106 (ix2 b u) + v108 (ix2 b u)) 0 := by
  unfold hidden
  simp only [truncf_apply, maximumf_apply, addf_apply, broadcast_apply]
  exact congrArg (max _) Ideal.ofBits_zero_f32

/-- The bias rows of the first dense layer at `(b, u)`: the bias of unit `u`. -/
theorem pay6_apply (v107 : Vec Ideal S1x128 .f32) (b : Fin 8) (u : Fin 128) :
    k0_pay6 v107 (ix2 b u) = v107 (ix2 (0 : Fin 1) u) := by
  unfold k0_pay6
  exact broadcastTo_1b_ab_apply _ _ b u

/-- The logits at `(b, o)`: row `b` of the hidden layer against column `o` of the last weights, plus the bias of `o`. -/
theorem logits_apply (v112 : FVec Ideal S8x128 .bf16) (v113 : Vec Ideal S128x10 .bf16) (v116 : Vec Ideal S1x10 .f32)
    (b : Fin 8) (o : Fin 10) :
    logits v112 v113 v116 (ix2 b o) = (∑ u : Fin 128, v112 (ix2 b u) * v113 (ix2 u o)) + v116 (ix2 (0 : Fin 1) o) := by
  unfold logits
  simp only [shapeCast_self, addf_apply, broadcastTo_1b_ab_apply]
  refine congrArg (fun s => s + v116 (ix2 (0 : Fin 1) o)) ?_
  exact matmul_zero_ix2 dot_S8x128_S128x10_S8x10_1_0_0_1_n_n rfl rfl (fun _ _ => rfl)
    (fun j q => dot_S8x128_S128x10_S8x10_1_0_0_1_n_n.lhsIdx_val_of_single rfl j q)
    (fun j q => dot_S8x128_S128x10_S8x10_1_0_0_1_n_n.rhsIdx_val_of_single rfl j q) (fun _ _ => rfl) none v112 v113 b o

/-- A row's maximum (axis 1 of the two) at `b`. -/
theorem rowMax_apply (v : FVec Ideal S8x10 .f32) (hφ : FKind.Formats .f32)
    (hacc : (0xFF800000#32 : BitVec 32) = FKind.maximumf.neutral .f32 hφ) (b : Fin 8) :
    multiReduction .maximumf [1] S8 v 0xFF800000#32 reduces_S8x10_S8 hφ hacc (ix1 b)
      = (Finset.univ : Finset (Fin 10)).fold max Net.NEG (fun o => v (ix2 b o)) := by
  refine (Ideal.multiReduction_maximumf_single v _ reduces_S8x10_S8 hφ hacc _).trans ?_
  refine congrArg (fun f => (Finset.univ : Finset (Fin 10)).fold max Net.NEG f)
    (funext fun o => congrArg v (funext fun ax => Fin.ext ?_))
  match ax with
  | ⟨0, _⟩ => rfl
  | ⟨1, _⟩ => rfl

/-- A row's sum (axis 1 of the two) at `b`. -/
theorem rowSum_apply (v : FVec Ideal S8x10 .f32) (hφ : FKind.Formats .f32)
    (hacc : (0x00000000#32 : BitVec 32) = FKind.add.neutral .f32 hφ) (b : Fin 8) :
    multiReduction .add [1] S8 v 0x00000000#32 reduces_S8x10_S8 hφ hacc (ix1 b) = ∑ o : Fin 10, v (ix2 b o) := by
  refine (Ideal.multiReduction_add_single v _ reduces_S8x10_S8 hφ hacc _).trans ?_
  refine Finset.sum_congr rfl fun o _ => congrArg v (funext fun ax => Fin.ext ?_)
  match ax with
  | ⟨0, _⟩ => rfl
  | ⟨1, _⟩ => rfl

/-- The exponential and the logarithm act entry by entry. -/
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

/-- A logit less its row's maximum, at `(b, o)`: the maximum is a vector over the rows, stood up as a column and repeated
    along the row. -/
theorem shifted_apply (v118 : FVec Ideal S8x10 .f32) (hφ : FKind.Formats .f32)
    (hacc : (0xFF800000#32 : BitVec 32) = FKind.maximumf.neutral .f32 hφ) (b : Fin 8) (o : Fin 10) :
    subf v118 (broadcastTo S8x10 (shapeCast S8x1 (multiReduction .maximumf [1] S8 v118 0xFF800000#32 reduces_S8x10_S8 hφ hacc)
        shapeCasts_S8_S8x1) broadcasts_S8x1_S8x10) (ix2 b o)
      = v118 (ix2 b o) - (Finset.univ : Finset (Fin 10)).fold max Net.NEG (fun o' => v118 (ix2 b o')) := by
  rw [subf_apply, broadcastTo_a1_ab_apply, shapeCast_a_a1_apply]
  exact congrArg (fun x => v118 (ix2 b o) - x) (rowMax_apply v118 hφ hacc b)

/-- The log-softmax at `(b, o)`. -/
theorem logSoftmax_apply (v118 : FVec Ideal S8x10 .f32) (b : Fin 8) (o : Fin 10) :
    logSoftmax v118 (ix2 b o)
      = (v118 (ix2 b o) - (Finset.univ : Finset (Fin 10)).fold max Net.NEG (fun o' => v118 (ix2 b o')))
        - Ideal.log (∑ o' : Fin 10, Ideal.exp (v118 (ix2 b o')
            - (Finset.univ : Finset (Fin 10)).fold max Net.NEG (fun o'' => v118 (ix2 b o'')))) := by
  unfold logSoftmax
  refine (subf_apply _ _ (ix2 b o)).trans ?_
  refine congrArg₂ (fun x y => x - y) (shifted_apply v118 _ _ b o) ?_
  refine (broadcastTo_a1_ab_apply _ _ b o).trans ?_
  refine (log_apply _ _).trans (congrArg Ideal.log ?_)
  refine (shapeCast_a_a1_apply _ _ b (0 : Fin 1)).trans ?_
  refine (rowSum_apply _ _ _ b).trans (Finset.sum_congr rfl fun o' _ => ?_)
  exact (exp_apply _ _).trans (congrArg Ideal.exp (shifted_apply v118 _ _ b o'))

end Cert.KernelIdeal.NetValue

end
-- ==== Proof.KernelBlock.lean ====
import proofs.«158827_g2000604799650332_pallasbulk_197_4_alg».proof.Proof.KernelLoads
import proofs.«158827_g2000604799650332_pallasbulk_197_4_alg».proof.Proof.KernelConvOne
import proofs.«158827_g2000604799650332_pallasbulk_197_4_alg».proof.Proof.KernelPatches
import proofs.«158827_g2000604799650332_pallasbulk_197_4_alg».proof.Proof.KernelPool
import proofs.«158827_g2000604799650332_pallasbulk_197_4_alg».proof.Proof.KernelDense
import proofs.«158827_g2000604799650332_pallasbulk_197_4_alg».proof.Proof.Net
import proofs.«158827_g2000604799650332_pallasbulk_197_4_alg».proof.Proof.Gen.KernelIdeal.Frame

/-!
# One block of the result is eight rows of the network's result

The body's one store holds, at `(b, o)`, the network's result for image `n0 + b` and class `o`, when the image block holds
images `n0, …, n0 + 7` of the batch and the other eight blocks are the whole weight and bias arrays.  The stages are composed
from the first convolution to the log-softmax.
-/

noncomputable section

namespace Cert.KernelIdeal.NetValue

open Cert.KernelIdeal Cert.KernelIdeal.Gen Idealize.ShloMosaic Idealize.ShloMosaic.ValueIdx

open scoped BigOperators

/-- Image `b` of the block that starts at image `n0`. -/
abbrev img (n0 : ℕ) (hn0 : n0 + 8 ≤ 8192) (b : Fin 8) : Fin 8192 := ⟨n0 + b.val, by omega⟩

/-- The zero offsets of a rank-2 buffer, as the constant function. -/
theorem hz2 : (![0, 0] : Fin 2 → ℕ) = fun _ => 0 := funext fun a => by fin_cases a <;> rfl

/-- Tap `k` of the window at `(i, j)`: the load of the image block from offsets `(0, k / 3, k % 3, 0)`. -/
theorem window_tap (xs : Net.A4 8192 28 28 1) (x0 : Vec Ideal S8x28x28x1 .f32)
    (n0 : ℕ) (hn0 : n0 + 8 ≤ 8192)
    (hx0 : ∀ (b : Fin 8) (i j : Fin 28), x0 (ix4 b i j (0 : Fin 1)) = xs (ix4 (⟨n0 + b.val, by omega⟩ : Fin 8192) i j (0 : Fin 1)))
    (o1 o2 : ℕ) (inb : ∀ a, (![0, o1, o2, 0] : Fin 4 → ℕ) a + S8x26x26x1.size a ≤ S8x28x28x1.size a)
    (k : Fin 9) (h1 : k.val / 3 = o1) (h2 : k.val % 3 = o2) (b : Fin 8) (i j : Fin 26) :
    View.ld x0 (Rect.unit (s := S8x28x28x1) ![0, o1, o2, 0] S8x26x26x1.size inb) (ix4 b i j (0 : Fin 1))
      = Net.px xs (img n0 hn0 b) i j k :=
  (ld_window_apply o1 o2 x0 inb b i j (0 : Fin 1) (⟨i.val + k.val / 3, by omega⟩ : Fin 28) (⟨j.val + k.val % 3, by omega⟩ : Fin 28)
    (by show i.val + k.val / 3 = o1 + i.val; omega) (by show j.val + k.val % 3 = o2 + j.val; omega)).trans (hx0 b _ _)

/-- The first convolution's output block, from the image block and the weight and bias arrays. -/
def c1Blk (x0 : Vec Ideal S8x28x28x1 .f32) (x1 : Vec Ideal S9x32 .f32) (x2 : Vec Ideal S1x32 .f32) : FVec Ideal S8x26x26x32 .bf16 :=
  reluOne (k0_pay3 (k0_pay2 (View.ld x0 r0_0) (View.ld x1 r0_1) (View.ld x0 r0_2) (View.ld x1 r0_3) (View.ld x0 r0_4) (View.ld x1 r0_5) (View.ld x0 r0_6) (View.ld x1 r0_7)) (View.ld x0 r0_8) (View.ld x1 r0_9) (View.ld x0 r0_10) (View.ld x1 r0_11) (View.ld x0 r0_12) (View.ld x1 r0_13) (View.ld x0 r0_14) (View.ld x1 r0_15)) (k0_pay4 (View.ld x0 r0_16)) (View.ld x1 r0_17) x2

/-- The first convolution's output block at `(b, i, j, c)` is the network's first convolution for image `n0 + b`. -/
theorem c1Blk_apply (xs : Net.A4 8192 28 28 1) (x0 : Vec Ideal S8x28x28x1 .f32) (x1 : Vec Ideal S9x32 .f32) (x2 : Vec Ideal S1x32 .f32)
    (n0 : ℕ) (hn0 : n0 + 8 ≤ 8192)
    (hx0 : ∀ (b : Fin 8) (i j : Fin 28), x0 (ix4 b i j (0 : Fin 1)) = xs (ix4 (⟨n0 + b.val, by omega⟩ : Fin 8192) i j (0 : Fin 1))) (b : Fin 8) (i j : Fin 26) (c : Fin 32) :
    c1Blk x0 x1 x2 (ix4 b i j c) = Net.conv1 xs x1 x2 (img n0 hn0 b) i j c := by
  unfold c1Blk
  rw [reluOne_apply, pay3_apply, pay2_apply, pay4_eq]
  have e0 : View.ld x0 r0_0 (ix4 b i j (0 : Fin 1)) = Net.px xs (img n0 hn0 b) i j (0 : Fin 9) :=
    window_tap xs x0 n0 hn0 hx0 0 0 _ (0 : Fin 9) rfl rfl b i j
  have f0 : View.ld x1 r0_1 (ix2 (0 : Fin 1) c) = x1 (ix2 (0 : Fin 9) c) := ld_row_apply 0 x1 _ (0 : Fin 1) c (0 : Fin 9) rfl
  have e1 : View.ld x0 r0_2 (ix4 b i j (0 : Fin 1)) = Net.px xs (img n0 hn0 b) i j (1 : Fin 9) :=
    window_tap xs x0 n0 hn0 hx0 0 1 _ (1 : Fin 9) rfl rfl b i j
  have f1 : View.ld x1 r0_3 (ix2 (0 : Fin 1) c) = x1 (ix2 (1 : Fin 9) c) := ld_row_apply 1 x1 _ (0 : Fin 1) c (1 : Fin 9) rfl
  have e2 : View.ld x0 r0_4 (ix4 b i j (0 : Fin 1)) = Net.px xs (img n0 hn0 b) i j (2 : Fin 9) :=
    window_tap xs x0 n0 hn0 hx0 0 2 _ (2 : Fin 9) rfl rfl b i j
  have f2 : View.ld x1 r0_5 (ix2 (0 : Fin 1) c) = x1 (ix2 (2 : Fin 9) c) := ld_row_apply 2 x1 _ (0 : Fin 1) c (2 : Fin 9) rfl
  have e3 : View.ld x0 r0_6 (ix4 b i j (0 : Fin 1)) = Net.px xs (img n0 hn0 b) i j (3 : Fin 9) :=
    window_tap xs x0 n0 hn0 hx0 1 0 _ (3 : Fin 9) rfl rfl b i j
  have f3 : View.ld x1 r0_7 (ix2 (0 : Fin 1) c) = x1 (ix2 (3 : Fin 9) c) := ld_row_apply 3 x1 _ (0 : Fin 1) c (3 : Fin 9) rfl
  have e4 : View.ld x0 r0_8 (ix4 b i j (0 : Fin 1)) = Net.px xs (img n0 hn0 b) i j (4 : Fin 9) :=
    window_tap xs x0 n0 hn0 hx0 1 1 _ (4 : Fin 9) rfl rfl b i j
  have f4 : View.ld x1 r0_9 (ix2 (0 : Fin 1) c) = x1 (ix2 (4 : Fin 9) c) := ld_row_apply 4 x1 _ (0 : Fin 1) c (4 : Fin 9) rfl
  have e5 : View.ld x0 r0_10 (ix4 b i j (0 : Fin 1)) = Net.px xs (img n0 hn0 b) i j (5 : Fin 9) :=
    window_tap xs x0 n0 hn0 hx0 1 2 _ (5 : Fin 9) rfl rfl b i j
  have f5 : View.ld x1 r0_11 (ix2 (0 : Fin 1) c) = x1 (ix2 (5 : Fin 9) c) := ld_row_apply 5 x1 _ (0 : Fin 1) c (5 : Fin 9) rfl
  have e6 : View.ld x0 r0_12 (ix4 b i j (0 : Fin 1)) = Net.px xs (img n0 hn0 b) i j (6 : Fin 9) :=
    window_tap xs x0 n0 hn0 hx0 2 0 _ (6 : Fin 9) rfl rfl b i j
  have f6 : View.ld x1 r0_13 (ix2 (0 : Fin 1) c) = x1 (ix2 (6 : Fin 9) c) := ld_row_apply 6 x1 _ (0 : Fin 1) c (6 : Fin 9) rfl
  have e7 : View.ld x0 r0_14 (ix4 b i j (0 : Fin 1)) = Net.px xs (img n0 hn0 b) i j (7 : Fin 9) :=
    window_tap xs x0 n0 hn0 hx0 2 1 _ (7 : Fin 9) rfl rfl b i j
  have f7 : View.ld x1 r0_15 (ix2 (0 : Fin 1) c) = x1 (ix2 (7 : Fin 9) c) := ld_row_apply 7 x1 _ (0 : Fin 1) c (7 : Fin 9) rfl
  have e8 : View.ld x0 r0_16 (ix4 b i j (0 : Fin 1)) = Net.px xs (img n0 hn0 b) i j (8 : Fin 9) :=
    window_tap xs x0 n0 hn0 hx0 2 2 _ (8 : Fin 9) rfl rfl b i j
  have f8 : View.ld x1 r0_17 (ix2 (0 : Fin 1) c) = x1 (ix2 (8 : Fin 9) c) := ld_row_apply 8 x1 _ (0 : Fin 1) c (8 : Fin 9) rfl
  rw [e0, f0, e1, f1, e2, f2, e3, f3, e4, f4, e5, f5, e6, f6, e7, f7, e8, f8]
  rfl

/-- The second convolution's raw sum in row `(b·24 + h)·24 + w` is the network's for image `n0 + b` at `(h, w)`. -/
theorem conv2Blk_apply (xs : Net.A4 8192 28 28 1) (x0 : Vec Ideal S8x28x28x1 .f32) (x1 : Vec Ideal S9x32 .f32) (x2 : Vec Ideal S1x32 .f32) (x3 : Vec Ideal S288x64 .bf16)
    (n0 : ℕ) (hn0 : n0 + 8 ≤ 8192)
    (hx0 : ∀ (b : Fin 8) (i j : Fin 28), x0 (ix4 b i j (0 : Fin 1)) = xs (ix4 (⟨n0 + b.val, by omega⟩ : Fin 8192) i j (0 : Fin 1))) (b : Fin 8) (h w : Fin 24) (d : Fin 64) (r : Fin 4608)
    (hr : r.val = (b.val * 24 + h.val) * 24 + w.val) :
    convTwo (patches (c1Blk x0 x1 x2)) x3 (ix2 r d) = Net.conv2 xs x1 x2 x3 (img n0 hn0 b) h w d := by
  rw [convTwo_apply]
  unfold Net.conv2
  refine Finset.sum_congr rfl fun k _ => ?_
  rw [patches_apply _ b h w k r hr, c1Blk_apply xs x0 x1 x2 n0 hn0 hx0]
  rfl

/-- The pooled sum at `(b, p, q, d)` is the maximum over the network's 2×2 window. -/
theorem poolBlk_apply (xs : Net.A4 8192 28 28 1) (x0 : Vec Ideal S8x28x28x1 .f32) (x1 : Vec Ideal S9x32 .f32) (x2 : Vec Ideal S1x32 .f32) (x3 : Vec Ideal S288x64 .bf16)
    (n0 : ℕ) (hn0 : n0 + 8 ≤ 8192)
    (hx0 : ∀ (b : Fin 8) (i j : Fin 28), x0 (ix4 b i j (0 : Fin 1)) = xs (ix4 (⟨n0 + b.val, by omega⟩ : Fin 8192) i j (0 : Fin 1))) (b : Fin 8) (p q : Fin 12) (d : Fin 64) :
    pooled (convTwo (patches (c1Blk x0 x1 x2)) x3) (ix4 b p q d)
      = (Finset.univ : Finset (Fin 2)).fold max Net.NEG (fun a =>
          (Finset.univ : Finset (Fin 2)).fold max Net.NEG (fun e => Net.win xs x1 x2 x3 (img n0 hn0 b) p q d a e)) := by
  rw [pooled_apply]
  refine congrArg (fun f => (Finset.univ : Finset (Fin 2)).fold max Net.NEG f) (funext fun a => ?_)
  refine congrArg (fun f => (Finset.univ : Finset (Fin 2)).fold max Net.NEG f) (funext fun e => ?_)
  exact conv2Blk_apply xs x0 x1 x2 x3 n0 hn0 hx0 b (⟨2 * p.val + a.val, by omega⟩ : Fin 24) (⟨2 * q.val + e.val, by omega⟩ : Fin 24) d _ rfl

/-- The features at `(b, r)` are the network's flattened features of image `n0 + b`. -/
theorem featBlk_apply (xs : Net.A4 8192 28 28 1) (x0 : Vec Ideal S8x28x28x1 .f32) (x1 : Vec Ideal S9x32 .f32) (x2 : Vec Ideal S1x32 .f32) (x3 : Vec Ideal S288x64 .bf16) (x4 : Vec Ideal S1x64 .f32)
    (n0 : ℕ) (hn0 : n0 + 8 ≤ 8192)
    (hx0 : ∀ (b : Fin 8) (i j : Fin 28), x0 (ix4 b i j (0 : Fin 1)) = xs (ix4 (⟨n0 + b.val, by omega⟩ : Fin 8192) i j (0 : Fin 1))) (b : Fin 8) (r : Fin 9216) :
    features (pooled (convTwo (patches (c1Blk x0 x1 x2)) x3)) x4 (ix2 b r)
      = Net.flat (Net.featK xs x1 x2 x3 x4) (img n0 hn0 b) r := by
  rw [features_apply, poolBlk_apply xs x0 x1 x2 x3 n0 hn0 hx0]
  rfl

/-- The first dense layer's sum at `(b, u)` is the network's for image `n0 + b`. -/
theorem hidBlk_apply (xs : Net.A4 8192 28 28 1) (x0 : Vec Ideal S8x28x28x1 .f32) (x1 : Vec Ideal S9x32 .f32) (x2 : Vec Ideal S1x32 .f32) (x3 : Vec Ideal S288x64 .bf16) (x4 : Vec Ideal S1x64 .f32) (x5 : Vec Ideal S9216x128 .bf16)
    (n0 : ℕ) (hn0 : n0 + 8 ≤ 8192)
    (hx0 : ∀ (b : Fin 8) (i j : Fin 28), x0 (ix4 b i j (0 : Fin 1)) = xs (ix4 (⟨n0 + b.val, by omega⟩ : Fin 8192) i j (0 : Fin 1))) (b : Fin 8) (u : Fin 128) :
    denseOne (features (pooled (convTwo (patches (c1Blk x0 x1 x2)) x3)) x4) x5 (ix2 b u)
      = Net.hidK xs x1 x2 x3 x4 x5 (img n0 hn0 b) u := by
  rw [denseOne_apply]
  unfold Net.hidK
  refine Finset.sum_congr rfl fun r _ => ?_
  rw [featBlk_apply xs x0 x1 x2 x3 x4 n0 hn0 hx0]

/-- The block's composed stages. -/
def outBlk (x0 : Vec Ideal S8x28x28x1 .f32) (x1 : Vec Ideal S9x32 .f32) (x2 : Vec Ideal S1x32 .f32) (x3 : Vec Ideal S288x64 .bf16) (x4 : Vec Ideal S1x64 .f32) (x5 : Vec Ideal S9216x128 .bf16) (x6 : Vec Ideal S1x128 .f32) (x7 : Vec Ideal S128x10 .bf16) (x8 : Vec Ideal S1x10 .f32) :
    FVec Ideal S8x10 .f32 :=
  logSoftmax (logits (hidden (denseOne (features (pooled (convTwo (patches (c1Blk x0 x1 x2)) x3)) x4) x5) (k0_pay6 x6)) x7 x8)

/-- The block at `(b, o)` is the network's result for image `n0 + b` and class `o`. -/
theorem outBlk_apply (xs : Net.A4 8192 28 28 1) (x0 : Vec Ideal S8x28x28x1 .f32) (x1 : Vec Ideal S9x32 .f32) (x2 : Vec Ideal S1x32 .f32) (x3 : Vec Ideal S288x64 .bf16) (x4 : Vec Ideal S1x64 .f32) (x5 : Vec Ideal S9216x128 .bf16) (x6 : Vec Ideal S1x128 .f32) (x7 : Vec Ideal S128x10 .bf16) (x8 : Vec Ideal S1x10 .f32)
    (n0 : ℕ) (hn0 : n0 + 8 ≤ 8192)
    (hx0 : ∀ (b : Fin 8) (i j : Fin 28), x0 (ix4 b i j (0 : Fin 1)) = xs (ix4 (⟨n0 + b.val, by omega⟩ : Fin 8192) i j (0 : Fin 1))) (b : Fin 8) (o : Fin 10) :
    outBlk x0 x1 x2 x3 x4 x5 x6 x7 x8 (ix2 b o) = Net.outK xs x1 x2 x3 x4 x5 x6 x7 x8 (ix2 (img n0 hn0 b) o) := by
  unfold outBlk
  rw [logSoftmax_apply]
  have hl : ∀ o' : Fin 10,
      logits (hidden (denseOne (features (pooled (convTwo (patches (c1Blk x0 x1 x2)) x3)) x4) x5) (k0_pay6 x6)) x7 x8 (ix2 b o')
        = Net.logit x6 x7 x8 (Net.hidK xs x1 x2 x3 x4 x5 (img n0 hn0 b)) o' := fun o' => by
    rw [logits_apply]
    unfold Net.logit Net.hid
    refine congrArg (fun s => s + x8 (ix2 (0 : Fin 1) o')) (Finset.sum_congr rfl fun u _ => ?_)
    rw [hidden_apply, pay6_apply, hidBlk_apply xs x0 x1 x2 x3 x4 x5 n0 hn0 hx0]
  simp only [hl]
  rfl

/-- The body's store, from the nine blocks, is the composed stages. -/
theorem out0_9_eq (x0 : Vec Ideal S8x28x28x1 .f32) (x1 : Vec Ideal S9x32 .f32) (x2 : Vec Ideal S1x32 .f32) (x3 : Vec Ideal S288x64 .bf16) (x4 : Vec Ideal S1x64 .f32) (x5 : Vec Ideal S9216x128 .bf16) (x6 : Vec Ideal S1x128 .f32) (x7 : Vec Ideal S128x10 .bf16) (x8 : Vec Ideal S1x10 .f32) :
    out0_9 x0 x1 x2 x3 x4 x5 x6 x7 x8 = outBlk x0 x1 x2 x3 x4 x5 x6 x7 x8 := by
  unfold out0_9
  rw [View.canon_unit_zero hz2]
  simp only [View.ld_unit_zero (S := S1x32) hz2, View.ld_unit_zero (S := S288x64) hz2, View.ld_unit_zero (S := S1x64) hz2,
    View.ld_unit_zero (S := S9216x128) hz2, View.ld_unit_zero (S := S1x128) hz2, View.ld_unit_zero (S := S128x10) hz2,
    View.ld_unit_zero (S := S1x10) hz2]
  rw [pay1_eq_stages, pay5_eq_stages]
  rfl

end Cert.KernelIdeal.NetValue

end
-- ==== Proof.KernelArrays.lean ====
import proofs.«158827_g2000604799650332_pallasbulk_197_4_alg».proof.Proof.Gen.KernelIdeal.Frame
import proofs.«158827_g2000604799650332_pallasbulk_197_4_alg».proof.Proof.Gen.KernelIdeal.Value
import proofs.«158827_g2000604799650332_pallasbulk_197_4_alg».proof.Proof.Net
import Idealize.ShloMosaic.Lib.Pipeline.Value
import Idealize.ShloMosaic.Lib.ValueLayout
import Idealize.ShloMosaic.Lib.Tactic
import Idealize.ShloMosaic.PureOps.Ideal.Laws

/-!
# The arrays the windows stage, and each window's block as rows of its array

Before the grid runs the images are re-laid from `[n, 1, i, j]` to `[n, i, j, 1]` and three weight arrays change float
format, which at the extended reals is the identity.  The image window's block at point `t` is images
`8t, …, 8t + 7`; every other input window's block is its whole array at every point; the output's block index on the row
axis is `t`.
-/

noncomputable section

open Idealize.ShloMosaic Idealize.ShloMosaic.TcCoe Idealize.SL.Sem
open Idealize.ShloMosaic.Pipeline (Dat)

namespace Cert.KernelIdeal.NetValue

open Cert.KernelIdeal Cert.KernelIdeal.Gen Cert.KernelIdeal.Value Idealize.ShloMosaic.ValueIdx

variable (m : (ℓ : Loc nD τ sig) → Buf (Elt Ideal) ℓ)

/-! ## The arrays written before the grid runs -/

/-- The image window's array is the images re-laid. -/
theorem V_images (c : Dev nD) : (V m c main_v0 : S8192x28x28x1.Idx → EReal)
    = shapeCast S8192x28x28x1 (m ((c : Thread nD τ).loc main_arg8) : S8192x1x28x28.Idx → EReal) shapeCasts_S8192x1x28x28_S8192x28x28x1 := by
  dsimp only [Gen.V, Gen.hostOps0]; after_results; rfl

/-- The re-laid images at `(n, i, j, u)`: the same numbers, entry `(n, 0, i, j)`. -/
theorem V_images_apply (c : Dev nD) (n : Fin 8192) (i j : Fin 28) (u : Fin 1) :
    (V m c main_v0 : S8192x28x28x1.Idx → EReal) (ix4 n i j u)
      = Net.nhwc (m ((c : Thread nD τ).loc main_arg8) : S8192x1x28x28.Idx → EReal) (ix4 n i j u) := by
  rw [V_images]
  show shapeCast S8192x28x28x1 (m ((c : Thread nD τ).loc main_arg8) : S8192x1x28x28.Idx → EReal) _ (ix4 n i j u)
    = (m ((c : Thread nD τ).loc main_arg8) : S8192x1x28x28.Idx → EReal) (ix4 n (0 : Fin 1) i j)
  refine shapeCast_apply (s := S8192x1x28x28) (t := S8192x28x28x1) _ _ (ix4 n i j u) (ix4 n (0 : Fin 1) i j) ?_
  rw [Shape.rowMajor_val_four, Shape.rowMajor_val_four]
  show ((n.val * 1 + 0) * 28 + i.val) * 28 + j.val = ((n.val * 28 + i.val) * 28 + j.val) * 1 + u.val
  omega

/-- Window 3's array is `main_arg2` with its float format changed: the same extended reals. -/
theorem V_main_v1 (c : Dev nD) : (V m c main_v1 : S288x64.Idx → EReal) = (m ((c : Thread nD τ).loc main_arg2) : S288x64.Idx → EReal) := by
  dsimp only [Gen.V, Gen.hostOps0]; after_results; rfl

/-- Window 5's array is `main_arg4` with its float format changed: the same extended reals. -/
theorem V_main_v2 (c : Dev nD) : (V m c main_v2 : S9216x128.Idx → EReal) = (m ((c : Thread nD τ).loc main_arg4) : S9216x128.Idx → EReal) := by
  dsimp only [Gen.V, Gen.hostOps0]; after_results; rfl

/-- Window 7's array is `main_arg6` with its float format changed: the same extended reals. -/
theorem V_main_v3 (c : Dev nD) : (V m c main_v3 : S128x10.Idx → EReal) = (m ((c : Thread nD τ).loc main_arg6) : S128x10.Idx → EReal) := by
  dsimp only [Gen.V, Gen.hostOps0]; after_results; rfl

/-! ## The index maps at each of the 1024 points -/

/-- The image window moves one block of eight images per point. -/
theorem idx_images : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

/-- Window 1 stays on its one block. -/
theorem idx_w1 : ∀ t : Fin cfg0.N, win0_1.index t (0 : Fin 2) = 0 ∧ win0_1.index t (1 : Fin 2) = 0 :=
  (by decide +kernel : ∀ t : Fin grid0.N, _)

/-- Window 2 stays on its one block. -/
theorem idx_w2 : ∀ t : Fin cfg0.N, win0_2.index t (0 : Fin 2) = 0 ∧ win0_2.index t (1 : Fin 2) = 0 :=
  (by decide +kernel : ∀ t : Fin grid0.N, _)

/-- Window 3 stays on its one block. -/
theorem idx_w3 : ∀ t : Fin cfg0.N, win0_3.index t (0 : Fin 2) = 0 ∧ win0_3.index t (1 : Fin 2) = 0 :=
  (by decide +kernel : ∀ t : Fin grid0.N, _)

/-- Window 4 stays on its one block. -/
theorem idx_w4 : ∀ t : Fin cfg0.N, win0_4.index t (0 : Fin 2) = 0 ∧ win0_4.index t (1 : Fin 2) = 0 :=
  (by decide +kernel : ∀ t : Fin grid0.N, _)

/-- Window 5 stays on its one block. -/
theorem idx_w5 : ∀ t : Fin cfg0.N, win0_5.index t (0 : Fin 2) = 0 ∧ win0_5.index t (1 : Fin 2) = 0 :=
  (by decide +kernel : ∀ t : Fin grid0.N, _)

/-- Window 6 stays on its one block. -/
theorem idx_w6 : ∀ t : Fin cfg0.N, win0_6.index t (0 : Fin 2) = 0 ∧ win0_6.index t (1 : Fin 2) = 0 :=
  (by decide +kernel : ∀ t : Fin grid0.N, _)

/-- Window 7 stays on its one block. -/
theorem idx_w7 : ∀ t : Fin cfg0.N, win0_7.index t (0 : Fin 2) = 0 ∧ win0_7.index t (1 : Fin 2) = 0 :=
  (by decide +kernel : ∀ t : Fin grid0.N, _)

/-- Window 8 stays on its one block. -/
theorem idx_w8 : ∀ t : Fin cfg0.N, win0_8.index t (0 : Fin 2) = 0 ∧ win0_8.index t (1 : Fin 2) = 0 :=
  (by decide +kernel : ∀ t : Fin grid0.N, _)

/-- The output window moves one block of eight rows per point. -/
theorem idx_out : ∀ t : Fin cfg0.N, win0_9.index t (0 : Fin 2) = t.val ∧ win0_9.index t (1 : Fin 2) = 0 :=
  (by decide +kernel : ∀ t : Fin grid0.N, _)

/-! ## The blocks -/

/-- The image block at point `t` holds images `8t + b`. -/
theorem iblk_images_apply (c : Dev nD) (t : Fin cfg0.N) (b : Fin 8) (i j : Fin 28) :
    (iblk m c 0 t : Vec Ideal S8x28x28x1 .f32) (ix4 b i j (0 : Fin 1))
      = Net.nhwc (m ((c : Thread nD τ).loc main_arg8) : S8192x1x28x28.Idx → EReal)
          (ix4 (⟨8 * t.val + b.val, by have h := t.isLt; have e : cfg0.N = 1024 := N_0; omega⟩ : Fin 8192) i j (0 : Fin 1)) := by
  obtain ⟨h0, h1, h2, h3⟩ := idx_images t
  rw [← V_images_apply m c]
  unfold iblk
  rw [View.read_apply]
  show V m c main_v0 _ = V m c main_v0 _
  congr 1
  funext a
  apply Fin.ext
  match a with
  | ⟨0, _⟩ => show win0_0.index t (0 : Fin 4) * 8 + 1 * b.val = 8 * t.val + b.val; rw [h0]; omega
  | ⟨1, _⟩ => show win0_0.index t (1 : Fin 4) * 28 + 1 * i.val = i.val; rw [h1]; omega
  | ⟨2, _⟩ => show win0_0.index t (2 : Fin 4) * 28 + 1 * j.val = j.val; rw [h2]; omega
  | ⟨3, _⟩ => show win0_0.index t (3 : Fin 4) * 1 + 1 * 0 = 0; rw [h3]

/-- Window 1's block is the whole of `main_arg0` at every point. -/
theorem iblk_w1 (c : Dev nD) (t : Fin cfg0.N) :
    (iblk m c 1 t : Vec Ideal S9x32 .f32) = (m ((c : Thread nD τ).loc main_arg0) : S9x32.Idx → EReal) := by
  obtain ⟨h0, h1⟩ := idx_w1 t
  funext y
  unfold iblk
  rw [View.read_apply]
  show V m c main_arg0 _ = _
  rw [V_main_arg0]
  congr 1
  funext a
  apply Fin.ext
  match a with
  | ⟨0, _⟩ => show win0_1.index t (0 : Fin 2) * 9 + 1 * (y 0).val = (y 0).val; rw [h0]; omega
  | ⟨1, _⟩ => show win0_1.index t (1 : Fin 2) * 32 + 1 * (y 1).val = (y 1).val; rw [h1]; omega

/-- Window 2's block is the whole of `main_arg1` at every point. -/
theorem iblk_w2 (c : Dev nD) (t : Fin cfg0.N) :
    (iblk m c 2 t : Vec Ideal S1x32 .f32) = (m ((c : Thread nD τ).loc main_arg1) : S1x32.Idx → EReal) := by
  obtain ⟨h0, h1⟩ := idx_w2 t
  funext y
  unfold iblk
  rw [View.read_apply]
  show V m c main_arg1 _ = _
  rw [V_main_arg1]
  congr 1
  funext a
  apply Fin.ext
  match a with
  | ⟨0, _⟩ => show win0_2.index t (0 : Fin 2) * 1 + 1 * (y 0).val = (y 0).val; rw [h0]; omega
  | ⟨1, _⟩ => show win0_2.index t (1 : Fin 2) * 32 + 1 * (y 1).val = (y 1).val; rw [h1]; omega

/-- Window 3's block is the whole of `main_arg2` at every point. -/
theorem iblk_w3 (c : Dev nD) (t : Fin cfg0.N) :
    (iblk m c 3 t : Vec Ideal S288x64 .bf16) = (m ((c : Thread nD τ).loc main_arg2) : S288x64.Idx → EReal) := by
  obtain ⟨h0, h1⟩ := idx_w3 t
  funext y
  unfold iblk
  rw [View.read_apply]
  show V m c main_v1 _ = _
  rw [V_main_v1]
  congr 1
  funext a
  apply Fin.ext
  match a with
  | ⟨0, _⟩ => show win0_3.index t (0 : Fin 2) * 288 + 1 * (y 0).val = (y 0).val; rw [h0]; omega
  | ⟨1, _⟩ => show win0_3.index t (1 : Fin 2) * 64 + 1 * (y 1).val = (y 1).val; rw [h1]; omega

/-- Window 4's block is the whole of `main_arg3` at every point. -/
theorem iblk_w4 (c : Dev nD) (t : Fin cfg0.N) :
    (iblk m c 4 t : Vec Ideal S1x64 .f32) = (m ((c : Thread nD τ).loc main_arg3) : S1x64.Idx → EReal) := by
  obtain ⟨h0, h1⟩ := idx_w4 t
  funext y
  unfold iblk
  rw [View.read_apply]
  show V m c main_arg3 _ = _
  rw [V_main_arg3]
  congr 1
  funext a
  apply Fin.ext
  match a with
  | ⟨0, _⟩ => show win0_4.index t (0 : Fin 2) * 1 + 1 * (y 0).val = (y 0).val; rw [h0]; omega
  | ⟨1, _⟩ => show win0_4.index t (1 : Fin 2) * 64 + 1 * (y 1).val = (y 1).val; rw [h1]; omega

/-- Window 5's block is the whole of `main_arg4` at every point. -/
theorem iblk_w5 (c : Dev nD) (t : Fin cfg0.N) :
    (iblk m c 5 t : Vec Ideal S9216x128 .bf16) = (m ((c : Thread nD τ).loc main_arg4) : S9216x128.Idx → EReal) := by
  obtain ⟨h0, h1⟩ := idx_w5 t
  funext y
  unfold iblk
  rw [View.read_apply]
  show V m c main_v2 _ = _
  rw [V_main_v2]
  congr 1
  funext a
  apply Fin.ext
  match a with
  | ⟨0, _⟩ => show win0_5.index t (0 : Fin 2) * 9216 + 1 * (y 0).val = (y 0).val; rw [h0]; omega
  | ⟨1, _⟩ => show win0_5.index t (1 : Fin 2) * 128 + 1 * (y 1).val = (y 1).val; rw [h1]; omega

/-- Window 6's block is the whole of `main_arg5` at every point. -/
theorem iblk_w6 (c : Dev nD) (t : Fin cfg0.N) :
    (iblk m c 6 t : Vec Ideal S1x128 .f32) = (m ((c : Thread nD τ).loc main_arg5) : S1x128.Idx → EReal) := by
  obtain ⟨h0, h1⟩ := idx_w6 t
  funext y
  unfold iblk
  rw [View.read_apply]
  show V m c main_arg5 _ = _
  rw [V_main_arg5]
  congr 1
  funext a
  apply Fin.ext
  match a with
  | ⟨0, _⟩ => show win0_6.index t (0 : Fin 2) * 1 + 1 * (y 0).val = (y 0).val; rw [h0]; omega
  | ⟨1, _⟩ => show win0_6.index t (1 : Fin 2) * 128 + 1 * (y 1).val = (y 1).val; rw [h1]; omega

/-- Window 7's block is the whole of `main_arg6` at every point. -/
theorem iblk_w7 (c : Dev nD) (t : Fin cfg0.N) :
    (iblk m c 7 t : Vec Ideal S128x10 .bf16) = (m ((c : Thread nD τ).loc main_arg6) : S128x10.Idx → EReal) := by
  obtain ⟨h0, h1⟩ := idx_w7 t
  funext y
  unfold iblk
  rw [View.read_apply]
  show V m c main_v3 _ = _
  rw [V_main_v3]
  congr 1
  funext a
  apply Fin.ext
  match a with
  | ⟨0, _⟩ => show win0_7.index t (0 : Fin 2) * 128 + 1 * (y 0).val = (y 0).val; rw [h0]; omega
  | ⟨1, _⟩ => show win0_7.index t (1 : Fin 2) * 10 + 1 * (y 1).val = (y 1).val; rw [h1]; omega

/-- Window 8's block is the whole of `main_arg7` at every point. -/
theorem iblk_w8 (c : Dev nD) (t : Fin cfg0.N) :
    (iblk m c 8 t : Vec Ideal S1x10 .f32) = (m ((c : Thread nD τ).loc main_arg7) : S1x10.Idx → EReal) := by
  obtain ⟨h0, h1⟩ := idx_w8 t
  funext y
  unfold iblk
  rw [View.read_apply]
  show V m c main_arg7 _ = _
  rw [V_main_arg7]
  congr 1
  funext a
  apply Fin.ext
  match a with
  | ⟨0, _⟩ => show win0_8.index t (0 : Fin 2) * 1 + 1 * (y 0).val = (y 0).val; rw [h0]; omega
  | ⟨1, _⟩ => show win0_8.index t (1 : Fin 2) * 10 + 1 * (y 1).val = (y 1).val; rw [h1]; omega

end Cert.KernelIdeal.NetValue

end
-- ==== Proof.KernelRun.lean ====
import proofs.«158827_g2000604799650332_pallasbulk_197_4_alg».proof.Proof.Gen.KernelIdeal.Frame
import proofs.«158827_g2000604799650332_pallasbulk_197_4_alg».proof.Proof.Gen.KernelIdeal.Value
import proofs.«158827_g2000604799650332_pallasbulk_197_4_alg».proof.Proof.Net
import proofs.«158827_g2000604799650332_pallasbulk_197_4_alg».proof.Proof.KernelBlock
import proofs.«158827_g2000604799650332_pallasbulk_197_4_alg».proof.Proof.KernelArrays
import Idealize.ShloMosaic.Lib.Pipeline.Value

/-!
# The kernel's result array is the network's result

Point `t` writes back eight rows of the result: the network's values for images `8t, …, 8t + 7`.  The 1024 points' blocks
cover the 8192 rows (row `r` lies in the block of point `r / 8`), so after the run the result array is the network's
result as one function of the nine argument arrays, and the arguments are unchanged.
-/

noncomputable section

open Idealize.ShloMosaic Idealize.ShloMosaic.TcCoe Idealize.SL.Sem
open Idealize.ShloMosaic.Pipeline (Dat)

namespace Cert.KernelIdeal.NetValue

open Cert.KernelIdeal Cert.KernelIdeal.Gen Cert.KernelIdeal.Value Idealize.ShloMosaic.ValueIdx

variable (m : (ℓ : Loc nD τ sig) → Buf (Elt Ideal) ℓ) (ρ : Dev nD → PrngReg)

/-- The network's result from core `c`'s argument arrays. -/
abbrev result (c : Dev nD) : S8192x10.Idx → EReal :=
  Net.outK (Net.nhwc (m ((c : Thread nD τ).loc main_arg8) : S8192x1x28x28.Idx → EReal))
    (m ((c : Thread nD τ).loc main_arg0) : S9x32.Idx → EReal)
    (m ((c : Thread nD τ).loc main_arg1) : S1x32.Idx → EReal)
    (m ((c : Thread nD τ).loc main_arg2) : S288x64.Idx → EReal)
    (m ((c : Thread nD τ).loc main_arg3) : S1x64.Idx → EReal)
    (m ((c : Thread nD τ).loc main_arg4) : S9216x128.Idx → EReal)
    (m ((c : Thread nD τ).loc main_arg5) : S1x128.Idx → EReal)
    (m ((c : Thread nD τ).loc main_arg6) : S128x10.Idx → EReal)
    (m ((c : Thread nD τ).loc main_arg7) : S1x10.Idx → EReal)

/-- A block of eight rows that agrees entry by entry with rows `n0, …, n0 + 7` of an array, read at an index of the block
    and at the array index with the row moved by `n0`. -/
theorem rows_read (X : Vec Ideal S8x10 .f32) (A : S8192x10.Idx → EReal) (n0 : ℕ) (hn0 : n0 + 8 ≤ 8192)
    (h : ∀ (b : Fin 8) (o : Fin 10), X (ix2 b o) = A (ix2 (⟨n0 + b.val, by omega⟩ : Fin 8192) o))
    (y : S8x10.Idx) (k : S8192x10.Idx) (h0 : (k 0).val = n0 + (y 0).val) (h1 : (k 1).val = (y 1).val) : X y = A k := by
  have e1 : y = ix2 (y 0) (y 1) := eq_ix2 y
  have e2 : k = ix2 (⟨n0 + (y 0).val, by have h8 : (y 0).val < 8 := (y 0).isLt; omega⟩ : Fin 8192) (y 1) := funext fun a => Fin.ext (by
    match a with
    | ⟨0, _⟩ => exact h0
    | ⟨1, _⟩ => exact h1)
  exact (congrArg X e1).trans ((h (y 0) (y 1)).trans (congrArg A e2.symm))

/-- What point `t` writes back is block `t` of the network's result. -/
theorem flushed_eq (c : Dev nD) (t : Fin cfg0.N) :
    (dats m 0 c).flushed 9 t = ((cfg0.win 9).blk t).view.read (Elt Ideal) (result m c) := by
  have hN : t.val < 1024 := by have h := t.isLt; have e : cfg0.N = 1024 := N_0; omega
  obtain ⟨h0, h1⟩ := idx_out t
  rw [Value.flushed9, iblk_w1 m c t, iblk_w2 m c t, iblk_w3 m c t, iblk_w4 m c t, iblk_w5 m c t, iblk_w6 m c t, iblk_w7 m c t,
    iblk_w8 m c t, out0_9_eq]
  funext y
  show outBlk (iblk m c 0 t) _ _ _ _ _ _ _ _ y = result m c (((cfg0.win 9).blk t).view.emb y)
  refine rows_read _ (result m c) (8 * t.val) (by omega) (fun b o => ?_) y _ ?_ ?_
  · exact outBlk_apply (Net.nhwc (m ((c : Thread nD τ).loc main_arg8) : S8192x1x28x28.Idx → EReal)) (iblk m c 0 t) _ _ _ _ _ _ _ _ (8 * t.val)
      (by omega) (fun b i j => iblk_images_apply m c t b i j) b o
  · show win0_9.index t (0 : Fin 2) * 8 + 1 * (y 0).val = 8 * t.val + (y 0).val
    rw [h0]; omega
  · show win0_9.index t (1 : Fin 2) * 10 + 1 * (y 1).val = (y 1).val
    rw [h1]; omega

/-- An index of the result array is in point `t`'s block iff each coordinate is in the block's range on its axis. -/
theorem mem_blk (t : Fin cfg0.N) (i : S8192x10.Idx) :
    i ∈ ((cfg0.win 9).blk t).view.set
      ↔ ∀ a : Fin 2, win0_9.index t a * S8x10.size a ≤ (i a).val ∧ (i a).val < win0_9.index t a * S8x10.size a + S8x10.size a := by
  show i ∈ ((View.whole main_v4).slice (win0_9.rect t)).set ↔ _
  rw [View.set_slice_whole, Rect.mem_set_unit]
  exact Iff.rfl

/-- Row `r` of the result array lies in the block of point `r / 8`. -/
theorem covered (i : S8192x10.Idx) :
    ∃ t : Fin cfg0.N, (cfg0.win 9).flush t = true ∧ i ∈ ((cfg0.win 9).blk t).view.set := by
  have hi0 : (i 0).val < 8192 := (i 0).isLt
  have hi1 : (i 1).val < 10 := (i 1).isLt
  have hlt : (i 0).val / 8 < cfg0.N := by have e : cfg0.N = 1024 := N_0; omega
  obtain ⟨h0, h1⟩ := idx_out ⟨(i 0).val / 8, hlt⟩
  refine ⟨⟨(i 0).val / 8, hlt⟩, flush0_9 _, ?_⟩
  rw [mem_blk]
  intro a
  match a with
  | ⟨0, _⟩ =>
    show win0_9.index ⟨(i 0).val / 8, hlt⟩ (0 : Fin 2) * 8 ≤ (i 0).val
      ∧ (i 0).val < win0_9.index ⟨(i 0).val / 8, hlt⟩ (0 : Fin 2) * 8 + 8
    rw [h0]; show (i 0).val / 8 * 8 ≤ (i 0).val ∧ (i 0).val < (i 0).val / 8 * 8 + 8; omega
  | ⟨1, _⟩ =>
    show win0_9.index ⟨(i 0).val / 8, hlt⟩ (1 : Fin 2) * 10 ≤ (i 1).val
      ∧ (i 1).val < win0_9.index ⟨(i 0).val / 8, hlt⟩ (1 : Fin 2) * 10 + 10
    rw [h1]; omega

/-- After the run the result array holds the network's result. -/
theorem final (c : Dev nD) : (dats m 0 c).arrAt 9 cfg0.N = result m c :=
  (dats m 0 c).arrAt_eq_of_cover 9 (result m c) (fun t _ => flushed_eq m c t) (fun i => covered i)

/-- The kernel's run: the result array at the network's result of the argument arrays, the arguments unchanged. -/
theorem run : θ_run (defs (F := Ideal)) (onTc (τ := τ) (main (F := Ideal))) ⟨m, fun _ => 0, ρ⟩ fun r => ∀ c : Dev nD,
      r.2.mem ((c : Thread nD τ).loc main_v4) = Cert.Net.outK (Cert.Net.nhwc (m ((c : Thread nD τ).loc main_arg8)))
        (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.NetValue

end
-- ==== Proof.RefConv.lean ====
/-
  The convolution block of the reference network (its first pipelined call: a 3×3 convolution 1→32 with ReLU,
  a 3×3 convolution 32→64 written as one matrix product over gathered patches, and a 2×2 max-pool), taken at
  ARBITRARY contents `V` of the core's buffers when the call is entered.

  For every grid point the call stages five input blocks (four images, the first layer's nine filter rows and
  bias, the second layer's weight matrix and bias) and one output block (four pooled 12×12×64 maps). The body
  reads the image block through nine shifted 26×26 rectangles, one per filter tap, reads each filter row, both
  biases and the weight matrix, and writes the whole output block once. So after the body every input block is
  as it was, and the output block is ONE function `out0_5` of the five input blocks — whatever the output block
  held before (the body also reads it once, and drops what it read). Nothing outside the staged blocks is
  touched, which is the invariant carried from point to point.
-/
import proofs.«158827_g2000604799650332_pallasbulk_197_4_alg».proof.Proof.Gen.ReferenceIdeal.Launch
import proofs.«158827_g2000604799650332_pallasbulk_197_4_alg».proof.Proof.Gen.ReferenceIdeal.Skeleton
import proofs.«158827_g2000604799650332_pallasbulk_197_4_alg».proof.Proof.Gen.ReferenceIdeal.Points
import Idealize.ShloMosaic.Lib.Pipeline.FrameBody
import Idealize.ShloMosaic.Lib.Pipeline.Value
import Idealize.ShloMosaic.Lib.Ring
import Idealize.ShloMosaic.Lib.Tactic

-- that one rectangle of the output block's own extents tiles the block is checked by a computation over every coordinate of its long axes
set_option maxRecDepth 16384

noncomputable section

namespace Cert.ReferenceIdeal.Conv

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the call is entered
variable (V : (c : Dev nD) → (b : Ref sig .tc) → Buf (Elt F) ((c : Thread nD τ).loc b))

/-! ## The blocks the call stages -/

/-- Block `t` of window `w`: the window's array, as found on entry, read through the rectangle the grid point selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes through -/

/-- The 26×26 window of the four 28×28 images shifted down by `dy` and right by `dx`: the pixels filter tap
    `(dy, dx)` multiplies. -/
abbrev patch00 : Rect S4x28x28x1 := Rect.unit (s := S4x28x28x1) ![0, 0, 0, 0] S4x26x26x1.size inb_S4x28x28x1_S4x26x26x1_0_0_0_0
abbrev patch01 : Rect S4x28x28x1 := Rect.unit (s := S4x28x28x1) ![0, 0, 1, 0] S4x26x26x1.size inb_S4x28x28x1_S4x26x26x1_0_0_1_0
abbrev patch02 : Rect S4x28x28x1 := Rect.unit (s := S4x28x28x1) ![0, 0, 2, 0] S4x26x26x1.size inb_S4x28x28x1_S4x26x26x1_0_0_2_0
abbrev patch10 : Rect S4x28x28x1 := Rect.unit (s := S4x28x28x1) ![0, 1, 0, 0] S4x26x26x1.size inb_S4x28x28x1_S4x26x26x1_0_1_0_0
abbrev patch11 : Rect S4x28x28x1 := Rect.unit (s := S4x28x28x1) ![0, 1, 1, 0] S4x26x26x1.size inb_S4x28x28x1_S4x26x26x1_0_1_1_0
abbrev patch12 : Rect S4x28x28x1 := Rect.unit (s := S4x28x28x1) ![0, 1, 2, 0] S4x26x26x1.size inb_S4x28x28x1_S4x26x26x1_0_1_2_0
abbrev patch20 : Rect S4x28x28x1 := Rect.unit (s := S4x28x28x1) ![0, 2, 0, 0] S4x26x26x1.size inb_S4x28x28x1_S4x26x26x1_0_2_0_0
abbrev patch21 : Rect S4x28x28x1 := Rect.unit (s := S4x28x28x1) ![0, 2, 1, 0] S4x26x26x1.size inb_S4x28x28x1_S4x26x26x1_0_2_1_0
abbrev patch22 : Rect S4x28x28x1 := Rect.unit (s := S4x28x28x1) ![0, 2, 2, 0] S4x26x26x1.size inb_S4x28x28x1_S4x26x26x1_0_2_2_0

/-- Row `3·dy + dx` of the first layer's 9×32 filter matrix: the 32 output channels' weights of tap `(dy, dx)`. -/
abbrev tap0 : Rect S9x32 := Rect.unit (s := S9x32) ![0, 0] S1x32.size inb_S9x32_S1x32_0_0
abbrev tap1 : Rect S9x32 := Rect.unit (s := S9x32) ![1, 0] S1x32.size inb_S9x32_S1x32_1_0
abbrev tap2 : Rect S9x32 := Rect.unit (s := S9x32) ![2, 0] S1x32.size inb_S9x32_S1x32_2_0
abbrev tap3 : Rect S9x32 := Rect.unit (s := S9x32) ![3, 0] S1x32.size inb_S9x32_S1x32_3_0
abbrev tap4 : Rect S9x32 := Rect.unit (s := S9x32) ![4, 0] S1x32.size inb_S9x32_S1x32_4_0
abbrev tap5 : Rect S9x32 := Rect.unit (s := S9x32) ![5, 0] S1x32.size inb_S9x32_S1x32_5_0
abbrev tap6 : Rect S9x32 := Rect.unit (s := S9x32) ![6, 0] S1x32.size inb_S9x32_S1x32_6_0
abbrev tap7 : Rect S9x32 := Rect.unit (s := S9x32) ![7, 0] S1x32.size inb_S9x32_S1x32_7_0
abbrev tap8 : Rect S9x32 := Rect.unit (s := S9x32) ![8, 0] S1x32.size inb_S9x32_S1x32_8_0

/-- The whole of the first bias, of the second layer's weight matrix, of the second bias, and of the output block. -/
abbrev allBias1 : Rect S1x32 := Rect.unit (s := S1x32) ![0, 0] S1x32.size inb_S1x32_S1x32_0_0
abbrev allW2 : Rect S288x64 := Rect.unit (s := S288x64) ![0, 0] S288x64.size inb_S288x64_S288x64_0_0
abbrev allBias2 : Rect S1x64 := Rect.unit (s := S1x64) ![0, 0] S1x64.size inb_S1x64_S1x64_0_0
abbrev allOut : Rect S4x12x12x64 := Rect.unit (s := S4x12x12x64) ![0, 0, 0, 0] S4x12x12x64.size inb_S4x12x12x64_S4x12x12x64_0_0_0_0

theorem zero2 : (![0, 0] : Fin 2 → Nat) = fun _ => 0 := funext fun a => by fin_cases a <;> rfl
theorem zero4 : (![0, 0, 0, 0] : Fin 4 → Nat) = fun _ => 0 := funext fun a => by fin_cases a <;> rfl

/-! ## What the body leaves in the output block -/

/-- The pooled maps as a function of the five input blocks: the first eight taps' products summed four and four
    (`k0_pay2`, then `k0_pay3` on top of it), the ninth tap's pixels (`k0_pay4`), and the rest of the network
    block — ninth product, bias, ReLU, patch gathering, matrix product, bias, the two pooling maxima — in `k0_pay1`. -/
def convPooled (x0 : Vec F S4x28x28x1 .f32) (x1 : Vec F S9x32 .f32) (x2 : Vec F S1x32 .f32) (x3 : Vec F S288x64 .f32) (x4 : Vec F S1x64 .f32) :
    FVec F S4x12x12x64 .f32 :=
  k0_pay1
    (k0_pay3
      (k0_pay2 (View.ld x0 patch00) (View.ld x1 tap0) (View.ld x0 patch01) (View.ld x1 tap1)
        (View.ld x0 patch02) (View.ld x1 tap2) (View.ld x0 patch10) (View.ld x1 tap3))
      (View.ld x0 patch11) (View.ld x1 tap4) (View.ld x0 patch12) (View.ld x1 tap5)
      (View.ld x0 patch20) (View.ld x1 tap6) (View.ld x0 patch21) (View.ld x1 tap7))
    (k0_pay4 (View.ld x0 patch22)) (View.ld x1 tap8) (View.ld x2 allBias1) (View.ld x3 allW2) (View.ld x4 allBias2)

/-- The output block after the body: its one store, through the whole block, of the pooled maps. -/
def out0_5 (x0 : Vec F S4x28x28x1 .f32) (x1 : Vec F S9x32 .f32) (x2 : Vec F S1x32 .f32) (x3 : Vec F S288x64 .f32) (x4 : Vec F S1x64 .f32) :
    Vec F S4x12x12x64 .f32 :=
  View.canon [⟨allOut, convPooled x0 x1 x2 x3 x4⟩]

/-- One rectangle of the block's own extents at the origin tiles the block, so every index lies under the store. -/
theorem allOut_covers (p : Vec F S4x12x12x64 .f32) (y : S4x12x12x64.Idx) :
    ∃ pc ∈ ([⟨allOut, p⟩] : List (View.Piece (Elt F) S4x12x12x64 .f32)), y ∈ pc.1.set :=
  View.cover_of_tiled [⟨allOut, p⟩] S4x12x12x64.size (by rfl) y

/-- The same block without the piece list: a store through the whole block leaves exactly its payload, and a read
    through a whole buffer is the buffer, so the two biases and the weight matrix enter as they are. -/
theorem out0_5_eq (x0 : Vec F S4x28x28x1 .f32) (x1 : Vec F S9x32 .f32) (x2 : Vec F S1x32 .f32) (x3 : Vec F S288x64 .f32) (x4 : Vec F S1x64 .f32) :
    out0_5 x0 x1 x2 x3 x4 =
      k0_pay1
        (k0_pay3
          (k0_pay2 (View.ld x0 patch00) (View.ld x1 tap0) (View.ld x0 patch01) (View.ld x1 tap1)
            (View.ld x0 patch02) (View.ld x1 tap2) (View.ld x0 patch10) (View.ld x1 tap3))
          (View.ld x0 patch11) (View.ld x1 tap4) (View.ld x0 patch12) (View.ld x1 tap5)
          (View.ld x0 patch20) (View.ld x1 tap6) (View.ld x0 patch21) (View.ld x1 tap7))
        (k0_pay4 (View.ld x0 patch22)) (View.ld x1 tap8) x2 x3 x4 := by
  unfold out0_5 convPooled
  rw [View.canon_unit_zero zero4, View.ld_unit_zero (S := S1x32) zero2, View.ld_unit_zero (S := S288x64) zero2,
    View.ld_unit_zero (S := S1x64) zero2]

/-! ## The body's triple -/

set_option maxHeartbeats 1000000 in
/-- The body on whole staging buffers: the five inputs held at contents `x0 … x4`, the output block held at anything.
    It runs without fault to a state holding the inputs unchanged and the output block at `out0_5 x0 … x4`.
    Every access is a load or a store through a literal rectangle of a buffer the core holds in full, so the run is
    a step-by-step run of the body's statements — its two sub-functions inlined — and the only thing left to argue
    is that the single store, lying over the whole block, determines the block's contents. -/
theorem conv_block_triple (c : Dev nD) (E : Set ℕ) (i : grid0.Coords)
    (arg1 : Memref sig .tc .vmem S4x28x28x1 .f32) (harg1 : arg1.IsWhole) (arg2 : Memref sig .tc .vmem S9x32 .f32) (harg2 : arg2.IsWhole)
    (arg3 : Memref sig .tc .vmem S1x32 .f32) (harg3 : arg3.IsWhole) (arg4 : Memref sig .tc .vmem S288x64 .f32) (harg4 : arg4.IsWhole)
    (arg5 : Memref sig .tc .vmem S1x64 .f32) (harg5 : arg5.IsWhole) (arg6 : Memref sig .tc .vmem S4x12x12x64 .f32) (harg6 : arg6.IsWhole)
    (x0 : Vec F S4x28x28x1 .f32) (x1 : Vec F S9x32 .f32) (x2 : Vec F S1x32 .f32) (x3 : Vec F S288x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__conv_block_kernel i arg1 harg1 arg2 harg2 arg3 harg3 arg4 harg4 arg5 harg5 arg6 harg6) K := by
  simp only [cc0__conv_block_kernel_eq_skeleton]; unfold cc0__conv_block_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (allOut_covers _)

/-! ## The pipeline's proof data -/

/-- On core `c`: the six arrays as found on entry; after the body at point `t` each input's staging buffer still at
    its block and the output's at `out0_5` of the five input blocks; between points nothing but "the rest of the
    core is untouched"; every staging buffer held in full; no transfer left owing. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The arrays of the proof data are the entry contents (a projection of the definition). -/
theorem A_eq0 (c : Dev nD) (w : Fin cfg0.W) : (dat0 V c).A w = V c (Pipeline.arrRef spec0 w) := by
  dsimp only [dat0]

/-- What the body leaves, window by window (the definition's case split reduced at each literal window). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

/-! ## What the body finds in the input buffers

An input's current staging buffer holds the window's block at EVERY point: where the pipeline fetched it, by the
fetch; where it did not (the filters, biases and weights are fetched at the first point only), because the block
index has not moved since the last fetch and the body left the buffer as it found it. No window is clipped and none
is ever idle. -/

theorem found0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem found0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem found0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem found0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem found0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-! ## The per-point obligation -/

/-- What the body is started with at point `t`: the invariant, the transfers owing, and each window's current staging
    buffer held in full at what the pipeline left in it. -/
def atEntry (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it must end with: the same invariant and debts one point on, each buffer at what the proof data says the
    body leaves. -/
def atExit (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold the blocks (`found0_w`), so the triple applies at those blocks;
    the invariant and the debts do not depend on the point and pass through unread. -/
theorem body_at_point (c : Dev nD) (t : Fin cfg0.N) :
    atEntry V c t ⊢ wp frame (wpE (defs₀ (F := F)) Variants.none c none) Set.univ (bodyAt0 t) (fun _ => atExit V c t) := by
  unfold atEntry atExit bodyAt0
  simp only [found0_0, found0_1, found0_2, found0_3, found0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (conv_block_triple c Set.univ (grid0.coords t) _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline theorem's obligation on the body, at every point: its conjunction over the six windows written
    out is `atEntry` / `atExit`. -/
theorem body_obligation0 (c : Dev nD) : BodyObligation (dat0 (F := F) V c) (defs₀ (F := F)) Variants.none () Set.univ := fun t => by
  rw [bigSep_W0, bigSep_W0]
  exact body_at_point V c t

end Cert.ReferenceIdeal.Conv

end
-- ==== Proof.RefFcRuns.lean ====
import proofs.«158827_g2000604799650332_pallasbulk_197_4_alg».proof.Proof.Gen.ReferenceIdeal.Launch
import proofs.«158827_g2000604799650332_pallasbulk_197_4_alg».proof.Proof.Gen.ReferenceIdeal.Skeleton
import proofs.«158827_g2000604799650332_pallasbulk_197_4_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.Fc

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The fc head (region 1): what its three runs share

The grid is 32 × 4; coordinate 1 (the inner one) walks the four slices of the 9216 contraction rows. At
coordinate 1 = 0 the accumulator is zeroed, at every point it gains the slice's product, at coordinate 1 = 3
the head (bias, ReLU, second layer, log-softmax) is stored. -/

/-! ## The two branch conditions, decided over the grid -/

/-- The first branch (zero the accumulator) is taken: grid coordinate 1 is 0. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (store the head's output) is taken: grid coordinate 1 is 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where coordinate 1 is not 3 nothing is stored into the output window: it is idle there and not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- Where coordinate 1 is 3 the output window is live. -/
theorem liveAt1_5 : ∀ t : Fin cfg1.N, cond1_1 (grid1.coords t) → cfg1.idle 5 (grid1.coords t) = false := by decide +kernel

/-! ## The memrefs the body is run on -/

/-- One staging buffer of the output window, through which its contents are stated. -/
abbrev VO1_5 : View sig .tc .vmem S256x10 .f32 := (Memref.whole cc1_stg5_0 : Memref sig .tc .vmem S256x10 .f32).view
/-- The accumulator: a whole scoped buffer of the kernel's own, carried from point to point. -/
abbrev scM1 : Memref sig .tc .vmem S256x128 .f32 := Memref.whole cc1_scratch0
/-- The accumulator as a view. -/
abbrev VS1 : View sig .tc .vmem S256x128 .f32 := scM1.view

/-- The core's scoped buffers that region 1 does not stage: region 0's staging buffers, each at some contents, and the
    accumulator as `S` has it. -/
def scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S)

/-- The class's invariant with the accumulator as a memref owned at some contents. -/
theorem PhiA1_eq (c : Dev nD) :
    (Pipeline.ΦA spec1 c : sProp 𝕄)
      = iprop(scoped1 c (iprop(∃ d, owns (c : Thread nD τ) scM1 fullShare d)) ∗ (∃ r, prngReg c r)) := by
  unfold Pipeline.ΦA scoped1; rw [scopedRest1_eq]; simp only [scM1, owns_whole]; try rfl

end Cert.ReferenceIdeal.Fc

end
-- ==== Proof.RefFcRunA.lean ====
import proofs.«158827_g2000604799650332_pallasbulk_197_4_alg».proof.Proof.RefFcRuns

set_option maxRecDepth 16384

noncomputable section

namespace Cert.ReferenceIdeal.Fc

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where grid coordinate 1 is 0: the accumulator is zeroed, then gains this slice's product; the output window is left as found. On whole memrefs — the five inputs at their contents, the accumulator at anything,
    the output's buffer at contents handed back untouched — it runs to the continuation with the inputs as they were and the buffers it stored
    into with their stores written, as pieces (last first): the pieces are the witness the run finds. -/
noncomputable def kernelRun1_A (c : Dev nD) (i : grid1.Coords) (arg2 : Memref sig .tc .vmem S256x2304 .f32) (harg2 : arg2.IsWhole) (arg3 : Memref sig .tc .vmem S9216x128 .f32) (harg3 : arg3.IsWhole) (arg4 : Memref sig .tc .vmem S1x128 .f32) (harg4 : arg4.IsWhole) (arg5 : Memref sig .tc .vmem S128x10 .f32) (harg5 : arg5.IsWhole) (arg6 : Memref sig .tc .vmem S1x10 .f32) (harg6 : arg6.IsWhole) (arg7 : Memref sig .tc .vmem S256x10 .f32) (harg7 : arg7.IsWhole) (arg8 : Memref sig .tc .vmem S256x128 .f32) (harg8 : arg8.IsWhole) (hc0 : cond1_0 i) (hc1 : ¬cond1_1 i)
    (x0 : Vec F S256x2304 .f32) (x1 : Vec F S9216x128 .f32) (x2 : Vec F S1x128 .f32) (x3 : Vec F S128x10 .f32) (x4 : Vec F S1x10 .f32) :
    Σ' (L5 : List (View.Piece (Elt F) S256x10 .f32)), { LS0 : List (View.Piece (Elt F) S256x128 .f32) //
      ∀ (xi5 : Vec F S256x10 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__fc_head_kernel i arg2 harg2 arg3 harg3 arg4 harg4 arg5 harg5 arg6 harg6 arg7 harg7 arg8 harg8) K } := by
  refine ⟨[], ?_, fun xi5 E K => ?run⟩
  case run =>
    simp only [cc1__fc_head_kernel_eq_skeleton]; unfold cc1__fc_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.ReferenceIdeal.Fc

end
-- ==== Proof.RefFcRunB.lean ====
import proofs.«158827_g2000604799650332_pallasbulk_197_4_alg».proof.Proof.RefFcRunA

set_option maxRecDepth 16384

noncomputable section

namespace Cert.ReferenceIdeal.Fc

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where grid coordinate 1 is 1 or 2: the accumulator gains this slice's product; the output window is left as found. On whole memrefs — the five inputs at their contents, the accumulator at what the point before left,
    the output's buffer at contents handed back untouched — it runs to the continuation with the inputs as they were and the buffers it stored
    into with their stores written, as pieces (last first): the pieces are the witness the run finds. -/
noncomputable def kernelRun1_B (c : Dev nD) (i : grid1.Coords) (arg2 : Memref sig .tc .vmem S256x2304 .f32) (harg2 : arg2.IsWhole) (arg3 : Memref sig .tc .vmem S9216x128 .f32) (harg3 : arg3.IsWhole) (arg4 : Memref sig .tc .vmem S1x128 .f32) (harg4 : arg4.IsWhole) (arg5 : Memref sig .tc .vmem S128x10 .f32) (harg5 : arg5.IsWhole) (arg6 : Memref sig .tc .vmem S1x10 .f32) (harg6 : arg6.IsWhole) (arg7 : Memref sig .tc .vmem S256x10 .f32) (harg7 : arg7.IsWhole) (arg8 : Memref sig .tc .vmem S256x128 .f32) (harg8 : arg8.IsWhole) (hc0 : ¬cond1_0 i) (hc1 : ¬cond1_1 i)
    (x0 : Vec F S256x2304 .f32) (x1 : Vec F S9216x128 .f32) (x2 : Vec F S1x128 .f32) (x3 : Vec F S128x10 .f32) (x4 : Vec F S1x10 .f32) (xs0 : Vec F S256x128 .f32) :
    Σ' (L5 : List (View.Piece (Elt F) S256x10 .f32)), { LS0 : List (View.Piece (Elt F) S256x128 .f32) //
      ∀ (xi5 : Vec F S256x10 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__fc_head_kernel i arg2 harg2 arg3 harg3 arg4 harg4 arg5 harg5 arg6 harg6 arg7 harg7 arg8 harg8) K } := by
  refine ⟨[], ?_, fun xi5 E K => ?run⟩
  case run =>
    simp only [cc1__fc_head_kernel_eq_skeleton]; unfold cc1__fc_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.ReferenceIdeal.Fc

end
-- ==== Proof.RefFcRunC.lean ====
import proofs.«158827_g2000604799650332_pallasbulk_197_4_alg».proof.Proof.RefFcRunB

set_option maxRecDepth 16384

noncomputable section

namespace Cert.ReferenceIdeal.Fc

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where grid coordinate 1 is 3: the accumulator gains the last slice's product, then the head is computed from it and stored. On whole memrefs — the five inputs at their contents, the accumulator at what the point before left,
    the output's buffer at anything — it runs to the continuation with the inputs as they were and the buffers it stored
    into with their stores written, as pieces (last first): the pieces are the witness the run finds. -/
noncomputable def kernelRun1_C (c : Dev nD) (i : grid1.Coords) (arg2 : Memref sig .tc .vmem S256x2304 .f32) (harg2 : arg2.IsWhole) (arg3 : Memref sig .tc .vmem S9216x128 .f32) (harg3 : arg3.IsWhole) (arg4 : Memref sig .tc .vmem S1x128 .f32) (harg4 : arg4.IsWhole) (arg5 : Memref sig .tc .vmem S128x10 .f32) (harg5 : arg5.IsWhole) (arg6 : Memref sig .tc .vmem S1x10 .f32) (harg6 : arg6.IsWhole) (arg7 : Memref sig .tc .vmem S256x10 .f32) (harg7 : arg7.IsWhole) (arg8 : Memref sig .tc .vmem S256x128 .f32) (harg8 : arg8.IsWhole) (hc0 : ¬cond1_0 i) (hc1 : cond1_1 i)
    (x0 : Vec F S256x2304 .f32) (x1 : Vec F S9216x128 .f32) (x2 : Vec F S1x128 .f32) (x3 : Vec F S128x10 .f32) (x4 : Vec F S1x10 .f32) (xs0 : Vec F S256x128 .f32) :
    Σ' (L5 : List (View.Piece (Elt F) S256x10 .f32)), { LS0 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__fc_head_kernel i arg2 harg2 arg3 harg3 arg4 harg4 arg5 harg5 arg6 harg6 arg7 harg7 arg8 harg8) K } := by
  refine ⟨?_, ?_, fun E K => ?run⟩
  case run =>
    simp only [cc1__fc_head_kernel_eq_skeleton]; unfold cc1__fc_head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.ReferenceIdeal.Fc

end
-- ==== Proof.RefFc.lean ====
import proofs.«158827_g2000604799650332_pallasbulk_197_4_alg».proof.Proof.RefFcRunC
import Idealize.ShloMosaic.Lib.Pipeline.Value

set_option maxRecDepth 16384

noncomputable section

namespace Cert.ReferenceIdeal.Fc

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The fc head (region 1) at the entry contents `V`: what each point leaves, the invariant, the body obligation -/

/-! ## Each case's stores, read back as values -/

theorem off00 : (![0, 0] : Fin 2 → Nat) = fun _ => 0 := funext fun a => by fin_cases a <;> rfl

/-- The 2304 rows of the first layer's weight that the point with coordinates `i` contracts with: rows
    `2304 · i₁ … 2304 · i₁ + 2303`. -/
def wrows (i : grid1.Coords) (x1 : Vec F S9216x128 .f32) : Vec F S2304x128 .f32 :=
  View.ld x1 (Rect.unit (s := S9216x128) (k1_off1 i) S2304x128.size (k1_off1_inb i))

/-- Entry `(r, k)` of those rows is entry `(2304 · i₁ + r, k)` of the weight. -/
theorem wrows_apply (i : grid1.Coords) (x1 : Vec F S9216x128 .f32) (y : S2304x128.Idx) :
    wrows i x1 y = x1 ((Rect.unit (s := S9216x128) (k1_off1 i) S2304x128.size (k1_off1_inb i)).idx y) := rfl

theorem wrows_row (i : grid1.Coords) (y : S2304x128.Idx) :
    (((Rect.unit (s := S9216x128) (k1_off1 i) S2304x128.size (k1_off1_inb i)).idx y) 0).val = 2304 * (i 1).val + (y 0).val := by
  show (k1_off1 i) 0 + 1 * (y 0).val = _
  rw [k1_off1_eq i]
  show 2304 * (i 1).val + 1 * (y 0).val = _
  omega

theorem wrows_col (i : grid1.Coords) (y : S2304x128.Idx) :
    (((Rect.unit (s := S9216x128) (k1_off1 i) S2304x128.size (k1_off1_inb i)).idx y) 1).val = (y 1).val := by
  show (k1_off1 i) 1 + 1 * (y 1).val = _
  rw [k1_off1_eq i]
  show 0 + 1 * (y 1).val = _
  omega

/-- Coordinate 1 = 0: the accumulator ends at the zero block plus this slice's product. -/
theorem runA_acc (c : Dev nD) (i : grid1.Coords) (arg2 : Memref sig .tc .vmem S256x2304 .f32) (harg2 : arg2.IsWhole) (arg3 : Memref sig .tc .vmem S9216x128 .f32) (harg3 : arg3.IsWhole) (arg4 : Memref sig .tc .vmem S1x128 .f32) (harg4 : arg4.IsWhole) (arg5 : Memref sig .tc .vmem S128x10 .f32) (harg5 : arg5.IsWhole) (arg6 : Memref sig .tc .vmem S1x10 .f32) (harg6 : arg6.IsWhole) (arg7 : Memref sig .tc .vmem S256x10 .f32) (harg7 : arg7.IsWhole) (arg8 : Memref sig .tc .vmem S256x128 .f32) (harg8 : arg8.IsWhole) (hc0 : cond1_0 i) (hc1 : ¬cond1_1 i) (x0 : Vec F S256x2304 .f32) (x1 : Vec F S9216x128 .f32) (x2 : Vec F S1x128 .f32) (x3 : Vec F S128x10 .f32) (x4 : Vec F S1x10 .f32) :
    VS1.read (Elt F) (VS1.writes (Elt F) VS1.junk (kernelRun1_A c i arg2 harg2 arg3 harg3 arg4 harg4 arg5 harg5 arg6 harg6 arg7 harg7 arg8 harg8 hc0 hc1 x0 x1 x2 x3 x4).2.1)
      = k1_pay2 (k1_pay1 (F := F)) x0 (wrows i x1) := by
  rw [View.read_writes_eq_canon _ _ _ (View.cover_of_tiledL _ S256x128.size (by sl_kernel_rfl))]
  unfold kernelRun1_A
  dsimp only
  sl_unfold_run_names
  rw [View.canon_cons_unit_zero (S := S256x128) off00, View.readCov_unit_zero (S := S256x128) _ off00]
  simp only [View.readAt_eq_ld, harg2.read_unread, harg3.read_unread, View.ld_unit_zero (S := S256x2304) off00]
  rfl

/-- Coordinate 1 ∈ {1, 2}: the accumulator gains this slice's product. -/
theorem runB_acc (c : Dev nD) (i : grid1.Coords) (arg2 : Memref sig .tc .vmem S256x2304 .f32) (harg2 : arg2.IsWhole) (arg3 : Memref sig .tc .vmem S9216x128 .f32) (harg3 : arg3.IsWhole) (arg4 : Memref sig .tc .vmem S1x128 .f32) (harg4 : arg4.IsWhole) (arg5 : Memref sig .tc .vmem S128x10 .f32) (harg5 : arg5.IsWhole) (arg6 : Memref sig .tc .vmem S1x10 .f32) (harg6 : arg6.IsWhole) (arg7 : Memref sig .tc .vmem S256x10 .f32) (harg7 : arg7.IsWhole) (arg8 : Memref sig .tc .vmem S256x128 .f32) (harg8 : arg8.IsWhole) (hc0 : ¬cond1_0 i) (hc1 : ¬cond1_1 i) (x0 : Vec F S256x2304 .f32) (x1 : Vec F S9216x128 .f32) (x2 : Vec F S1x128 .f32) (x3 : Vec F S128x10 .f32) (x4 : Vec F S1x10 .f32) (xs0 : Vec F S256x128 .f32) :
    VS1.read (Elt F) (VS1.writes (Elt F) VS1.junk (kernelRun1_B c i arg2 harg2 arg3 harg3 arg4 harg4 arg5 harg5 arg6 harg6 arg7 harg7 arg8 harg8 hc0 hc1 x0 x1 x2 x3 x4 xs0).2.1)
      = k1_pay2 xs0 x0 (wrows i x1) := by
  rw [View.read_writes_eq_canon _ _ _ (View.cover_of_tiledL _ S256x128.size (by sl_kernel_rfl))]
  unfold kernelRun1_B
  dsimp only
  sl_unfold_run_names
  rw [View.canon_unit_zero (S := S256x128) off00]
  simp only [View.readAt_eq_ld, harg2.read_unread, harg3.read_unread, harg8.read_unread, View.ld_unit_zero (S := S256x2304) off00, View.ld_unit_zero (S := S256x128) off00]
  rfl

/-- Coordinate 1 = 3: the accumulator gains the last slice's product, -/
theorem runC_acc (c : Dev nD) (i : grid1.Coords) (arg2 : Memref sig .tc .vmem S256x2304 .f32) (harg2 : arg2.IsWhole) (arg3 : Memref sig .tc .vmem S9216x128 .f32) (harg3 : arg3.IsWhole) (arg4 : Memref sig .tc .vmem S1x128 .f32) (harg4 : arg4.IsWhole) (arg5 : Memref sig .tc .vmem S128x10 .f32) (harg5 : arg5.IsWhole) (arg6 : Memref sig .tc .vmem S1x10 .f32) (harg6 : arg6.IsWhole) (arg7 : Memref sig .tc .vmem S256x10 .f32) (harg7 : arg7.IsWhole) (arg8 : Memref sig .tc .vmem S256x128 .f32) (harg8 : arg8.IsWhole) (hc0 : ¬cond1_0 i) (hc1 : cond1_1 i) (x0 : Vec F S256x2304 .f32) (x1 : Vec F S9216x128 .f32) (x2 : Vec F S1x128 .f32) (x3 : Vec F S128x10 .f32) (x4 : Vec F S1x10 .f32) (xs0 : Vec F S256x128 .f32) :
    VS1.read (Elt F) (VS1.writes (Elt F) VS1.junk (kernelRun1_C c i arg2 harg2 arg3 harg3 arg4 harg4 arg5 harg5 arg6 harg6 arg7 harg7 arg8 harg8 hc0 hc1 x0 x1 x2 x3 x4 xs0).2.1)
      = k1_pay2 xs0 x0 (wrows i x1) := by
  rw [View.read_writes_eq_canon _ _ _ (View.cover_of_tiledL _ S256x128.size (by sl_kernel_rfl))]
  unfold kernelRun1_C
  dsimp only
  sl_unfold_run_names
  rw [View.canon_unit_zero (S := S256x128) off00]
  simp only [View.readAt_eq_ld, harg2.read_unread, harg3.read_unread, harg8.read_unread, View.ld_unit_zero (S := S256x2304) off00, View.ld_unit_zero (S := S256x128) off00]
  rfl

/-- and the output's buffer ends at the head of that accumulator: bias, ReLU, second layer, log-softmax. -/
theorem runC_out (c : Dev nD) (i : grid1.Coords) (arg2 : Memref sig .tc .vmem S256x2304 .f32) (harg2 : arg2.IsWhole) (arg3 : Memref sig .tc .vmem S9216x128 .f32) (harg3 : arg3.IsWhole) (arg4 : Memref sig .tc .vmem S1x128 .f32) (harg4 : arg4.IsWhole) (arg5 : Memref sig .tc .vmem S128x10 .f32) (harg5 : arg5.IsWhole) (arg6 : Memref sig .tc .vmem S1x10 .f32) (harg6 : arg6.IsWhole) (arg7 : Memref sig .tc .vmem S256x10 .f32) (harg7 : arg7.IsWhole) (arg8 : Memref sig .tc .vmem S256x128 .f32) (harg8 : arg8.IsWhole) (hc0 : ¬cond1_0 i) (hc1 : cond1_1 i) (x0 : Vec F S256x2304 .f32) (x1 : Vec F S9216x128 .f32) (x2 : Vec F S1x128 .f32) (x3 : Vec F S128x10 .f32) (x4 : Vec F S1x10 .f32) (xs0 : Vec F S256x128 .f32) :
    VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)
      = k1_pay3 (k1_pay2 xs0 x0 (wrows i x1)) x2 x3 x4 := by
  rw [View.read_writes_eq_canon _ _ _ (View.cover_of_tiledL _ S256x10.size (by sl_kernel_rfl))]
  unfold kernelRun1_C
  dsimp only
  sl_unfold_run_names
  rw [View.canon_unit_zero (S := S256x10) off00]
  rw [View.readCov_unit_zero (S := S256x128) _ off00]
  simp only [View.readAt_eq_ld, harg2.read_unread, harg3.read_unread, harg4.read_unread, harg5.read_unread, harg6.read_unread, harg8.read_unread, View.ld_unit_zero (S := S256x2304) off00, View.ld_unit_zero (S := S256x128) off00, View.ld_unit_zero (S := S1x128) off00, View.ld_unit_zero (S := S128x10) off00, View.ld_unit_zero (S := S1x10) off00]
  rfl

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is not fetched its
    block index has not moved), for any proof data over `V`'s array whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not (where it is not fetched its
    block index has not moved), for any proof data over `V`'s array whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not (where it is not fetched its
    block index has not moved), for any proof data over `V`'s array whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not (where it is not fetched its
    block index has not moved), for any proof data over `V`'s array whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not (where it is not fetched its
    block index has not moved), for any proof data over `V`'s array whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The memrefs at a point -/

abbrev ms1_0 (t : Fin cfg1.N) : Memref sig .tc .vmem S256x2304 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S9216x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x10 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x10 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x10 .f32 := win1_5.stage (cfg1.slots t 5)
abbrev hs1_5 (t : Fin cfg1.N) : (ms1_5 t).IsWhole := hstage1_5 ((cfg1.slots t 5).cast nbuf1_5)

/-! ## The three runs at a point of the grid -/

/-- The run at a point with coordinate 1 = 0, on the point's memrefs and blocks. -/
def ptA (c : Dev nD) (t : Fin cfg1.N) (h0 : t.val % 4 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => by have := (hcond1_1 t).mp h; omega) (iblk1 V c 0 t) (iblk1 V c 1 t) (iblk1 V c 2 t) (iblk1 V c 3 t) (iblk1 V c 4 t)
/-- The run at a point with coordinate 1 ∈ {1, 2}, the accumulator at `xs`. -/
def ptB (c : Dev nD) (t : Fin cfg1.N) (h0 : ¬t.val % 4 = 0) (h1 : ¬t.val % 4 = 3) (xs : Vec F S256x128 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs
/-- The run at a point with coordinate 1 = 3, the accumulator at `xs`. -/
def ptC (c : Dev nD) (t : Fin cfg1.N) (h1 : t.val % 4 = 3) (xs : Vec F S256x128 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => by have := (hcond1_0 t).mp h; omega) ((hcond1_1 t).mpr h1) (iblk1 V c 0 t) (iblk1 V c 1 t) (iblk1 V c 2 t) (iblk1 V c 3 t) (iblk1 V c 4 t) xs

/-! ## What each case leaves -/

/-- Each case's stores into the accumulator cover it. -/
theorem scoverA (c : Dev nD) (t : Fin cfg1.N) (h0 : t.val % 4 = 0) (y : S256x128.Idx) : ∃ pc ∈ (ptA V c t h0).2.1, y ∈ pc.1.set :=
  View.cover_of_tiledL (ptA V c t h0).2.1 S256x128.size (by unfold ptA; sl_kernel_rfl) y
theorem scoverB (c : Dev nD) (t : Fin cfg1.N) (h0 : ¬t.val % 4 = 0) (h1 : ¬t.val % 4 = 3) (xs : Vec F S256x128 .f32) (y : S256x128.Idx) : ∃ pc ∈ (ptB V c t h0 h1 xs).2.1, y ∈ pc.1.set :=
  View.cover_of_tiledL (ptB V c t h0 h1 xs).2.1 S256x128.size (by unfold ptB; sl_kernel_rfl) y
theorem scoverC (c : Dev nD) (t : Fin cfg1.N) (h1 : t.val % 4 = 3) (xs : Vec F S256x128 .f32) (y : S256x128.Idx) : ∃ pc ∈ (ptC V c t h1 xs).2.1, y ∈ pc.1.set :=
  View.cover_of_tiledL (ptC V c t h1 xs).2.1 S256x128.size (by unfold ptC; sl_kernel_rfl) y
/-- At coordinate 1 = 3 the one store into the output's buffer covers it. -/
theorem coverC (c : Dev nD) (t : Fin cfg1.N) (h1 : t.val % 4 = 3) (xs : Vec F S256x128 .f32) (y : S256x10.Idx) : ∃ pc ∈ (ptC V c t h1 xs).1, y ∈ pc.1.set :=
  View.cover_of_tiledL (ptC V c t h1 xs).1 S256x10.size (by unfold ptC; sl_kernel_rfl) y

/-- The accumulator after each case: its pieces read back. -/
def accA (c : Dev nD) (t : Fin cfg1.N) (h0 : t.val % 4 = 0) : Vec F S256x128 .f32 :=
  VS1.read (Elt F) (VS1.writes (Elt F) VS1.junk (ptA V c t h0).2.1)
def accB (c : Dev nD) (t : Fin cfg1.N) (h0 : ¬t.val % 4 = 0) (h1 : ¬t.val % 4 = 3) (xs : Vec F S256x128 .f32) : Vec F S256x128 .f32 :=
  VS1.read (Elt F) (VS1.writes (Elt F) VS1.junk (ptB V c t h0 h1 xs).2.1)
def accC (c : Dev nD) (t : Fin cfg1.N) (h1 : t.val % 4 = 3) (xs : Vec F S256x128 .f32) : Vec F S256x128 .f32 :=
  VS1.read (Elt F) (VS1.writes (Elt F) VS1.junk (ptC V c t h1 xs).2.1)
/-- The output's staging buffer after each case. Where coordinate 1 is not 3 nothing is stored: a placeholder nothing
    consults, the window being neither written back there nor read at the next point. -/
def outA (c : Dev nD) (t : Fin cfg1.N) (h0 : t.val % 4 = 0) : Vec F S256x10 .f32 :=
  VO1_5.read (Elt F) (VO1_5.writes (Elt F) VO1_5.junk (ptA V c t h0).1)
def outB (c : Dev nD) (t : Fin cfg1.N) (h0 : ¬t.val % 4 = 0) (h1 : ¬t.val % 4 = 3) (xs : Vec F S256x128 .f32) : Vec F S256x10 .f32 :=
  VO1_5.read (Elt F) (VO1_5.writes (Elt F) VO1_5.junk (ptB V c t h0 h1 xs).1)
def outC (c : Dev nD) (t : Fin cfg1.N) (h1 : t.val % 4 = 3) (xs : Vec F S256x128 .f32) : Vec F S256x10 .f32 :=
  VO1_5.read (Elt F) (VO1_5.writes (Elt F) VO1_5.junk (ptC V c t h1 xs).1)

/-! ## What the output's buffer and the accumulator hold after each point -/

/-- (the output's staging buffer, the accumulator) after the body at position `n`: the case the position's residue mod 4
    selects, run over what the position before left in the accumulator. -/
def outsAt1 (c : Dev nD) : (n : ℕ) → n < cfg1.N → Vec F S256x10 .f32 × Vec F S256x128 .f32
  | 0, hn => (outA V c ⟨0, hn⟩ (Nat.zero_mod _), accA V c ⟨0, hn⟩ (Nat.zero_mod _))
  | n + 1, hn =>
    if h0 : (n + 1) % 4 = 0 then (outA V c ⟨n + 1, hn⟩ h0, accA V c ⟨n + 1, hn⟩ h0)
    else if h1 : (n + 1) % 4 = 3 then
      (outC V c ⟨n + 1, hn⟩ h1 (outsAt1 c n (Nat.lt_of_succ_lt hn)).2, accC V c ⟨n + 1, hn⟩ h1 (outsAt1 c n (Nat.lt_of_succ_lt hn)).2)
    else
      (outB V c ⟨n + 1, hn⟩ h0 h1 (outsAt1 c n (Nat.lt_of_succ_lt hn)).2, accB V c ⟨n + 1, hn⟩ h0 h1 (outsAt1 c n (Nat.lt_of_succ_lt hn)).2)

/-- The accumulator the point before `t` left. -/
abbrev accBefore (c : Dev nD) (t : Fin cfg1.N) : Vec F S256x128 .f32 :=
  (outsAt1 V c (t.val - 1) (Nat.lt_of_le_of_lt (Nat.sub_le _ _) t.isLt)).2

theorem outsAt1_A (c : Dev nD) (t : Fin cfg1.N) (h0 : t.val % 4 = 0) :
    outsAt1 V c t.val t.isLt = (outA V c t h0, accA V c t h0) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (outB V c t h0 h1 (accBefore V c t), accB V c t h0 h1 (accBefore V c t)) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h1 : t.val % 4 = 3) :
    outsAt1 V c t.val t.isLt = (outC V c t h1 (accBefore V c t), accC V c t h1 (accBefore V c t)) := by
  obtain ⟨n, hn⟩ := t
  cases n with
  | zero => exact (by exfalso; (try dsimp only at h1); omega)
  | succ n => exact (dif_neg (by (try dsimp only at h1); omega)).trans ((dif_pos h1).trans rfl)

/-! ## The same at a point of the grid, and along `outsAt1` -/

theorem snd_of_eq {α β : Type} {p : α × β} {a : α} {b : β} (h : p = (a, b)) : p.2 = b := by rw [h]
theorem fst_of_eq {α β : Type} {p : α × β} {a : α} {b : β} (h : p = (a, b)) : p.1 = a := by rw [h]

theorem accA_eq (c : Dev nD) (t : Fin cfg1.N) (h0 : t.val % 4 = 0) :
    accA V c t h0 = k1_pay2 (k1_pay1 (F := F)) (iblk1 V c 0 t) (wrows (grid1.coords t) (iblk1 V c 1 t)) := by
  unfold accA ptA
  exact runA_acc c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) _ _ (iblk1 V c 0 t) (iblk1 V c 1 t) (iblk1 V c 2 t) (iblk1 V c 3 t) (iblk1 V c 4 t)

theorem accB_eq (c : Dev nD) (t : Fin cfg1.N) (h0 : ¬t.val % 4 = 0) (h1 : ¬t.val % 4 = 3) (xs : Vec F S256x128 .f32) :
    accB V c t h0 h1 xs = k1_pay2 xs (iblk1 V c 0 t) (wrows (grid1.coords t) (iblk1 V c 1 t)) := by
  unfold accB ptB
  exact runB_acc c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) _ _ (iblk1 V c 0 t) (iblk1 V c 1 t) (iblk1 V c 2 t) (iblk1 V c 3 t) (iblk1 V c 4 t) xs

theorem accC_eq (c : Dev nD) (t : Fin cfg1.N) (h1 : t.val % 4 = 3) (xs : Vec F S256x128 .f32) :
    accC V c t h1 xs = k1_pay2 xs (iblk1 V c 0 t) (wrows (grid1.coords t) (iblk1 V c 1 t)) := by
  unfold accC ptC
  exact runC_acc c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) _ _ (iblk1 V c 0 t) (iblk1 V c 1 t) (iblk1 V c 2 t) (iblk1 V c 3 t) (iblk1 V c 4 t) xs

theorem outC_eq (c : Dev nD) (t : Fin cfg1.N) (h1 : t.val % 4 = 3) (xs : Vec F S256x128 .f32) :
    outC V c t h1 xs = k1_pay3 (k1_pay2 xs (iblk1 V c 0 t) (wrows (grid1.coords t) (iblk1 V c 1 t))) (iblk1 V c 2 t) (iblk1 V c 3 t) (iblk1 V c 4 t) := by
  unfold outC ptC
  exact runC_out c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) _ _ (iblk1 V c 0 t) (iblk1 V c 1 t) (iblk1 V c 2 t) (iblk1 V c 3 t) (iblk1 V c 4 t) xs

/-- After a point with coordinate 1 = 0 the accumulator is the zero block plus the point's product: the block of the
    activations times the point's 2304 rows of the first layer's weight. -/
theorem outsAt1_acc_A (c : Dev nD) (t : Fin cfg1.N) (h0 : t.val % 4 = 0) :
    (outsAt1 V c t.val t.isLt).2 = k1_pay2 (k1_pay1 (F := F)) (iblk1 V c 0 t) (wrows (grid1.coords t) (iblk1 V c 1 t)) :=
  (snd_of_eq (outsAt1_A V c t h0)).trans (accA_eq V c t h0)

/-- After any other point it is what the point before left plus the point's product. -/
theorem outsAt1_acc_pos (c : Dev nD) (t : Fin cfg1.N) (h0 : ¬t.val % 4 = 0) :
    (outsAt1 V c t.val t.isLt).2 = k1_pay2 (accBefore V c t) (iblk1 V c 0 t) (wrows (grid1.coords t) (iblk1 V c 1 t)) := by
  by_cases h1 : t.val % 4 = 3
  · exact (snd_of_eq (outsAt1_C V c t h1)).trans (accC_eq V c t h1 (accBefore V c t))
  · exact (snd_of_eq (outsAt1_B V c t h0 h1)).trans (accB_eq V c t h0 h1 (accBefore V c t))

/-- After a point with coordinate 1 = 3 the output's buffer is the head of the accumulator as that point leaves it:
    first-layer bias, ReLU, second layer with its bias, log-softmax along the ten classes. -/
theorem outsAt1_out_C (c : Dev nD) (t : Fin cfg1.N) (h1 : t.val % 4 = 3) :
    (outsAt1 V c t.val t.isLt).1 = k1_pay3 (outsAt1 V c t.val t.isLt).2 (iblk1 V c 2 t) (iblk1 V c 3 t) (iblk1 V c 4 t) := by
  have h0 : ¬t.val % 4 = 0 := by omega
  rw [outsAt1_acc_pos V c t h0]
  exact (fst_of_eq (outsAt1_C V c t h1)).trans (outC_eq V c t h1 (accBefore V c t))

/-! ## The invariant -/

/-- The region invariant before position `n`: before the first point the class's (every scoped buffer at anything);
    afterwards the accumulator at what the point before left in it, region 0's staging buffers at anything, and the
    generator register at some state. -/
def PhiS1 (c : Dev nD) : (n : ℕ) → n ≤ cfg1.N → sProp 𝕄
  | 0, _ => Pipeline.ΦA spec1 c
  | n + 1, hn => iprop(scoped1 c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scoped1 c (owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(scoped1 c (owns (c : Thread nD τ) scM1 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the position's residue mod 4 says which case it is in;
    the invariant hands the body the accumulator at what the point before left (at anything at the first point) and
    takes it back at this point's contents; region 0's staging buffers, the generator register and what the core owes
    pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · have h1 : ¬t.val % 4 = 3 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [Dat.leavesExact_idle (dat1 V c) 5 t (idleAt1_5 t (fun h => h1 ((hcond1_1 t).mp h))) (noFlush1_5 t (fun h => h1 ((hcond1_1 t).mp h)))]
    rw [outsAt1_A V c t h0]
    unfold accA; (try dsimp only)
    by_cases hz : t.val = 0
    · rw [PhiS1_castSucc V c t, PhiS1_zero V c _ _ hz, PhiA1_eq]; unfold scoped1
      iintro ⟨⟨⟨R0, R1, R2, R3, R4, R5, R6, R7, HS0⟩, Hg⟩, Ho, ⟨%d0, H0⟩, ⟨%d1, H1⟩, ⟨%d2, H2⟩, ⟨%d3, H3⟩, ⟨%d4, H4⟩, ⟨%d5, H5⟩⟩
      iapply ((ptA V c t h0).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [R0 R1 R2 R3 R4 R5 R6 R7 HS0 Hg]
      · isplitl [R0 R1 R2 R3 R4 R5 R6 R7 HS0]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          unfold owns; iexists _; isplitr
          swap; · iexact HS0
          ipureintro; exact View.read_writes_of_cover _ _ _ _ _ (scoverA V c t h0)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]; unfold scoped1
      iintro ⟨⟨⟨R0, R1, R2, R3, R4, R5, R6, R7, HS0⟩, Hg⟩, Ho, ⟨%d0, H0⟩, ⟨%d1, H1⟩, ⟨%d2, H2⟩, ⟨%d3, H3⟩, ⟨%d4, H4⟩, ⟨%d5, H5⟩⟩
      iapply ((ptA V c t h0).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [R0 R1 R2 R3 R4 R5 R6 R7 HS0 Hg]
      · isplitl [R0 R1 R2 R3 R4 R5 R6 R7 HS0]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          unfold owns; iexists _; isplitr
          swap; · iexact HS0
          ipureintro; exact View.read_writes_of_cover _ _ _ _ _ (scoverA V c t h0)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by intro e; rw [e] at h0; exact h0 (Nat.zero_mod _)
    by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h1]
      unfold outC accC; (try dsimp only)
      rw [PhiS1_castSucc V c t, PhiS1_pos V c _ _ hz]; unfold scoped1
      iintro ⟨⟨⟨R0, R1, R2, R3, R4, R5, R6, R7, HS0⟩, Hg⟩, Ho, ⟨%d0, H0⟩, ⟨%d1, H1⟩, ⟨%d2, H2⟩, ⟨%d3, H3⟩, ⟨%d4, H4⟩, ⟨%d5, H5⟩⟩
      iapply ((ptC V c t h1 (accBefore V c t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [R0 R1 R2 R3 R4 R5 R6 R7 HS0 Hg]
      · isplitl [R0 R1 R2 R3 R4 R5 R6 R7 HS0]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          unfold owns; iexists _; isplitr
          swap; · iexact HS0
          ipureintro; exact View.read_writes_of_cover _ _ _ _ _ (scoverC V c t h1 (accBefore V c t))
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC V c t h1 (accBefore V c t))
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold accB; (try dsimp only)
      rw [PhiS1_castSucc V c t, PhiS1_pos V c _ _ hz]; unfold scoped1
      iintro ⟨⟨⟨R0, R1, R2, R3, R4, R5, R6, R7, HS0⟩, Hg⟩, Ho, ⟨%d0, H0⟩, ⟨%d1, H1⟩, ⟨%d2, H2⟩, ⟨%d3, H3⟩, ⟨%d4, H4⟩, ⟨%d5, H5⟩⟩
      iapply ((ptB V c t h0 h1 (accBefore V c t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [R0 R1 R2 R3 R4 R5 R6 R7 HS0 Hg]
      · isplitl [R0 R1 R2 R3 R4 R5 R6 R7 HS0]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          unfold owns; iexists _; isplitr
          swap; · iexact HS0
          ipureintro; exact View.read_writes_of_cover _ _ _ _ _ (scoverB V c t h0 h1 (accBefore V c t))
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scoped1
  iintro ⟨⟨R0, R1, R2, R3, R4, R5, R6, R7, HS0⟩, Hg⟩
  isplitl [R0 R1 R2 R3 R4 R5 R6 R7 HS0]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.ReferenceIdeal.Fc

end
-- ==== Proof.RefRun.lean ====
import proofs.«158827_g2000604799650332_pallasbulk_197_4_alg».proof.Proof.RefConv
import proofs.«158827_g2000604799650332_pallasbulk_197_4_alg».proof.Proof.RefFc
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
# The two-kernel program's run, with its result array named

The program re-lays the images, runs the convolution kernel over 2048 grid points, flattens the pooled features, and runs
the dense head over 32 × 4 grid points.  Between its four items every buffer that is not scoped to a kernel holds a known
array: the launch contents, then each re-laying applied, then each kernel's output array at what its write-backs leave
(`Dat.arrAt` of that kernel's proof data at its last point) and everything else unchanged.  Each kernel enters from
"every such buffer at the boundary's contents, the generator register at some state, nothing owed", splits its windows'
arrays out of the buffers, runs its pipeline, and puts the arrays back; the dense head's invariant also carries its
accumulator between grid points, and gives the class invariant back after the last point.  Read at the end: the result
buffer is the dense head's output array after its last point, and the nine arguments are as launched (no re-laying writes
one, and a kernel only reads them).
-/

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Cert.ReferenceIdeal.Conv Cert.ReferenceIdeal.Fc

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What every buffer holds between the items of the program: the launch contents, the images re-laid, the first
    kernel's write-backs, the features flattened, the second kernel's write-backs -/

/-- Core `c`'s buffers at launch. -/
abbrev W0 : Dev nD → Valuation τ sig (Elt F) := fun c b => (s₀ m ρ).mem ((c : Dev nD), b)
/-- After the images are re-laid (the first kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first kernel: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the features are flattened (the second kernel's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second kernel: its arrays at what its write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

/-- Argument `main_arg0` reaches the end as launched: no host line writes it and no region writes it back. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument `main_arg1` reaches the end as launched: no host line writes it and no region writes it back. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Argument `main_arg2` reaches the end as launched: no host line writes it and no region writes it back. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 3).trans (((dat0 (V1 m ρ) c).arrAt_in 3 rfl _).trans (A_eq0 (V1 m ρ) c 3))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Argument `main_arg3` reaches the end as launched: no host line writes it and no region writes it back. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 4).trans (((dat0 (V1 m ρ) c).arrAt_in 4 rfl _).trans (A_eq0 (V1 m ρ) c 4))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Argument `main_arg4` reaches the end as launched: no host line writes it and no region writes it back. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 1).trans (((dat1 (V3 m ρ) c).arrAt_in 1 rfl _).trans (A_eq1 (V3 m ρ) c 1))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Argument `main_arg5` reaches the end as launched: no host line writes it and no region writes it back. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 2).trans (((dat1 (V3 m ρ) c).arrAt_in 2 rfl _).trans (A_eq1 (V3 m ρ) c 2))
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- Argument `main_arg6` reaches the end as launched: no host line writes it and no region writes it back. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 3).trans (((dat1 (V3 m ρ) c).arrAt_in 3 rfl _).trans (A_eq1 (V3 m ρ) c 3))
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- Argument `main_arg7` reaches the end as launched: no host line writes it and no region writes it back. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 4).trans (((dat1 (V3 m ρ) c).arrAt_in 4 rfl _).trans (A_eq1 (V3 m ρ) c 4))
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- Argument `main_arg8` reaches the end as launched: no host line writes it and no region writes it back. -/
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-! ## The arguments as each kernel finds them -/

/-- The first kernel finds `main_arg0` as launched. -/
theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The first kernel finds `main_arg1` as launched. -/
theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The first kernel finds `main_arg2` as launched. -/
theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The first kernel finds `main_arg3` as launched. -/
theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The second kernel finds `main_arg4` as launched. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The second kernel finds `main_arg5` as launched. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The second kernel finds `main_arg6` as launched. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The second kernel finds `main_arg7` as launched. -/
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! ## The proof data of both kernels and the state between items -/

/-- No kernel has a prefetched table. -/
abbrev adm : (p : Fin 2) → (pcfgs (F := F) p).Adm := fun p => (cfgs p).toPCfg_adm
/-- Both kernels' proof data, each at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- Beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two kernels as items of the program -/

-- the kernel's configuration stands behind a definition that fixes its tables; a lemma about it applies only if
-- unification may unfold such definitions inside a type
set_option backward.isDefEq.respectTransparency.types false in
/-- Region 0 over the thread state "every unscoped buffer at the boundary's contents, the generator register at some state,
    nothing owed": its windows' arrays are split out of the buffers at entry and put back, at what the write-backs leave, at
    exit; the generator register goes into the region's invariant and comes back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the kernel's configuration stands behind a definition that fixes its tables; a lemma about it applies only if
-- unification may unfold such definitions inside a type
set_option backward.isDefEq.respectTransparency.types false in
/-- Region 1 over the thread state "every unscoped buffer at the boundary's contents, the generator register at some state,
    nothing owed": its windows' arrays are split out of the buffers at entry and put back, at what the write-backs leave, at
    exit; the generator register goes into the region's invariant and comes back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    unfold Pipeline.ΦA
    isplitl [Hr]; · iexact Hr
    iexact Hp
  hout c := by
    rw [Pipeline.ownSems0_none, show (pdats m ρ 1 c).Φ (Fin.last _) = (dat1 (V3 m ρ) c).Φ (Fin.last cfg1.N) from rfl]
    have hgive : (Pipeline.ΦA spec1 c : sProp 𝕄)
        ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V3 m ρ) c).trans hgive
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four items, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the two-kernel program terminates without a fault; at the end the result array holds
    what the second kernel's write-backs leave (`Dat.arrAt` of its proof data at its last point), and the nine argument
    arrays hold what they were launched with. -/
theorem run : θ_run defs (onTc (τ := τ) (main (F := F))) ⟨m, fun _ => 0, ρ⟩ (fun r => ∀ c : Dev nD,
      r.2.mem ((c.tc : Thread nD τ).loc main_v3) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v3 (by decide))).trans (W4_arr m ρ c 5),
        (h c _ (mem_uc main_arg0 (by decide))).trans (W4_main_arg0 m ρ c),
        (h c _ (mem_uc main_arg1 (by decide))).trans (W4_main_arg1 m ρ c),
        (h c _ (mem_uc main_arg2 (by decide))).trans (W4_main_arg2 m ρ c),
        (h c _ (mem_uc main_arg3 (by decide))).trans (W4_main_arg3 m ρ c),
        (h c _ (mem_uc main_arg4 (by decide))).trans (W4_main_arg4 m ρ c),
        (h c _ (mem_uc main_arg5 (by decide))).trans (W4_main_arg5 m ρ c),
        (h c _ (mem_uc main_arg6 (by decide))).trans (W4_main_arg6 m ρ c),
        (h c _ (mem_uc main_arg7 (by decide))).trans (W4_main_arg7 m ρ c),
        (h c _ (mem_uc main_arg8 (by decide))).trans (W4_main_arg8 m ρ c)⟩)

end Cert.ReferenceIdeal.Run

end
-- ==== Proof.LibDenseRows.lean ====
import Idealize.ShloMosaic.PureOps.Ideal
import Idealize.ShloMosaic.PureOps.Ideal.Laws
import Idealize.ShloMosaic.Lib.ValueIdx
import Idealize.ShloMosaic.Lib.Pipeline.Value

/-!
# Rows of a dense layer, read entry by entry

General facts, at any extents, that a dense layer followed by a row-wise softmax meets:

* `col_cast_apply`: a length-`a` vector re-laid as a column `[a, 1]` has the vector's entry `r` at `(r, 0)`;
* `col_bcast_apply`: a column `[a, 1]` repeated along `b` columns has the column's entry `(r, 0)` at every `(r, c)`;
* `matmul_rows_apply`: the product of an `[a, k]` matrix and a `[k, b]` matrix accumulated into zero is, at `(r, c)`,
  the sum over `u < k` of `L (r, u) · R (u, c)` on the extended reals — for ANY dimension-numbers record whose operand
  indices have those coordinates (for a literal record each of the four facts is `fun _ _ => rfl`);
* `row_max_apply`, `row_sum_apply`: a maximum (from its starting value) and a sum along the columns of an `[a, b]`
  array, at row `r`, as a fold and a sum over the column index.
-/

noncomputable section

open scoped BigOperators

namespace Cert.DenseRows

open Idealize.ShloMosaic Idealize.ShloMosaic.ValueIdx

variable {α : Type}

/-- A vector re-laid as a column: entry `(r, 0)` of the column is entry `r` of the vector. -/
theorem col_cast_apply {a : ℕ} (v : (⟨1, ![a]⟩ : Shape).Idx → α) (h : (⟨1, ![a]⟩ : Shape).ShapeCasts ⟨2, ![a, 1]⟩)
    (r : Fin a) : shapeCast ⟨2, ![a, 1]⟩ v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- A column repeated along the columns: entry `(r, c)` is the column's entry `(r, 0)`. -/
theorem col_bcast_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A matrix product accumulated into zero, at `(r, c)`: the sum over the shared extent of the products of row `r` of the
    left factor and column `c` of the right one. -/
theorem matmul_rows_apply {a k b : ℕ} {φ₁ φ₂ : FTy}
    (D : DotDims ⟨2, ![a, k]⟩ ⟨2, ![k, b]⟩ ⟨2, ![a, b]⟩) (hr : D.contr.rank = 1) (hs : D.contr.size ⟨0, by omega⟩ = k)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (L : FVec Ideal ⟨2, ![a, k]⟩ φ₁) (R : FVec Ideal ⟨2, ![k, b]⟩ φ₂) (r : Fin a) (c : Fin b) :
    FloatOps.matmul D prec L R (constant ⟨2, ![a, b]⟩ .f32 0x00000000#32) (ix2 r c)
      = ∑ u : Fin k, L (ix2 r u) * R (ix2 u c) := by
  rw [Ideal.matmul_constant_zero_apply, ← Equiv.sum_comp (contrEquiv1 D k hr hs).symm]
  refine Finset.sum_congr rfl fun u _ => ?_
  have hL : D.lhsIdx (ix2 r c) ((contrEquiv1 D k hr hs).symm u) = ix2 r u := by
    funext ax
    match ax with
    | ⟨0, _⟩ => exact Fin.ext (hl0 _ _)
    | ⟨1, _⟩ => exact Fin.ext ((hl1 _ _).trans (contrEquiv1_symm_val D k hr hs u))
  have hR : D.rhsIdx (ix2 r c) ((contrEquiv1 D k hr hs).symm u) = ix2 u c := by
    funext ax
    match ax with
    | ⟨0, _⟩ => exact Fin.ext ((hr0 _ _).trans (contrEquiv1_symm_val D k hr hs u))
    | ⟨1, _⟩ => exact Fin.ext (hr1 _ _)
  rw [hL, hR]

/-- The maximum along the columns of an `[a, b]` array at row `r`: the fold of `max` from the starting value over the
    column index. -/
theorem row_max_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (FloatOps.ofBits φ acc) (fun c => src (ix2 r c)) := by
  refine (Ideal.multiReduction_maximumf_single src acc h hφ hacc (ix1 r)).trans ?_
  refine congrArg (fun g => (Finset.univ : Finset (Fin b)).fold max (FloatOps.ofBits φ acc) g) (funext fun c => ?_)
  refine congrArg src (funext fun ax => ?_)
  match ax with
  | ⟨0, _⟩ => rfl
  | ⟨1, _⟩ => rfl

/-- The sum along the columns of an `[a, b]` array at row `r`: the sum over the column index. -/
theorem row_sum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => ?_)
  match ax with
  | ⟨0, _⟩ => rfl
  | ⟨1, _⟩ => rfl

end Cert.DenseRows

end
-- ==== Proof.RefFcPay.lean ====
import proofs.«158827_g2000604799650332_pallasbulk_197_4_alg».proof.Proof.Gen.ReferenceIdeal.Skeleton
import proofs.«158827_g2000604799650332_pallasbulk_197_4_alg».proof.Proof.Net
import proofs.«158827_g2000604799650332_pallasbulk_197_4_alg».proof.Proof.LibDenseRows
import Idealize.ShloMosaic.Lib.ValueLayout

/-!
# The dense head's arithmetic, entry by entry

The second kernel of the two-kernel program keeps a 256×128 accumulator: it is zeroed (`k1_pay1`), a 2304-wide
slab of features times the matching 2304 rows of the first dense layer's weights is added to it (`k1_pay2`), and
after the last slab the bias, ReLU, second dense layer and log-softmax are applied row by row (`k1_pay3`).  Read at
the extended reals, entry by entry: the zero accumulator is `0`; a slab adds `∑ k, x (r, k) · w (k, u)`; and the
head is `Net.head` of the accumulator's row.
-/

noncomputable section

open scoped BigOperators

namespace Cert.ReferenceIdeal.FcPay

open Idealize.ShloMosaic Idealize.ShloMosaic.ValueIdx Cert.ReferenceIdeal Cert.ReferenceIdeal.Gen Cert.DenseRows

/-- The zeroed accumulator is zero everywhere. -/
theorem pay1_apply (i : S256x128.Idx) : k1_pay1 (F := Ideal) i = 0 := by
  unfold k1_pay1
  rw [shapeCast_self]
  exact Ideal.ofBits_zero_f32

/-- One slab: the accumulator's entry plus the slab's row against the weights' column. -/
theorem pay2_apply (acc : FVec Ideal S256x128 .f32) (x : FVec Ideal S256x2304 .f32) (w : FVec Ideal S2304x128 .f32)
    (r : Fin 256) (u : Fin 128) :
    k1_pay2 (F := Ideal) acc x w (ix2 r u) = acc (ix2 r u) + ∑ k : Fin 2304, x (ix2 r k) * w (ix2 k u) := by
  unfold k1_pay2
  rw [shapeCast_self, shapeCast_self]
  show acc (ix2 r u) + _ = _
  refine congrArg (acc (ix2 r u) + ·) ?_
  exact matmul_rows_apply dot_S256x2304_S2304x128_S256x128_1_0_0_1_n_n rfl rfl (fun _ _ => rfl) (fun _ _ => rfl)
    (fun _ _ => rfl) (fun _ _ => rfl) none x w r u

/-- The logits of a block of 256 rows: bias and ReLU on the accumulator, the second dense layer, its bias. -/
def logits (acc : FVec Ideal S256x128 .f32) (b1 : FVec Ideal S1x128 .f32) (w2 : FVec Ideal S128x10 .f32)
    (b2 : FVec Ideal S1x10 .f32) : FVec Ideal S256x10 .f32 :=
  addf (matmul dot_S256x128_S128x10_S256x10_1_0_0_1_n_n none
      (maximumf (addf acc (broadcastTo S256x128 b1 broadcasts_S1x128_S256x128))
        (broadcast S256x128 (Scalar.ofBits (F := Ideal) .f32 0x00000000#32)))
      w2 (constant (F := Ideal) S256x10 .f32 0x00000000#32))
    (broadcastTo S256x10 b2 broadcasts_S1x10_S256x10)

/-- The logits of a row are `Net.logit` of the accumulator's row. -/
theorem logits_apply (acc : FVec Ideal S256x128 .f32) (b1 : FVec Ideal S1x128 .f32) (w2 : FVec Ideal S128x10 .f32)
    (b2 : FVec Ideal S1x10 .f32) (r : Fin 256) (o : Fin 10) :
    logits acc b1 w2 b2 (ix2 r o) = Net.logit b1 w2 b2 (fun u => acc (ix2 r u)) o := by
  unfold logits Net.logit
  show FloatOps.matmul _ none _ w2 _ (ix2 r o) + broadcastTo S256x10 b2 broadcasts_S1x10_S256x10 (ix2 r o) = _
  rw [broadcastTo_1b_ab_apply b2 broadcasts_S1x10_S256x10 r o]
  refine congrArg (· + b2 (ix2 (0 : Fin 1) o)) ?_
  refine (matmul_rows_apply dot_S256x128_S128x10_S256x10_1_0_0_1_n_n rfl rfl (fun _ _ => rfl) (fun _ _ => rfl)
    (fun _ _ => rfl) (fun _ _ => rfl) none _ w2 r o).trans ?_
  refine Finset.sum_congr rfl fun u _ => congrArg (· * w2 (ix2 u o)) ?_
  show max (acc (ix2 r u) + broadcastTo S256x128 b1 broadcasts_S1x128_S256x128 (ix2 r u)) (Ideal.ofBits .f32 0x00000000#32) = _
  rw [broadcastTo_1b_ab_apply b1 broadcasts_S1x128_S256x128 r u, Ideal.ofBits_zero_f32]
  rfl

/-- The logits less their row maximum. -/
def shiftedLogits (acc : FVec Ideal S256x128 .f32) (b1 : FVec Ideal S1x128 .f32) (w2 : FVec Ideal S128x10 .f32)
    (b2 : FVec Ideal S1x10 .f32) : FVec Ideal S256x10 .f32 :=
  subf (logits acc b1 w2 b2)
    (broadcastTo S256x10
      (shapeCast S256x1 (multiReduction .maximumf [1] S256 (logits acc b1 w2 b2) 0xFF800000#32 reduces_S256x10_S256 (.inl rfl) rfl)
        shapeCasts_S256_S256x1)
      broadcasts_S256x1_S256x10)

/-- The shifted logits of a row are `Net.shifted` of the accumulator's row. -/
theorem shiftedLogits_apply (acc : FVec Ideal S256x128 .f32) (b1 : FVec Ideal S1x128 .f32) (w2 : FVec Ideal S128x10 .f32)
    (b2 : FVec Ideal S1x10 .f32) (r : Fin 256) (o : Fin 10) :
    shiftedLogits acc b1 w2 b2 (ix2 r o) = Net.shifted b1 w2 b2 (fun u => acc (ix2 r u)) o := by
  unfold shiftedLogits Net.shifted
  show logits acc b1 w2 b2 (ix2 r o) - broadcastTo S256x10 _ broadcasts_S256x1_S256x10 (ix2 r o) = _
  rw [col_bcast_apply _ broadcasts_S256x1_S256x10 r o, col_cast_apply _ shapeCasts_S256_S256x1 r, logits_apply]
  refine congrArg (Net.logit b1 w2 b2 (fun u => acc (ix2 r u)) o - ·) ?_
  refine (row_max_apply (logits acc b1 w2 b2) 0xFF800000#32 reduces_S256x10_S256 (.inl rfl) rfl r).trans ?_
  refine congrArg (fun g => (Finset.univ : Finset (Fin 10)).fold max Net.NEG g) (funext fun o' => ?_)
  exact logits_apply acc b1 w2 b2 r o'

/-- The head's payload is the shifted logits less the logarithm of the row sums of their exponentials. -/
theorem pay3_eq (acc : FVec Ideal S256x128 .f32) (b1 : FVec Ideal S1x128 .f32) (w2 : FVec Ideal S128x10 .f32)
    (b2 : FVec Ideal S1x10 .f32) :
    k1_pay3 (F := Ideal) acc b1 w2 b2
      = subf (shiftedLogits acc b1 w2 b2)
          (broadcastTo S256x10
            (log (shapeCast S256x1
              (multiReduction .add [1] S256 (exp (shiftedLogits acc b1 w2 b2)) 0x00000000#32 reduces_S256x10_S256 (.inl rfl) rfl)
              shapeCasts_S256_S256x1))
            broadcasts_S256x1_S256x10) := rfl

/-- The head at `(r, o)`: `Net.head` of the accumulator's row. -/
theorem pay3_apply (acc : FVec Ideal S256x128 .f32) (b1 : FVec Ideal S1x128 .f32) (w2 : FVec Ideal S128x10 .f32)
    (b2 : FVec Ideal S1x10 .f32) (r : Fin 256) (o : Fin 10) :
    k1_pay3 (F := Ideal) acc b1 w2 b2 (ix2 r o) = Net.head b1 w2 b2 (fun u => acc (ix2 r u)) o := by
  rw [pay3_eq]
  unfold Net.head
  show shiftedLogits acc b1 w2 b2 (ix2 r o) - broadcastTo S256x10 _ broadcasts_S256x1_S256x10 (ix2 r o) = _
  rw [col_bcast_apply _ broadcasts_S256x1_S256x10 r o, shiftedLogits_apply]
  refine congrArg (Net.shifted b1 w2 b2 (fun u => acc (ix2 r u)) o - ·) ?_
  show Ideal.log (shapeCast S256x1 _ shapeCasts_S256_S256x1 (ix2 r (0 : Fin 1))) = _
  rw [col_cast_apply _ shapeCasts_S256_S256x1 r]
  refine congrArg Ideal.log ?_
  refine (row_sum_apply (exp (shiftedLogits acc b1 w2 b2)) 0x00000000#32 reduces_S256x10_S256 (.inl rfl) rfl r).trans ?_
  refine Finset.sum_congr rfl fun o' _ => ?_
  show Ideal.exp (shiftedLogits acc b1 w2 b2 (ix2 r o')) = _
  rw [shiftedLogits_apply]

end Cert.ReferenceIdeal.FcPay

end
-- ==== Proof.RefFcValue.lean ====
import proofs.«158827_g2000604799650332_pallasbulk_197_4_alg».proof.Proof.RefFc
import proofs.«158827_g2000604799650332_pallasbulk_197_4_alg».proof.Proof.RefFcPay
import proofs.«158827_g2000604799650332_pallasbulk_197_4_alg».proof.Proof.Net

/-!
# What the dense head leaves in its output array

The grid is 32 row blocks × 4 slabs, the slab index running fastest: point `t` works on rows `256 (t / 4) … + 255` of the
flattened features and on feature columns `2304 (t % 4) … + 2303`, against the same 2304 rows of the first dense layer's
weights.  Along a row block the accumulator goes `0 + P₀`, `… + P₁`, `… + P₂`, `… + P₃` (`Pₖ` the slab's partial sum,
`Net.part`), and at the fourth point the head of the accumulator's rows is written to rows `256 (t / 4) …` of the output.
Those 32 blocks tile the output array, so after the last point it holds `Net.head` of the four partial sums added one after
the other to zero — for whatever features the flattened array holds (`hX`).
-/

set_option maxRecDepth 16384

noncomputable section

open scoped BigOperators

namespace Cert.ReferenceIdeal.FcValue

open Idealize.ShloMosaic Idealize.ShloMosaic.TcCoe Idealize.SL.Sem Idealize.ShloMosaic.ValueIdx
open Idealize.ShloMosaic.Pipeline (Dat)
open Cert.ReferenceIdeal Cert.ReferenceIdeal.Gen Cert.ReferenceIdeal.Fc Cert.ReferenceIdeal.FcPay

variable (V : (c : Dev nD) → (b : Ref sig .tc) → Buf (Elt Ideal) ((c : Thread nD τ).loc b)) (c : Dev nD)

/-- The flattened features, the first dense layer's weights and bias, the second layer's weights and bias, as the kernel
    finds them. -/
abbrev X : Cert.Net.A2 8192 9216 := V c main_v2
abbrev Wt : Cert.Net.A2 9216 128 := V c main_arg4
abbrev B1 : Cert.Net.A2 1 128 := V c main_arg5
abbrev W2 : Cert.Net.A2 128 10 := V c main_arg6
abbrev B2 : Cert.Net.A2 1 10 := V c main_arg7

/-- The grid has 128 points. -/
theorem N128 : cfg1.N = 128 := N_1

/-- Where each window's block sits at point `t`: the features' block at row block `t / 4`, slab `t % 4`; the weights, the
    biases whole; the output's block at row block `t / 4`; and the weights' rows loaded start at `2304 (t % 4)`. -/
theorem where_at : ∀ t : Fin cfg1.N,
    win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 4 ∧ win1_5.index t (1 : Fin 2) = 0
    ∧ k1_off1 (grid1.coords t) (0 : Fin 2) = 2304 * (t.val % 4) ∧ k1_off1 (grid1.coords t) (1 : Fin 2) = 0 :=
  (by decide +kernel : ∀ t : Fin grid1.N, _)

/-- The features' block at point `t`, entry `(r, k)`: row `256 (t / 4) + r`, column `2304 (t % 4) + k` of the array. -/
theorem feat_block (t : Fin cfg1.N) (r : Fin 256) (k : Fin 2304) (n : Fin 8192) (q : Fin 9216)
    (hn : n.val = 256 * (t.val / 4) + r.val) (hq : q.val = 2304 * (t.val % 4) + k.val) :
    (iblk1 V c 0 t : Vec Ideal S256x2304 .f32) (ix2 r k) = X V c (ix2 n q) := by
  obtain ⟨e0, e1, -⟩ := where_at t
  unfold iblk1
  rw [View.read_apply]
  show V c main_v2 _ = V c main_v2 _
  congr 1
  funext a
  apply Fin.ext
  match a with
  | ⟨0, _⟩ => show win1_0.index t (0 : Fin 2) * 256 + 1 * r.val = n.val; rw [e0, hn]; omega
  | ⟨1, _⟩ => show win1_0.index t (1 : Fin 2) * 2304 + 1 * k.val = q.val; rw [e1, hq]; omega

/-- The weights' block is the whole array. -/
theorem weights_block (t : Fin cfg1.N) : (iblk1 V c 1 t : Vec Ideal S9216x128 .f32) = Wt V c := by
  obtain ⟨-, -, e0, e1, -⟩ := where_at t
  funext y
  unfold iblk1
  rw [View.read_apply]
  show V c main_arg4 _ = V c main_arg4 y
  congr 1
  funext a
  apply Fin.ext
  match a with
  | ⟨0, _⟩ => show win1_1.index t (0 : Fin 2) * 9216 + 1 * (y 0).val = (y 0).val; rw [e0]; omega
  | ⟨1, _⟩ => show win1_1.index t (1 : Fin 2) * 128 + 1 * (y 1).val = (y 1).val; rw [e1]; omega

/-- The first bias's block is the whole array. -/
theorem bias1_block (t : Fin cfg1.N) : (iblk1 V c 2 t : Vec Ideal S1x128 .f32) = B1 V c := by
  obtain ⟨-, -, -, -, e0, e1, -⟩ := where_at t
  funext y
  unfold iblk1
  rw [View.read_apply]
  show V c main_arg5 _ = V c main_arg5 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The second layer's weights' block is the whole array. -/
theorem weights2_block (t : Fin cfg1.N) : (iblk1 V c 3 t : Vec Ideal S128x10 .f32) = W2 V c := by
  obtain ⟨-, -, -, -, -, -, e0, e1, -⟩ := where_at t
  funext y
  unfold iblk1
  rw [View.read_apply]
  show V c main_arg6 _ = V c main_arg6 y
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 10 + 1 * (y 1).val = (y 1).val; rw [e1]; omega

/-- The second bias's block is the whole array. -/
theorem bias2_block (t : Fin cfg1.N) : (iblk1 V c 4 t : Vec Ideal S1x10 .f32) = B2 V c := by
  obtain ⟨-, -, -, -, -, -, -, -, e0, e1, -⟩ := where_at t
  funext y
  unfold iblk1
  rw [View.read_apply]
  show V c main_arg7 _ = V c main_arg7 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 10 + 1 * (y 1).val = (y 1).val; rw [e1]; omega

/-- The weights' rows the point loads, entry `(k, u)`: row `2304 (t % 4) + k` of the weights. -/
theorem weight_rows (t : Fin cfg1.N) (x1 : Vec Ideal S9216x128 .f32) (k : Fin 2304) (u : Fin 128) (q : Fin 9216)
    (hq : q.val = 2304 * (t.val % 4) + k.val) :
    wrows (grid1.coords t) x1 (ix2 k u) = x1 (ix2 q u) := by
  obtain ⟨-, -, -, -, -, -, -, -, -, -, -, -, e0, e1⟩ := where_at t
  unfold wrows
  show x1 _ = x1 _
  congr 1
  funext a
  apply Fin.ext
  match a with
  | ⟨0, _⟩ => show k1_off1 (grid1.coords t) (0 : Fin 2) + 1 * k.val = q.val; rw [e0, hq]; omega
  | ⟨1, _⟩ => show k1_off1 (grid1.coords t) (1 : Fin 2) + 1 * u.val = u.val; rw [e1]; omega

variable (ft : Fin 8192 → Fin 12 → Fin 12 → Fin 64 → EReal)

/-- One point's product at `(r, u)` is the slab's partial sum of the first dense layer for the row's image. -/
theorem slab_sum (hX : ∀ n q, X V c (ix2 n q) = Cert.Net.flat ft n q) (t : Fin cfg1.N) (blk : Fin 4)
    (hb : t.val % 4 = blk.val) (r : Fin 256) (u : Fin 128) (n : Fin 8192) (hn : n.val = 256 * (t.val / 4) + r.val)
    (x : FVec Ideal S256x2304 .f32) (w : FVec Ideal S9216x128 .f32) (hx : x = iblk1 V c 0 t) (hw : w = iblk1 V c 1 t) :
    ∑ k : Fin 2304, x (ix2 r k) * wrows (F := Ideal) (grid1.coords t) w (ix2 k u) = Cert.Net.part (Wt V c) ft n u blk := by
  subst hx hw
  unfold Cert.Net.part
  refine Finset.sum_congr rfl fun k _ => ?_
  have hq : (⟨2304 * blk.val + k.val, by omega⟩ : Fin 9216).val = 2304 * (t.val % 4) + k.val := by rw [hb]
  rw [feat_block V c t r k n _ hn hq, weight_rows t _ k u _ hq, weights_block, hX]

/-- The four partial sums of image `n`, unit `u`. -/
abbrev P (n : Fin 8192) (u : Fin 128) (blk : Fin 4) : EReal := Cert.Net.part (Wt V c) ft n u blk

/-- After the first point of a row block the accumulator is zero plus the first partial sum. -/
theorem acc0 (hX : ∀ n q, X V c (ix2 n q) = Cert.Net.flat ft n q) (t : Fin cfg1.N) (h : t.val % 4 = 0)
    (r : Fin 256) (u : Fin 128) (n : Fin 8192) (hn : n.val = 256 * (t.val / 4) + r.val) :
    (outsAt1 V c t.val t.isLt).2 (ix2 r u) = 0 + P V c ft n u 0 := by
  rw [outsAt1_acc_A V c t h, pay2_apply, pay1_apply]
  exact congrArg (0 + ·) (slab_sum V c ft hX t 0 h r u n hn _ _ rfl rfl)

/-- After the second point, plus the second partial sum. -/
theorem acc1 (hX : ∀ n q, X V c (ix2 n q) = Cert.Net.flat ft n q) (t : Fin cfg1.N) (h : t.val % 4 = 1)
    (r : Fin 256) (u : Fin 128) (n : Fin 8192) (hn : n.val = 256 * (t.val / 4) + r.val) :
    (outsAt1 V c t.val t.isLt).2 (ix2 r u) = 0 + P V c ft n u 0 + P V c ft n u 1 := by
  have hlt : t.val - 1 < cfg1.N := Nat.lt_of_le_of_lt (Nat.sub_le _ _) t.isLt
  have hp := acc0 V c ft hX ⟨t.val - 1, hlt⟩ (by show (t.val - 1) % 4 = 0; omega) r u n
    (by show n.val = 256 * ((t.val - 1) / 4) + r.val; omega)
  rw [outsAt1_acc_pos V c t (by omega), pay2_apply]
  exact congrArg₂ (· + ·) hp (slab_sum V c ft hX t 1 h r u n hn _ _ rfl rfl)

/-- After the third point, plus the third partial sum. -/
theorem acc2 (hX : ∀ n q, X V c (ix2 n q) = Cert.Net.flat ft n q) (t : Fin cfg1.N) (h : t.val % 4 = 2)
    (r : Fin 256) (u : Fin 128) (n : Fin 8192) (hn : n.val = 256 * (t.val / 4) + r.val) :
    (outsAt1 V c t.val t.isLt).2 (ix2 r u) = 0 + P V c ft n u 0 + P V c ft n u 1 + P V c ft n u 2 := by
  have hlt : t.val - 1 < cfg1.N := Nat.lt_of_le_of_lt (Nat.sub_le _ _) t.isLt
  have hp := acc1 V c ft hX ⟨t.val - 1, hlt⟩ (by show (t.val - 1) % 4 = 1; omega) r u n
    (by show n.val = 256 * ((t.val - 1) / 4) + r.val; omega)
  rw [outsAt1_acc_pos V c t (by omega), pay2_apply]
  exact congrArg₂ (· + ·) hp (slab_sum V c ft hX t 2 h r u n hn _ _ rfl rfl)

/-- After the fourth point, plus the fourth partial sum. -/
theorem acc3 (hX : ∀ n q, X V c (ix2 n q) = Cert.Net.flat ft n q) (t : Fin cfg1.N) (h : t.val % 4 = 3)
    (r : Fin 256) (u : Fin 128) (n : Fin 8192) (hn : n.val = 256 * (t.val / 4) + r.val) :
    (outsAt1 V c t.val t.isLt).2 (ix2 r u)
      = 0 + P V c ft n u 0 + P V c ft n u 1 + P V c ft n u 2 + P V c ft n u 3 := by
  have hlt : t.val - 1 < cfg1.N := Nat.lt_of_le_of_lt (Nat.sub_le _ _) t.isLt
  have hp := acc2 V c ft hX ⟨t.val - 1, hlt⟩ (by show (t.val - 1) % 4 = 2; omega) r u n
    (by show n.val = 256 * ((t.val - 1) / 4) + r.val; omega)
  rw [outsAt1_acc_pos V c t (by omega), pay2_apply]
  exact congrArg₂ (· + ·) hp (slab_sum V c ft hX t 3 h r u n hn _ _ rfl rfl)

/-- The result for image `n`, class `o`: the head of the four partial sums added one after the other to zero. -/
def row (n : Fin 8192) (o : Fin 10) : EReal :=
  Cert.Net.head (B1 V c) (W2 V c) (B2 V c)
    (fun u => 0 + P V c ft n u 0 + P V c ft n u 1 + P V c ft n u 2 + P V c ft n u 3) o

/-- The output's staging buffer after the fourth point of a row block, entry `(r, o)`. -/
theorem out3 (hX : ∀ n q, X V c (ix2 n q) = Cert.Net.flat ft n q) (t : Fin cfg1.N) (h : t.val % 4 = 3)
    (r : Fin 256) (o : Fin 10) (n : Fin 8192) (hn : n.val = 256 * (t.val / 4) + r.val) :
    (outsAt1 V c t.val t.isLt).1 (ix2 r o) = row V c ft n o := by
  rw [outsAt1_out_C V c t h, bias1_block, weights2_block, bias2_block, pay3_apply]
  unfold row
  refine congrArg (fun s => Cert.Net.head (B1 V c) (W2 V c) (B2 V c) s o) (funext fun u => ?_)
  exact acc3 V c ft hX t h r u n hn

/-- The whole output array. -/
def G : S8192x10.Idx → EReal := fun y => row V c ft (y 0) (y 1)

/-- What a writing point writes back is its block of `G`. -/
theorem flushed_eq (hX : ∀ n q, X V c (ix2 n q) = Cert.Net.flat ft n q) (t : Fin cfg1.N)
    (hf : (cfg1.win 5).flush t = true) :
    (dat1 V c).flushed 5 t = ((cfg1.win 5).blk t).view.read (Elt Ideal) (G V c ft) := by
  have h3 : t.val % 4 = 3 := (flush1_5 t).mp hf
  obtain ⟨-, -, -, -, -, -, -, -, -, -, e0, e1, -⟩ := where_at t
  show (cfg1.win 5).cut (grid1.coords t) ((dat1 V c).after 5 t) = _
  rw [after1_5]
  funext j
  obtain ⟨r, o, rfl⟩ : ∃ (r : Fin 256) (o : Fin 10), j = ix2 r o := ⟨j 0, j 1, eq_ix2 j⟩
  have hN : t.val < 128 := lt_of_lt_of_eq t.isLt N128
  show (outsAt1 V c t.val t.isLt).1 (ix2 r o) = G V c ft (((cfg1.win 5).blk t).view.emb (ix2 r o))
  rw [out3 V c ft hX t h3 r o ⟨256 * (t.val / 4) + r.val, by omega⟩ rfl]
  show _ = row V c ft ((((cfg1.win 5).blk t).view.emb (ix2 r o)) 0) ((((cfg1.win 5).blk t).view.emb (ix2 r o)) 1)
  congr 1
  · exact Fin.ext (by show 256 * (t.val / 4) + r.val = win1_5.index t (0 : Fin 2) * 256 + 1 * r.val; rw [e0]; omega)
  · exact Fin.ext (by show o.val = win1_5.index t (1 : Fin 2) * 10 + 1 * o.val; rw [e1]; omega)

/-- An index of the output array is in point `t`'s block iff each coordinate is in the block's range. -/
theorem mem_blk (t : Fin cfg1.N) (i : S8192x10.Idx) :
    i ∈ ((cfg1.win 5).blk t).view.set
      ↔ ∀ a : Fin 2, win1_5.index t a * S256x10.size a ≤ (i a).val ∧ (i a).val < win1_5.index t a * S256x10.size a + S256x10.size a := by
  show i ∈ ((View.whole main_v3).slice (win1_5.rect t)).set ↔ _
  rw [View.set_slice_whole, Rect.mem_set_unit]
  exact Iff.rfl

/-- Every row of the output is in the block of the fourth point of its row block. -/
theorem covered (i : S8192x10.Idx) :
    ∃ t : Fin cfg1.N, (cfg1.win 5).flush t = true ∧ i ∈ ((cfg1.win 5).blk t).view.set := by
  have hi0 : (i 0).val < 8192 := (i 0).isLt
  have hi1 : (i 1).val < 10 := (i 1).isLt
  have hlt : 4 * ((i 0).val / 256) + 3 < cfg1.N := by rw [N128]; omega
  obtain ⟨-, -, -, -, -, -, -, -, -, -, e0, e1, -⟩ := where_at ⟨4 * ((i 0).val / 256) + 3, hlt⟩
  have e0' : win1_5.index ⟨4 * ((i 0).val / 256) + 3, hlt⟩ (0 : Fin 2) = (i 0).val / 256 := by
    rw [e0]; show (4 * ((i 0).val / 256) + 3) / 4 = (i 0).val / 256; omega
  refine ⟨⟨4 * ((i 0).val / 256) + 3, hlt⟩, (flush1_5 _).mpr (by show (4 * ((i 0).val / 256) + 3) % 4 = 3; omega), ?_⟩
  rw [mem_blk]
  intro a
  match a with
  | ⟨0, _⟩ =>
    show win1_5.index ⟨4 * ((i 0).val / 256) + 3, hlt⟩ (0 : Fin 2) * 256 ≤ (i 0).val
      ∧ (i 0).val < win1_5.index ⟨4 * ((i 0).val / 256) + 3, hlt⟩ (0 : Fin 2) * 256 + 256
    rw [e0']; omega
  | ⟨1, _⟩ =>
    show win1_5.index ⟨4 * ((i 0).val / 256) + 3, hlt⟩ (1 : Fin 2) * 10 ≤ (i 1).val
      ∧ (i 1).val < win1_5.index ⟨4 * ((i 0).val / 256) + 3, hlt⟩ (1 : Fin 2) * 10 + 10
    rw [e1]; omega

/-- After the last point the output array holds, for every image, the head of its four partial sums. -/
theorem final1 (hX : ∀ n q, X V c (ix2 n q) = Cert.Net.flat ft n q) :
    (dat1 V c).arrAt 5 cfg1.N = G V c ft :=
  (dat1 V c).arrAt_eq_of_cover 5 (G V c ft) (flushed_eq V c ft hX) covered

end Cert.ReferenceIdeal.FcValue

end
-- ==== Proof.RefHost.lean ====
import proofs.«158827_g2000604799650332_pallasbulk_197_4_alg».proof.Proof.Gen.ReferenceIdeal.Launch
import proofs.«158827_g2000604799650332_pallasbulk_197_4_alg».proof.Proof.Net
import Idealize.ShloMosaic.Lib.StableHlo.Run
import Idealize.ShloMosaic.Lib.ValueIdx
import Idealize.ShloMosaic.Lib.Pipeline.Value

/-!
# The two re-layings between the kernels, entry by entry

Before the first kernel the images `[n, 1, i, j]` are re-laid as `[n, i, j, 1]`; between the kernels the pooled
features `[n, p, q, d]` are flattened to `[n, 768 p + 64 q + d]`.  Both keep every number at its row-major position,
so entry `(n, i, j, 0)` of the first is entry `(n, 0, i, j)` of the images, and entry `(n, r)` of the second is entry
`(n, r / 768, r / 64 % 12, r % 64)` of the features — whatever the buffers hold before.
-/

noncomputable section

namespace Cert.ReferenceIdeal.HostRead

open Idealize.ShloMosaic Idealize.ShloMosaic.TcCoe Idealize.SL.Sem Idealize.ShloMosaic.ValueIdx
open Cert.ReferenceIdeal Cert.ReferenceIdeal.Gen

/-- After the first re-laying, the images' buffer holds `Net.nhwc` of the argument. -/
theorem relaid_images (W : Valuation τ sig (Elt Ideal)) :
    (StableHlo.after (hostOps0 (F := Ideal)) W (Proc.devRef .tc main_v0) : S8192x28x28x1.Idx → EReal)
      = Cert.Net.nhwc (W (Proc.devRef .tc main_arg8)) := by
  have e : (StableHlo.after (hostOps0 (F := Ideal)) W (Proc.devRef .tc main_v0) : S8192x28x28x1.Idx → EReal)
      = shapeCast S8192x28x28x1 (W (Proc.devRef .tc main_arg8) : S8192x1x28x28.Idx → EReal)
          shapeCasts_S8192x1x28x28_S8192x28x28x1 := by
    after_results; rfl
  rw [e]
  funext y
  obtain ⟨n, i, j, z, rfl⟩ : ∃ (n : Fin 8192) (i j : Fin 28) (z : Fin 1), y = ix4 n i j z :=
    ⟨y 0, y 1, y 2, y 3, eq_ix4 y⟩
  unfold Cert.Net.nhwc
  refine shapeCast_apply _ shapeCasts_S8192x1x28x28_S8192x28x28x1 (ix4 n i j z) (ix4 n (0 : Fin 1) i j) ?_
  rw [Shape.rowMajor_val_four, Shape.rowMajor_val_four]
  show ((n.val * 1 + 0) * 28 + i.val) * 28 + j.val = ((n.val * 28 + i.val) * 28 + j.val) * 1 + z.val
  have := z.isLt
  omega

/-- After the flattening, entry `(n, r)` of the features' buffer is entry `(n, r / 768, r / 64 % 12, r % 64)` of the pooled
    array. -/
theorem flattened (W : Valuation τ sig (Elt Ideal)) (n : Fin 8192) (r : Fin 9216) :
    (StableHlo.after (hostOps1 (F := Ideal)) W (Proc.devRef .tc main_v2) : S8192x9216.Idx → EReal) (ix2 n r)
      = (W (Proc.devRef .tc main_v1) : S8192x12x12x64.Idx → EReal)
          (ix4 n (⟨r.val / 768, by omega⟩ : Fin 12) (⟨r.val / 64 % 12, by omega⟩ : Fin 12) (⟨r.val % 64, by omega⟩ : Fin 64)) := by
  have e : (StableHlo.after (hostOps1 (F := Ideal)) W (Proc.devRef .tc main_v2) : S8192x9216.Idx → EReal)
      = shapeCast S8192x9216 (W (Proc.devRef .tc main_v1) : S8192x12x12x64.Idx → EReal)
          shapeCasts_S8192x12x12x64_S8192x9216 := by
    after_results; rfl
  rw [e]
  refine shapeCast_apply _ shapeCasts_S8192x12x12x64_S8192x9216 (ix2 n r) _ ?_
  rw [Shape.rowMajor_val_four, Shape.rowMajor_val_two]
  show ((n.val * 12 + r.val / 768) * 12 + r.val / 64 % 12) * 64 + r.val % 64 = n.val * 9216 + r.val
  have := r.isLt
  omega

end Cert.ReferenceIdeal.HostRead

end
-- ==== Proof.RefConvValueBody.lean ====
import proofs.«158827_g2000604799650332_pallasbulk_197_4_alg».proof.Proof.RefConv
import proofs.«158827_g2000604799650332_pallasbulk_197_4_alg».proof.Proof.Net
import proofs.«158827_g2000604799650332_pallasbulk_197_4_alg».proof.Proof.LibConvOps
import proofs.«158827_g2000604799650332_pallasbulk_197_4_alg».proof.Proof.LibDenseRows

/-!
# What the convolution block computes, entry by entry

At the extended reals the output block of the convolution block, as a function of its five input blocks, is the
network's pooled feature map of the four images of the block: at image `n`, pooled position `(p, q)` and channel `d` it
is the maximum over the 2×2 window of `max (second convolution + second bias) 0`, the second convolution being the sum
over the 288 entries of the patch of the first convolution's output (nine taps, first bias, `max · 0`).

The body's arithmetic is cut into five stages — the end of the first convolution, the patch matrix, the matrix product,
the second bias with `max · 0`, the pool — each read at an entry, and the entries are then matched with the network's
definitions term by term.
-/

noncomputable section

open scoped BigOperators

namespace Cert.ReferenceIdeal.ConvValue

open Cert.ReferenceIdeal Cert.ReferenceIdeal.Gen Cert.ReferenceIdeal.Conv
open Idealize.ShloMosaic Idealize.ShloMosaic.ValueIdx
open Cert.KernelIdeal.NetValue Cert.ConvOps Cert.DenseRows

/-! ## The stages -/

/-- The ninth tap added to the eight before it, then the first bias row, then `max · 0`. -/
def reluOne (v62 : FVec Ideal S4x26x26x32 .f32) (v64 : FVec Ideal S4x26x26x1 .f32) (v65 : Vec Ideal S1x32 .f32) (v71 : Vec Ideal S1x32 .f32) :
    FVec Ideal S4x26x26x32 .f32 :=
  have v66 : FVec Ideal S1x1x1x32 .f32 := shapeCast S1x1x1x32 v65 shapeCasts_S1x32_S1x1x1x32
  have v67 : FVec Ideal S4x26x26x32 .f32 := broadcastTo S4x26x26x32 v64 broadcasts_S4x26x26x1_S4x26x26x32
  have v68 : FVec Ideal S4x26x26x32 .f32 := broadcastTo S4x26x26x32 v66 broadcasts_S1x1x1x32_S4x26x26x32
  have v69 : FVec Ideal S4x26x26x32 .f32 := mulf v67 v68
  have v70 : FVec Ideal S4x26x26x32 .f32 := addf v62 v69
  have v72 : FVec Ideal S1x1x1x32 .f32 := shapeCast S1x1x1x32 v71 shapeCasts_S1x32_S1x1x1x32
  have v73 : FVec Ideal S4x26x26x32 .f32 := broadcastTo S4x26x26x32 v72 broadcasts_S1x1x1x32_S4x26x26x32
  have v74 : FVec Ideal S4x26x26x32 .f32 := addf v70 v73
  have cst : Ideal .f32 := Scalar.ofBits .f32 0x00000000#32
  have v75 : FVec Ideal S4x26x26x32 .f32 := broadcast S4x26x26x32 cst
  maximumf v74 v75

/-- The nine 24×24 windows of the first convolution's output side by side along the channel axis, the three leading axes
    merged: one row of 288 entries per (image, row, column). -/
def patches (v76 : FVec Ideal S4x26x26x32 .f32) : FVec Ideal S2304x288 .f32 :=
  have v77 : FVec Ideal S4x24x24x32 .f32 := extractStridedSlice S4x24x24x32 ![0, 0, 0, 0] v76 slices_S4x26x26x32_o0_0_0_0_S4x24x24x32
  have v78 : FVec Ideal S4x24x24x32 .f32 := extractStridedSlice S4x24x24x32 ![0, 0, 1, 0] v76 slices_S4x26x26x32_o0_0_1_0_S4x24x24x32
  have v79 : FVec Ideal S4x24x24x32 .f32 := extractStridedSlice S4x24x24x32 ![0, 0, 2, 0] v76 slices_S4x26x26x32_o0_0_2_0_S4x24x24x32
  have v80 : FVec Ideal S4x24x24x32 .f32 := extractStridedSlice S4x24x24x32 ![0, 1, 0, 0] v76 slices_S4x26x26x32_o0_1_0_0_S4x24x24x32
  have v81 : FVec Ideal S4x24x24x32 .f32 := extractStridedSlice S4x24x24x32 ![0, 1, 1, 0] v76 slices_S4x26x26x32_o0_1_1_0_S4x24x24x32
  have v82 : FVec Ideal S4x24x24x32 .f32 := extractStridedSlice S4x24x24x32 ![0, 1, 2, 0] v76 slices_S4x26x26x32_o0_1_2_0_S4x24x24x32
  have v83 : FVec Ideal S4x24x24x32 .f32 := extractStridedSlice S4x24x24x32 ![0, 2, 0, 0] v76 slices_S4x26x26x32_o0_2_0_0_S4x24x24x32
  have v84 : FVec Ideal S4x24x24x32 .f32 := extractStridedSlice S4x24x24x32 ![0, 2, 1, 0] v76 slices_S4x26x26x32_o0_2_1_0_S4x24x24x32
  have v85 : FVec Ideal S4x24x24x32 .f32 := extractStridedSlice S4x24x24x32 ![0, 2, 2, 0] v76 slices_S4x26x26x32_o0_2_2_0_S4x24x24x32
  have v86 : FVec Ideal S4x24x24x288 .f32 := concatenate S4x24x24x288 3 [⟨S4x24x24x32, v77⟩, ⟨S4x24x24x32, v78⟩, ⟨S4x24x24x32, v79⟩, ⟨S4x24x24x32, v80⟩, ⟨S4x24x24x32, v81⟩, ⟨S4x24x24x32, v82⟩, ⟨S4x24x24x32, v83⟩, ⟨S4x24x24x32, v84⟩, ⟨S4x24x24x32, v85⟩] concatenates_S4x24x24x32_S4x24x24x32_S4x24x24x32_S4x24x24x32_S4x24x24x32_S4x24x24x32_S4x24x24x32_S4x24x24x32_S4x24x24x32_S4x24x24x288_d3
  shapeCast S2304x288 v86 shapeCasts_S4x24x24x288_S2304x288

/-- The second convolution's raw sums: the patch rows against the weight matrix, into zero. -/
def convTwo (v87 : FVec Ideal S2304x288 .f32) (v88 : FVec Ideal S288x64 .f32) : FVec Ideal S2304x64 .f32 :=
  have cst_49 : FVec Ideal S2304x64 .f32 := constant S2304x64 .f32 0x00000000#32
  matmul dot_S2304x288_S288x64_S2304x64_1_0_0_1_n_n none v87 v88 cst_49

/-- The second bias row added down the rows, then `max · 0`. -/
def reluTwo (v89 : FVec Ideal S2304x64 .f32) (v90 : Vec Ideal S1x64 .f32) : FVec Ideal S2304x64 .f32 :=
  have v91 : FVec Ideal S2304x64 .f32 := broadcastTo S2304x64 v90 broadcasts_S1x64_S2304x64
  have v92 : FVec Ideal S2304x64 .f32 := addf v89 v91
  have cst_52 : Ideal .f32 := Scalar.ofBits .f32 0x00000000#32
  have v93 : FVec Ideal S2304x64 .f32 := broadcast S2304x64 cst_52
  maximumf v92 v93

/-- The 2×2 maximum pool: the rows paired (column parity innermost) and the maximum taken over the pair, then the rows
    of the image split as (row pair, parity) and the maximum taken over that parity. -/
def pooled (v94 : FVec Ideal S2304x64 .f32) : FVec Ideal S4x12x12x64 .f32 :=
  have v95 : FVec Ideal S1152x2x64 .f32 := shapeCast S1152x2x64 v94 shapeCasts_S2304x64_S1152x2x64
  have v96 : FVec Ideal S1152x64 .f32 := multiReduction .maximumf [1] S1152x64 v95 0xFF800000#32 reduces_S1152x2x64_S1152x64 (.inl rfl) rfl
  have v97 : FVec Ideal S4x12x2x12x64 .f32 := shapeCast S4x12x2x12x64 v96 shapeCasts_S1152x64_S4x12x2x12x64
  multiReduction .maximumf [2] S4x12x12x64 v97 0xFF800000#32 reduces_S4x12x2x12x64_S4x12x12x64 (.inl rfl) rfl

/-- The stored payload is the composition of the five stages. -/
theorem pay1_eq_stages (v62 : FVec Ideal S4x26x26x32 .f32) (v64 : FVec Ideal S4x26x26x1 .f32) (v65 v71 : Vec Ideal S1x32 .f32)
    (v88 : Vec Ideal S288x64 .f32) (v90 : Vec Ideal S1x64 .f32) :
    k0_pay1 v62 v64 v65 v71 v88 v90 = pooled (reluTwo (convTwo (patches (reluOne v62 v64 v65 v71)) v88) v90) := rfl

/-! ## The stages read at an entry -/

/-- The first eight taps, added from the left. -/
theorem firstEight_apply (v0 : Vec Ideal S4x26x26x1 .f32) (v2 : Vec Ideal S1x32 .f32) (v7 : Vec Ideal S4x26x26x1 .f32) (v9 : Vec Ideal S1x32 .f32)
    (v15 : Vec Ideal S4x26x26x1 .f32) (v17 : Vec Ideal S1x32 .f32) (v23 : Vec Ideal S4x26x26x1 .f32) (v25 : Vec Ideal S1x32 .f32)
    (v31 : Vec Ideal S4x26x26x1 .f32) (v33 : Vec Ideal S1x32 .f32) (v39 : Vec Ideal S4x26x26x1 .f32) (v41 : Vec Ideal S1x32 .f32)
    (v47 : Vec Ideal S4x26x26x1 .f32) (v49 : Vec Ideal S1x32 .f32) (v55 : Vec Ideal S4x26x26x1 .f32) (v57 : Vec Ideal S1x32 .f32)
    (n : Fin 4) (i j : Fin 26) (c : Fin 32) :
    k0_pay3 (k0_pay2 v0 v2 v7 v9 v15 v17 v23 v25) v31 v33 v39 v41 v47 v49 v55 v57 (ix4 n i j c)
      = v0 (ix4 n i j (0 : Fin 1)) * v2 (ix2 (0 : Fin 1) c) + v7 (ix4 n i j (0 : Fin 1)) * v9 (ix2 (0 : Fin 1) c)
        + v15 (ix4 n i j (0 : Fin 1)) * v17 (ix2 (0 : Fin 1) c) + v23 (ix4 n i j (0 : Fin 1)) * v25 (ix2 (0 : Fin 1) c)
        + v31 (ix4 n i j (0 : Fin 1)) * v33 (ix2 (0 : Fin 1) c) + v39 (ix4 n i j (0 : Fin 1)) * v41 (ix2 (0 : Fin 1) c)
        + v47 (ix4 n i j (0 : Fin 1)) * v49 (ix2 (0 : Fin 1) c) + v55 (ix4 n i j (0 : Fin 1)) * v57 (ix2 (0 : Fin 1) c) := by
  unfold k0_pay3 k0_pay2
  simp only [addf_apply]
  rw [tap_apply, tap_apply, tap_apply, tap_apply, tap_apply, tap_apply, tap_apply, tap_apply]

/-- The end of the first convolution: ninth tap, bias, `max · 0`. -/
theorem reluOne_apply (v62 : FVec Ideal S4x26x26x32 .f32) (v64 : FVec Ideal S4x26x26x1 .f32) (v65 v71 : Vec Ideal S1x32 .f32)
    (n : Fin 4) (i j : Fin 26) (c : Fin 32) :
    reluOne v62 v64 v65 v71 (ix4 n i j c)
      = max (v62 (ix4 n i j c) + v64 (ix4 n i j (0 : Fin 1)) * v65 (ix2 (0 : Fin 1) c) + v71 (ix2 (0 : Fin 1) c)) 0 := by
  unfold reluOne
  simp only [maximumf_apply, addf_apply, broadcast_apply]
  rw [tap_apply', broadcastTo_111d_abcd_apply, shapeCast_1d_111d_apply]
  exact congrArg (max _) Ideal.ofBits_zero_f32

/-- The patch matrix at row `(n·24 + y)·24 + x`, column `k`: channel `k % 32` of the first convolution's output at the
    position tap `k / 32` of the window at `(y, x)` names. -/
theorem patches_apply (v76 : FVec Ideal S4x26x26x32 .f32) (r : Fin 2304) (k : Fin 288) (n : Fin 4) (y x : Fin 24)
    (hr : r.val = (n.val * 24 + y.val) * 24 + x.val) (i j : Fin 26) (c : Fin 32)
    (hi : i.val = y.val + k.val / 32 / 3) (hj : j.val = x.val + k.val / 32 % 3) (hc : c.val = k.val % 32) :
    patches v76 (ix2 r k) = v76 (ix4 n i j c) :=
  im2col_apply v76 _ _ _ _ _ _ _ _ _ _ _ r k n y x hr i j c hi hj hc

/-- The second convolution's raw sum at row `r`, channel `d`: the patch row against column `d` of the weights. -/
theorem convTwo_apply (v87 : FVec Ideal S2304x288 .f32) (v88 : FVec Ideal S288x64 .f32) (r : Fin 2304) (d : Fin 64) :
    convTwo v87 v88 (ix2 r d) = ∑ u : Fin 288, v87 (ix2 r u) * v88 (ix2 u d) :=
  matmul_rows_apply dot_S2304x288_S288x64_S2304x64_1_0_0_1_n_n rfl rfl (fun _ _ => rfl) (fun _ _ => rfl) (fun _ _ => rfl)
    (fun _ _ => rfl) none v87 v88 r d

/-- The second bias and `max · 0` at row `r`, channel `d`. -/
theorem reluTwo_apply (v89 : FVec Ideal S2304x64 .f32) (v90 : Vec Ideal S1x64 .f32) (r : Fin 2304) (d : Fin 64) :
    reluTwo v89 v90 (ix2 r d) = max (v89 (ix2 r d) + v90 (ix2 (0 : Fin 1) d)) 0 := by
  unfold reluTwo
  simp only [maximumf_apply, addf_apply, broadcast_apply]
  rw [broadcastTo_1b_ab_apply]
  exact congrArg (max _) Ideal.ofBits_zero_f32

/-- The pool at image `n`, position `(p, q)`, channel `d`: the maximum over the row parity `a` of the maximum over the
    column parity `b` of the entry of row `(n·24 + 2p + a)·24 + 2q + b`. -/
theorem pooled_apply (v94 : FVec Ideal S2304x64 .f32) (n : Fin 4) (p q : Fin 12) (d : Fin 64) :
    pooled v94 (ix4 n p q d)
      = (Finset.univ : Finset (Fin 2)).fold max Net.NEG (fun a =>
          (Finset.univ : Finset (Fin 2)).fold max Net.NEG (fun b =>
            v94 (ix2 (⟨(n.val * 24 + (2 * p.val + a.val)) * 24 + (2 * q.val + b.val), by omega⟩ : Fin 2304) d))) := by
  unfold pooled
  refine (max_mid5_apply _ _ _ _ _ n p q d).trans ?_
  refine congrArg (fun g => (Finset.univ : Finset (Fin 2)).fold max Net.NEG g) (funext fun a => ?_)
  refine (shapeCast_ne_abcde_apply _ _ n p a q d
    (⟨((n.val * 12 + p.val) * 2 + a.val) * 12 + q.val, by omega⟩ : Fin 1152) rfl).trans ?_
  refine (max_mid3_apply _ _ _ _ _ _ d).trans ?_
  refine congrArg (fun g => (Finset.univ : Finset (Fin 2)).fold max Net.NEG g) (funext fun b => ?_)
  exact shapeCast_nd_rkd_apply _ _ (⟨((n.val * 12 + p.val) * 2 + a.val) * 12 + q.val, by omega⟩ : Fin 1152) b d
    (⟨(n.val * 24 + (2 * p.val + a.val)) * 24 + (2 * q.val + b.val), by omega⟩ : Fin 2304)
    (by show (n.val * 24 + (2 * p.val + a.val)) * 24 + (2 * q.val + b.val) = (((n.val * 12 + p.val) * 2 + a.val) * 12 + q.val) * 2 + b.val; omega)

/-! ## The loads through the body's rectangles -/

/-- The image block read through the 26×26 rectangle shifted by `(dy, dx)`: pixel `(i + dy, j + dx)`. -/
theorem ld_patch (x0 : Vec Ideal S4x28x28x1 .f32) (dy dx : ℕ)
    (inb : ∀ a, (![0, dy, dx, 0] : Fin 4 → ℕ) a + S4x26x26x1.size a ≤ S4x28x28x1.size a)
    (n : Fin 4) (i j : Fin 26) (i' j' : Fin 28) (hi : i'.val = i.val + dy) (hj : j'.val = j.val + dx) :
    View.ld x0 (Rect.unit (s := S4x28x28x1) ![0, dy, dx, 0] S4x26x26x1.size inb) (ix4 n i j (0 : Fin 1))
      = x0 (ix4 n i' j' (0 : Fin 1)) := by
  refine congrArg x0 (funext fun a => Fin.ext ?_)
  match a with
  | ⟨0, _⟩ => show 0 + 1 * n.val = n.val; omega
  | ⟨1, _⟩ => show dy + 1 * i.val = i'.val; omega
  | ⟨2, _⟩ => show dx + 1 * j.val = j'.val; omega
  | ⟨3, _⟩ => rfl

/-- The filter matrix read through the rectangle of its row `K`: entry `(K, c)`. -/
theorem ld_tap (x1 : Vec Ideal S9x32 .f32) (K : ℕ) (inb : ∀ a, (![K, 0] : Fin 2 → ℕ) a + S1x32.size a ≤ S9x32.size a)
    (c : Fin 32) (k : Fin 9) (hk : k.val = K) :
    View.ld x1 (Rect.unit (s := S9x32) ![K, 0] S1x32.size inb) (ix2 (0 : Fin 1) c) = x1 (ix2 k c) := by
  refine congrArg x1 (funext fun a => Fin.ext ?_)
  match a with
  | ⟨0, _⟩ => show K + 1 * 0 = k.val; omega
  | ⟨1, _⟩ => show 0 + 1 * c.val = c.val; omega

/-! ## The block's entries are the network's -/

section Block

variable (x0 : Vec Ideal S4x28x28x1 .f32) (x1 : Vec Ideal S9x32 .f32) (x2 : Vec Ideal S1x32 .f32)
  (x3 : Vec Ideal S288x64 .f32) (x4 : Vec Ideal S1x64 .f32)
  (xs : Net.A4 8192 28 28 1) (N : Fin 8192) (n : Fin 4)
  (hx : ∀ i j : Fin 28, x0 (ix4 n i j (0 : Fin 1)) = xs (ix4 N i j (0 : Fin 1)))

/-- The first eight taps' products summed, four by each of the body's two sub-functions. -/
abbrev eightTaps : FVec Ideal S4x26x26x32 .f32 :=
  k0_pay3
    (k0_pay2 (View.ld x0 patch00) (View.ld x1 tap0) (View.ld x0 patch01) (View.ld x1 tap1)
      (View.ld x0 patch02) (View.ld x1 tap2) (View.ld x0 patch10) (View.ld x1 tap3))
    (View.ld x0 patch11) (View.ld x1 tap4) (View.ld x0 patch12) (View.ld x1 tap5)
    (View.ld x0 patch20) (View.ld x1 tap6) (View.ld x0 patch21) (View.ld x1 tap7)

include hx in
/-- A pixel of the block read through the rectangle of tap `k` is the network's tap `k` of image `N`. -/
theorem px_block (dy dx : ℕ) (inb : ∀ a, (![0, dy, dx, 0] : Fin 4 → ℕ) a + S4x26x26x1.size a ≤ S4x28x28x1.size a)
    (i j : Fin 26) (k : Fin 9) (hy : k.val / 3 = dy) (hxx : k.val % 3 = dx) :
    View.ld x0 (Rect.unit (s := S4x28x28x1) ![0, dy, dx, 0] S4x26x26x1.size inb) (ix4 n i j (0 : Fin 1))
      = Net.px xs N i j k := by
  unfold Net.px
  exact (ld_patch x0 dy dx inb n i j _ _ (by show i.val + k.val / 3 = i.val + dy; rw [hy])
    (by show j.val + k.val % 3 = j.val + dx; rw [hxx])).trans (hx _ _)

include hx in
/-- The first convolution over the block, with bias and `max · 0`, is the network's at image `N`. -/
theorem conv1_block (i j : Fin 26) (c : Fin 32) :
    reluOne (eightTaps x0 x1) (k0_pay4 (View.ld x0 patch22)) (View.ld x1 tap8) x2 (ix4 n i j c)
      = Net.conv1 xs x1 x2 N i j c := by
  rw [reluOne_apply]
  unfold eightTaps
  rw [firstEight_apply, show k0_pay4 (View.ld x0 patch22) = View.ld x0 patch22 from shapeCast_self _ _]
  unfold Net.conv1 Net.t1
  rw [px_block x0 xs N n hx 0 0 _ i j 0 rfl rfl, px_block x0 xs N n hx 0 1 _ i j 1 rfl rfl,
    px_block x0 xs N n hx 0 2 _ i j 2 rfl rfl, px_block x0 xs N n hx 1 0 _ i j 3 rfl rfl,
    px_block x0 xs N n hx 1 1 _ i j 4 rfl rfl, px_block x0 xs N n hx 1 2 _ i j 5 rfl rfl,
    px_block x0 xs N n hx 2 0 _ i j 6 rfl rfl, px_block x0 xs N n hx 2 1 _ i j 7 rfl rfl,
    px_block x0 xs N n hx 2 2 _ i j 8 rfl rfl,
    ld_tap x1 0 _ c 0 rfl, ld_tap x1 1 _ c 1 rfl, ld_tap x1 2 _ c 2 rfl, ld_tap x1 3 _ c 3 rfl, ld_tap x1 4 _ c 4 rfl,
    ld_tap x1 5 _ c 5 rfl, ld_tap x1 6 _ c 6 rfl, ld_tap x1 7 _ c 7 rfl, ld_tap x1 8 _ c 8 rfl]

include hx in
/-- THE OUTPUT BLOCK AT AN ENTRY: the network's pooled feature of image `N`, whenever row `n` of the image block is image
    `N` of the array `xs`. -/
theorem out_block (p q : Fin 12) (d : Fin 64) :
    out0_5 x0 x1 x2 x3 x4 (ix4 n p q d) = Net.featR xs x1 x2 x3 x4 N p q d := by
  rw [out0_5_eq, pay1_eq_stages, pooled_apply]
  unfold Net.featR
  refine congrArg (fun g => (Finset.univ : Finset (Fin 2)).fold max Net.NEG g) (funext fun a => ?_)
  refine congrArg (fun g => (Finset.univ : Finset (Fin 2)).fold max Net.NEG g) (funext fun b => ?_)
  rw [reluTwo_apply, convTwo_apply]
  unfold Net.win Net.conv2
  refine congrArg (fun s => max (s + x4 (ix2 (0 : Fin 1) d)) 0) (Finset.sum_congr rfl fun k _ => ?_)
  refine congrArg (· * x3 (ix2 k d)) ?_
  unfold Net.patch
  refine (patches_apply _ _ k n (⟨2 * p.val + a.val, by omega⟩ : Fin 24) (⟨2 * q.val + b.val, by omega⟩ : Fin 24) rfl
    (⟨2 * p.val + a.val + k.val / 32 / 3, by omega⟩ : Fin 26) (⟨2 * q.val + b.val + k.val / 32 % 3, by omega⟩ : Fin 26)
    (⟨k.val % 32, by omega⟩ : Fin 32) rfl rfl rfl).trans ?_
  exact conv1_block x0 x1 x2 xs N n hx _ _ _

end Block

end Cert.ReferenceIdeal.ConvValue

end
-- ==== Proof.RefConvValue.lean ====
import proofs.«158827_g2000604799650332_pallasbulk_197_4_alg».proof.Proof.RefConvValueBody
import Idealize.ShloMosaic.Lib.Pipeline.Value

/-!
# The convolution block's output array after its 2048 grid points

Grid point `t` stages images `4t … 4t + 3` (the filters, biases and weights whole, at every point) and writes back output
rows `4t … 4t + 3`. What it writes is the output block of those four images, which entry by entry is the network's pooled
feature map of the image the row belongs to. The 2048 blocks tile the 8192 output rows, so after the last point the
output array holds the pooled feature maps of all 8192 images — as a function of the arrays as found when the call is
entered.
-/

noncomputable section

namespace Cert.ReferenceIdeal.ConvValue

open Cert.ReferenceIdeal Cert.ReferenceIdeal.Gen Cert.ReferenceIdeal.Conv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The pooled feature maps of all 8192 images, from the arrays as found on entry. -/
abbrev features (c : Dev nD) : S8192x12x12x64.Idx → EReal := fun y =>
  Net.featR (V c main_v0) (V c main_arg0) (V c main_arg1) (V c main_arg2) (V c main_arg3) (y 0) (y 1) (y 2) (y 3)

/-- Where each window's block lies at grid point `t` (decided over the 2048 points): the image block and the output block
    are block `t` along the leading axis; the filters, biases and weights are their whole arrays. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 4) = t.val ∧ win0_5.index t (1 : Fin 4) = 0 ∧ win0_5.index t (2 : Fin 4) = 0 ∧ win0_5.index t (3 : Fin 4) = 0 :=
  (by decide +kernel : ∀ t : Fin grid0.N, _)

/-- The filter matrix's block at any point is the whole matrix. -/
theorem iblk_w1 (c : Dev nD) (t : Fin cfg0.N) : iblk0 V c 1 t = V c main_arg0 := by
  obtain ⟨-, -, -, -, e0, e1, -⟩ := idx_facts t
  funext y
  show V c main_arg0 (((cfg0.win 1).blk t).view.emb y) = V c main_arg0 y
  refine congrArg _ (funext fun a => Fin.ext ?_)
  match a with
  | ⟨0, _⟩ => show win0_1.index t (0 : Fin 2) * 9 + 1 * (y 0).val = (y 0).val; omega
  | ⟨1, _⟩ => show win0_1.index t (1 : Fin 2) * 32 + 1 * (y 1).val = (y 1).val; omega

/-- The first bias row's block at any point is the whole row. -/
theorem iblk_b1 (c : Dev nD) (t : Fin cfg0.N) : iblk0 V c 2 t = V c main_arg1 := by
  obtain ⟨-, -, -, -, -, -, e0, e1, -⟩ := idx_facts t
  funext y
  show V c main_arg1 (((cfg0.win 2).blk t).view.emb y) = V c main_arg1 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 32 + 1 * (y 1).val = (y 1).val; omega

/-- The weight matrix's block at any point is the whole matrix. -/
theorem iblk_w2 (c : Dev nD) (t : Fin cfg0.N) : iblk0 V c 3 t = V c main_arg2 := by
  obtain ⟨-, -, -, -, -, -, -, -, e0, e1, -⟩ := idx_facts t
  funext y
  show V c main_arg2 (((cfg0.win 3).blk t).view.emb y) = V c main_arg2 y
  refine congrArg _ (funext fun a => Fin.ext ?_)
  match a with
  | ⟨0, _⟩ => show win0_3.index t (0 : Fin 2) * 288 + 1 * (y 0).val = (y 0).val; omega
  | ⟨1, _⟩ => show win0_3.index t (1 : Fin 2) * 64 + 1 * (y 1).val = (y 1).val; omega

/-- The second bias row's block at any point is the whole row. -/
theorem iblk_b2 (c : Dev nD) (t : Fin cfg0.N) : iblk0 V c 4 t = V c main_arg3 := by
  obtain ⟨-, -, -, -, -, -, -, -, -, -, e0, e1, -⟩ := idx_facts t
  funext y
  show V c main_arg3 (((cfg0.win 4).blk t).view.emb y) = V c main_arg3 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Row `n` of the image block at point `t` is image `4t + n`. -/
theorem iblk_img (c : Dev nD) (t : Fin cfg0.N) (n : Fin 4) (N : Fin 8192) (hN : N.val = 4 * t.val + n.val) (i j : Fin 28) :
    iblk0 V c 0 t (ix4 n i j (0 : Fin 1)) = V c main_v0 (ix4 N i j (0 : Fin 1)) := by
  obtain ⟨e0, e1, e2, e3, -⟩ := idx_facts t
  show V c main_v0 (((cfg0.win 0).blk t).view.emb (ix4 n i j (0 : Fin 1))) = _
  refine congrArg _ (funext fun a => Fin.ext ?_)
  match a with
  | ⟨0, _⟩ => show win0_0.index t (0 : Fin 4) * 4 + 1 * n.val = N.val; omega
  | ⟨1, _⟩ => show win0_0.index t (1 : Fin 4) * 28 + 1 * i.val = i.val; omega
  | ⟨2, _⟩ => show win0_0.index t (2 : Fin 4) * 28 + 1 * j.val = j.val; omega
  | ⟨3, _⟩ => show win0_0.index t (3 : Fin 4) * 1 + 1 * 0 = 0; omega

/-- WHAT POINT `t` WRITES BACK is block `t` of the pooled feature maps. -/
theorem flushed_eq (c : Dev nD) (t : Fin cfg0.N) :
    (dat0 V c).flushed 5 t = ((cfg0.win 5).blk t).view.read (Elt Ideal) (features V c) := by
  show (cfg0.win 5).cut (grid0.coords t) ((dat0 V c).after 5 t) = _
  rw [after0_5, iblk_w1, iblk_b1, iblk_w2, iblk_b2]
  obtain ⟨-, -, -, -, -, -, -, -, -, -, -, -, e0, e1, e2, e3⟩ := idx_facts t
  funext y
  have ht : t.val < 2048 := (show t.val < grid0.N from t.isLt).trans_eq N_0
  have hy0 : (y 0).val < 4 := (y 0).isLt
  have hy : y = ix4 (y 0) (y 1) (y 2) (y 3) := eq_ix4 y
  show out0_5 (iblk0 V c 0 t) (V c main_arg0) (V c main_arg1) (V c main_arg2) (V c main_arg3) y
      = features V c (((cfg0.win 5).blk t).view.emb y)
  rw [hy]
  refine (out_block (iblk0 V c 0 t) (V c main_arg0) (V c main_arg1) (V c main_arg2) (V c main_arg3) (V c main_v0)
    (⟨4 * t.val + (y 0).val, by omega⟩ : Fin 8192) (y 0) (fun i j => iblk_img V c t (y 0) _ rfl i j) (y 1) (y 2) (y 3)).trans ?_
  show Net.featR _ _ _ _ _ _ _ _ _ = Net.featR _ _ _ _ _ _ _ _ _
  congr 1
  · exact Fin.ext (by show 4 * t.val + (y 0).val = win0_5.index t (0 : Fin 4) * 4 + 1 * (y 0).val; omega)
  · exact Fin.ext (by show (y 1).val = win0_5.index t (1 : Fin 4) * 12 + 1 * (y 1).val; omega)
  · exact Fin.ext (by show (y 2).val = win0_5.index t (2 : Fin 4) * 12 + 1 * (y 2).val; omega)
  · exact Fin.ext (by show (y 3).val = win0_5.index t (3 : Fin 4) * 64 + 1 * (y 3).val; omega)

/-- An index of the output array is in point `t`'s block iff each coordinate is in the block's range on its axis. -/
theorem mem_blk (t : Fin cfg0.N) (i : S8192x12x12x64.Idx) :
    i ∈ ((cfg0.win 5).blk t).view.set ↔ ∀ a : Fin 4, win0_5.index t a * S4x12x12x64.size a ≤ (i a).val
      ∧ (i a).val < win0_5.index t a * S4x12x12x64.size a + S4x12x12x64.size a := by
  show i ∈ ((View.whole main_v1).slice (win0_5.rect t)).set ↔ _
  rw [View.set_slice_whole, Rect.mem_set_unit]
  exact Iff.rfl

/-- Every output row is written back by some point: row `r` by point `r / 4`. -/
theorem covered (i : S8192x12x12x64.Idx) :
    ∃ t : Fin cfg0.N, (cfg0.win 5).flush t = true ∧ i ∈ ((cfg0.win 5).blk t).view.set := by
  have hi0 : (i 0).val < 8192 := (i 0).isLt
  have hi1 : (i 1).val < 12 := (i 1).isLt
  have hi2 : (i 2).val < 12 := (i 2).isLt
  have hi3 : (i 3).val < 64 := (i 3).isLt
  have hlt : (i 0).val / 4 < cfg0.N := by rw [show cfg0.N = grid0.N from rfl, N_0]; omega
  refine ⟨⟨(i 0).val / 4, hlt⟩, flush0_5 _, ?_⟩
  obtain ⟨-, -, -, -, -, -, -, -, -, -, -, -, e0, e1, e2, e3⟩ := idx_facts ⟨(i 0).val / 4, hlt⟩
  have e0' : win0_5.index ⟨(i 0).val / 4, hlt⟩ (0 : Fin 4) = (i 0).val / 4 := e0
  rw [mem_blk]
  intro a
  match a with
  | ⟨0, _⟩ => show win0_5.index ⟨(i 0).val / 4, hlt⟩ (0 : Fin 4) * 4 ≤ (i 0).val ∧ (i 0).val < win0_5.index ⟨(i 0).val / 4, hlt⟩ (0 : Fin 4) * 4 + 4; omega
  | ⟨1, _⟩ => show win0_5.index ⟨(i 0).val / 4, hlt⟩ (1 : Fin 4) * 12 ≤ (i 1).val ∧ (i 1).val < win0_5.index ⟨(i 0).val / 4, hlt⟩ (1 : Fin 4) * 12 + 12; omega
  | ⟨2, _⟩ => show win0_5.index ⟨(i 0).val / 4, hlt⟩ (2 : Fin 4) * 12 ≤ (i 2).val ∧ (i 2).val < win0_5.index ⟨(i 0).val / 4, hlt⟩ (2 : Fin 4) * 12 + 12; omega
  | ⟨3, _⟩ => show win0_5.index ⟨(i 0).val / 4, hlt⟩ (3 : Fin 4) * 64 ≤ (i 3).val ∧ (i 3).val < win0_5.index ⟨(i 0).val / 4, hlt⟩ (3 : Fin 4) * 64 + 64; omega

/-- THE OUTPUT ARRAY AFTER THE CALL: the pooled feature maps of all 8192 images, from the arrays as found on entry. -/
theorem final0 (c : Dev nD) :
    (dat0 V c).arrAt 5 cfg0.N = fun y =>
      Net.featR (V c main_v0) (V c main_arg0) (V c main_arg1) (V c main_arg2) (V c main_arg3) (y 0) (y 1) (y 2) (y 3) :=
  (dat0 V c).arrAt_eq_of_cover 5 (features V c) (fun t _ => flushed_eq V c t) covered

end Cert.ReferenceIdeal.ConvValue

end
-- ==== Proof.RefValue.lean ====
import proofs.«158827_g2000604799650332_pallasbulk_197_4_alg».proof.Proof.RefRun
import proofs.«158827_g2000604799650332_pallasbulk_197_4_alg».proof.Proof.RefFcValue
import proofs.«158827_g2000604799650332_pallasbulk_197_4_alg».proof.Proof.RefHost
import proofs.«158827_g2000604799650332_pallasbulk_197_4_alg».proof.Proof.RefConvValue
import proofs.«158827_g2000604799650332_pallasbulk_197_4_alg».proof.Proof.Net

/-!
# The two-kernel program's result is the network of its arguments

Through the program's items: the first kernel finds the images re-laid (`Net.nhwc`) and its four parameter arrays as
launched, and leaves the pooled features `Net.featR` of them in its output array; the flattening turns that array into
`Net.flat` of those features; the second kernel finds its four parameter arrays as launched and leaves `Net.head` of the
four partial sums of the first dense layer in the result array.  That is `Net.outR` of the nine arguments.
-/

set_option maxRecDepth 16384

noncomputable section

namespace Cert.ReferenceIdeal.Result

open Idealize.ShloMosaic Idealize.ShloMosaic.TcCoe Idealize.SL.Sem Idealize.ShloMosaic.ValueIdx
open Cert.ReferenceIdeal Cert.ReferenceIdeal.Gen Cert.ReferenceIdeal.Run Cert.ReferenceIdeal.Conv Cert.ReferenceIdeal.Fc
open Cert.ReferenceIdeal.HostRead

variable (m : (ℓ : Loc nD τ sig) → Buf (Elt Ideal) ℓ) (ρ : Dev nD → PrngReg) (c : Dev nD)

/-- The images as launched, re-laid. -/
abbrev xs : Cert.Net.A4 8192 28 28 1 := Cert.Net.nhwc (m ((c : Thread nD τ).loc main_arg8))
/-- The first convolution's weights as launched. -/
abbrev a0 : Cert.Net.A2 9 32 := m ((c : Thread nD τ).loc main_arg0)
/-- The first convolution's bias as launched. -/
abbrev a1 : Cert.Net.A2 1 32 := m ((c : Thread nD τ).loc main_arg1)
/-- The second convolution's weights as launched. -/
abbrev a2 : Cert.Net.A2 288 64 := m ((c : Thread nD τ).loc main_arg2)
/-- The second convolution's bias as launched. -/
abbrev a3 : Cert.Net.A2 1 64 := m ((c : Thread nD τ).loc main_arg3)
/-- The first dense layer's weights as launched. -/
abbrev a4 : Cert.Net.A2 9216 128 := m ((c : Thread nD τ).loc main_arg4)
/-- The first dense layer's bias as launched. -/
abbrev a5 : Cert.Net.A2 1 128 := m ((c : Thread nD τ).loc main_arg5)
/-- The second dense layer's weights as launched. -/
abbrev a6 : Cert.Net.A2 128 10 := m ((c : Thread nD τ).loc main_arg6)
/-- The second dense layer's bias as launched. -/
abbrev a7 : Cert.Net.A2 1 10 := m ((c : Thread nD τ).loc main_arg7)

/-- The pooled features of the launch arguments. -/
abbrev feats : Fin 8192 → Fin 12 → Fin 12 → Fin 64 → EReal :=
  Cert.Net.featR (xs m c) (a0 m c) (a1 m c) (a2 m c) (a3 m c)

/-- After the first kernel its output array holds the pooled features. -/
theorem pooled_found :
    (W2 m ρ c (Proc.devRef .tc main_v1) : S8192x12x12x64.Idx → EReal)
      = fun y => feats m c (y 0) (y 1) (y 2) (y 3) := by
  have e : V1 m ρ c main_v0 = xs m c := relaid_images (W0 m ρ c)
  have e0 : V1 m ρ c main_arg0 = a0 m c := W1_main_arg0 m ρ c
  have e1 : V1 m ρ c main_arg1 = a1 m c := W1_main_arg1 m ρ c
  have e2 : V1 m ρ c main_arg2 = a2 m c := W1_main_arg2 m ρ c
  have e3 : V1 m ρ c main_arg3 = a3 m c := W1_main_arg3 m ρ c
  refine (W2_arr m ρ c 5).trans ?_
  rw [Cert.ReferenceIdeal.ConvValue.final0 (V1 m ρ) c, e, e0, e1, e2, e3]

/-- The second kernel finds the flattened features. -/
theorem feats_found (n : Fin 8192) (q : Fin 9216) :
    Cert.ReferenceIdeal.FcValue.X (V3 m ρ) c (ix2 n q) = Cert.Net.flat (feats m c) n q := by
  refine (flattened (W2 m ρ c) n q).trans ?_
  rw [pooled_found m ρ c]
  rfl

/-- After the second kernel the result array holds the network of the nine arguments. -/
theorem result :
    (dat1 (V3 m ρ) c).arrAt 5 cfg1.N
      = Cert.Net.outR (xs m c) (a0 m c) (a1 m c) (a2 m c) (a3 m c) (a4 m c) (a5 m c) (a6 m c) (a7 m c) := by
  have e4 : Cert.ReferenceIdeal.FcValue.Wt (V3 m ρ) c = a4 m c := W3_main_arg4 m ρ c
  have e5 : Cert.ReferenceIdeal.FcValue.B1 (V3 m ρ) c = a5 m c := W3_main_arg5 m ρ c
  have e6 : Cert.ReferenceIdeal.FcValue.W2 (V3 m ρ) c = a6 m c := W3_main_arg6 m ρ c
  have e7 : Cert.ReferenceIdeal.FcValue.B2 (V3 m ρ) c = a7 m c := W3_main_arg7 m ρ c
  rw [Cert.ReferenceIdeal.FcValue.final1 (V3 m ρ) c (feats m c) (feats_found m ρ c)]
  funext j
  show Cert.ReferenceIdeal.FcValue.row (V3 m ρ) c (feats m c) (j 0) (j 1) = _
  unfold Cert.ReferenceIdeal.FcValue.row Cert.ReferenceIdeal.FcValue.P
  rw [e4, e5, e6, e7]
  rfl

end Cert.ReferenceIdeal.Result

end
-- ==== Proof.NetBridge.lean ====
import proofs.«158827_g2000604799650332_pallasbulk_197_4_alg».proof.Proof.Net

/-!
# The two arrangements of the network are one function

`max` and `· + c` are monotone on the extended reals, so bias and ReLU commute with the maximum over a 2×2 window
(no finiteness is needed: the window is not empty, and a maximum started from minus infinity is the maximum of its
entries).  A sum over 9216 features is the sum of its four consecutive blocks of 2304, and adding them one after the
other to zero changes nothing.  So `outK = outR`.
-/

noncomputable section

open scoped BigOperators

namespace Cert.Net

open Idealize.ShloMosaic Idealize.ShloMosaic.ValueIdx

/-- The pattern of minus infinity denotes the least extended real. -/
theorem NEG_eq_bot : NEG = ⊥ := by
  simp [NEG, Ideal.ofBits, Ideal.ieee]

/-- A maximum over a window of two, started from minus infinity, is the larger of the two entries. -/
theorem fold_max_two (g : Fin 2 → EReal) :
    (Finset.univ : Finset (Fin 2)).fold max NEG g = max (g 0) (g 1) := by
  rw [NEG_eq_bot, show (Finset.univ : Finset (Fin 2)) = insert (0 : Fin 2) {1} from by decide,
    Finset.fold_insert (by decide), Finset.fold_singleton, max_bot_right]

/-- Bias then ReLU is monotone, so it goes inside a maximum of two. -/
theorem relu_bias_max (c x y : EReal) : max (max x y + c) 0 = max (max (x + c) 0) (max (y + c) 0) := by
  have hm : Monotone fun z : EReal => max (z + c) 0 :=
    fun a b hab => max_le_max (add_le_add_left hab c) le_rfl
  exact hm.map_max

variable (xs : A4 8192 28 28 1) (w1 : A2 9 32) (b1 : A2 1 32) (w2 : A2 288 64) (b2 : A2 1 64)
  (f1 : A2 9216 128) (f1b : A2 1 128) (f2 : A2 128 10) (f2b : A2 1 10)

/-- Pool, then bias and ReLU, is bias and ReLU, then pool. -/
theorem featK_eq_featR : featK xs w1 b1 w2 b2 = featR xs w1 b1 w2 b2 := by
  funext n p q d
  unfold featK featR
  simp only [fold_max_two, relu_bias_max]

/-- A sum over 9216 consecutive features is the sum over its four blocks of 2304. -/
theorem sum_blocks (g : Fin 9216 → EReal) :
    ∑ r : Fin 9216, g r
      = ∑ blk : Fin 4, ∑ k : Fin 2304, g (⟨2304 * blk.val + k.val, by omega⟩ : Fin 9216) := by
  rw [← Fintype.sum_prod_type']
  refine (Fintype.sum_equiv (finProdFinEquiv (m := 4) (n := 2304)) _ _ fun p => ?_).symm
  refine congrArg g (Fin.ext ?_)
  show 2304 * p.1.val + p.2.val = p.2.val + 2304 * p.1.val
  omega

/-- The first dense layer's sum taken four blocks at a time from zero is the sum over all features. -/
theorem hidR_eq_hidK : hidR xs w1 b1 w2 b2 f1 = hidK xs w1 b1 w2 b2 f1 := by
  funext n u
  unfold hidR hidK part
  rw [sum_blocks, Fin.sum_univ_four, zero_add, featK_eq_featR]

/-- The two arrangements of the network agree at every index. -/
theorem outK_eq_outR : outK xs w1 b1 w2 b2 f1 f1b f2 f2b = outR xs w1 b1 w2 b2 f1 f1b f2 f2b := by
  funext j
  unfold outK outR
  rw [hidR_eq_hidK]

end Cert.Net

end
-- ==== Proof.lean ====
/-
  Two programs compute the same small convolutional network on a batch of 8192 one-channel 28×28 images: a 3×3 convolution
  into 32 channels with bias and ReLU, a 3×3 convolution into 64 channels taken as one 288-term sum per output entry, a 2×2
  maximum pool with bias and ReLU, a dense layer into 128 units with bias and ReLU, a dense layer into 10 logits, and a
  log-softmax.  One program does all of it in a single kernel, eight images per grid point, pooling the raw sums before the
  bias and ReLU and summing the first dense layer over all 9216 features at once.  The other runs a convolution kernel
  (four images per grid point, bias and ReLU before the pool) and a dense kernel that adds the first dense layer's sum four
  slabs of 2304 features at a time into an accumulator kept between grid points.

  Over the extended reals the two agree, with no assumption on the inputs: bias-then-ReLU is monotone, so it commutes with
  the maximum over the (non-empty) pooling window; a finite sum may be split into consecutive blocks and added to zero; a
  change of float format is the identity.  `Net.lean` states the network in both arrangements, `NetBridge.lean` proves them
  equal, the `Kernel*` modules read the single kernel's result array as the first arrangement, the `Ref*` modules run the
  two-kernel program and read its result array as the second.  The word-level kernel and its idealization differ in no
  operation, so nothing is owed for the idealization itself.
-/
import proofs.«158827_g2000604799650332_pallasbulk_197_4_alg».proof.Defs
import proofs.«158827_g2000604799650332_pallasbulk_197_4_alg».proof.Proof.Gen.Kernel
import proofs.«158827_g2000604799650332_pallasbulk_197_4_alg».proof.Proof.Gen.Kernel.Frame
import proofs.«158827_g2000604799650332_pallasbulk_197_4_alg».proof.Proof.Gen.KernelIdeal
import proofs.«158827_g2000604799650332_pallasbulk_197_4_alg».proof.Proof.Gen.KernelIdeal.Frame
import proofs.«158827_g2000604799650332_pallasbulk_197_4_alg».proof.Proof.Gen.ReferenceIdeal
import proofs.«158827_g2000604799650332_pallasbulk_197_4_alg».proof.Proof.Gen.Pre_finite_inputs
import proofs.«158827_g2000604799650332_pallasbulk_197_4_alg».proof.Proof.KernelRun
import proofs.«158827_g2000604799650332_pallasbulk_197_4_alg».proof.Proof.RefRun
import proofs.«158827_g2000604799650332_pallasbulk_197_4_alg».proof.Proof.RefValue
import proofs.«158827_g2000604799650332_pallasbulk_197_4_alg».proof.Proof.NetBridge

set_option maxRecDepth 16384

noncomputable section

namespace Cert.Proof

open Idealize.ShloMosaic Idealize.ShloMosaic.TcCoe Idealize.SL.Sem

/-- The word-level kernel runs and leaves its arguments as they were. -/
theorem frame_kernel : @Cert.frame_Kernel Cert.Kernel.Gen.facts Cert.Pre_finite_inputs.Gen.facts :=
  fun m ρ _ => Cert.Kernel.Gen.frame m ρ

/-- So does its idealization. -/
theorem frame_kernelIdeal : @Cert.frame_KernelIdeal Cert.KernelIdeal.Gen.facts Cert.Pre_finite_inputs.Gen.facts :=
  fun m ρ _ => Cert.KernelIdeal.Gen.frame m ρ

/-- The two-kernel program runs and leaves its arguments as they were: its run, the result array dropped. -/
theorem frame_reference : @Cert.frame_ReferenceIdeal Cert.ReferenceIdeal.Gen.facts Cert.Pre_finite_inputs.Gen.facts :=
  fun m ρ _ =>
    (θ_run Cert.ReferenceIdeal.defs _ _).mono (fun _ h c => (h c).2) (Cert.ReferenceIdeal.Run.run (F := Ideal) m ρ)

/-- From memories that agree on the nine arguments both programs end with the network of those arguments in their result
    arrays — the single kernel in the pool-first, one-sum arrangement, the two-kernel program in the ReLU-first, four-slab
    arrangement — and the two arrangements are one function. -/
theorem algebraic :
    @Cert.algebraic_KernelIdeal_ReferenceIdeal Cert.KernelIdeal.Gen.facts Cert.ReferenceIdeal.Gen.facts
      Cert.Pre_finite_inputs.Gen.facts := by
  intro m ρ m' ρ' _ hagree
  refine ⟨_, Cert.KernelIdeal.NetValue.run m ρ, ?_⟩
  refine (θ_run Cert.ReferenceIdeal.defs _ _).mono (fun _ h c => ⟨(h c).1.trans ?_, (h c).2⟩)
    (Cert.ReferenceIdeal.Run.run (F := Ideal) m' ρ')
  obtain ⟨h0, h1, h2, h3, h4, h5, h6, h7, h8⟩ := hagree c
  rw [Cert.ReferenceIdeal.Result.result m' ρ' c]
  dsimp only [Cert.ReferenceIdeal.Result.xs, Cert.ReferenceIdeal.Result.a0, Cert.ReferenceIdeal.Result.a1,
    Cert.ReferenceIdeal.Result.a2, Cert.ReferenceIdeal.Result.a3, Cert.ReferenceIdeal.Result.a4,
    Cert.ReferenceIdeal.Result.a5, Cert.ReferenceIdeal.Result.a6, Cert.ReferenceIdeal.Result.a7]
  rw [h0, h1, h2, h3, h4, h5, h6, h7, h8]
  exact (Cert.Net.outK_eq_outR _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
